-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S4x128x128 : Shape := ⟨3, ![4, 128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_

variable [Facts]

def fn_part1 {F : FTy → Type} [FloatOps F] (main_arg6 : FVec F S128x128 .f32) (main_arg7 : FVec F S128 .f32) (main_arg8 : FVec F S4x128x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S4x128x128 .f32 := Host.absf main_arg8
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S1600000 .f32) (main_arg4 : FVec F S128x128 .f32) (main_arg5 : FVec F S128 .f32) (main_arg6 : FVec F S128x128 .f32) (main_arg7 : FVec F S128 .f32) (main_arg8 : FVec F S4x128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S4x128x128 : Shape := ⟨3, ![4, 128, 128]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S5000 : Shape := ⟨1, ![5000]⟩
abbrev S5000x1 : Shape := ⟨2, ![5000, 1]⟩

abbrev nBuf : Space → Nat
  | .hbm => 89
  | .vmem => 40
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S4x128x128, .f32⟩
  | .hbm, ⟨9, _⟩ => ⟨S1x128, .f32⟩
  | .hbm, ⟨10, _⟩ => ⟨S100000x128, .f32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S1x128x128, .f32⟩
  | .hbm, ⟨28, _⟩ => ⟨S128x128, .f32⟩
  | .hbm, ⟨29, _⟩ => ⟨S100000x128, .f32⟩
  | .hbm, ⟨30, _⟩ => ⟨S_, .i32⟩
  | .hbm, ⟨31, _⟩ => ⟨S1600000, .i32⟩
  | .hbm, ⟨32, _⟩ => ⟨S1600000, .i1⟩
  | .hbm, ⟨33, _⟩ => ⟨S_, .i32⟩
  | .hbm, ⟨34, _⟩ => ⟨S1600000, .i32⟩
  | .hbm, ⟨35, _⟩ => ⟨S1600000, .i32⟩
  | .hbm, ⟨36, _⟩ => ⟨S1600000, .i32⟩
  | .hbm, ⟨37, _⟩ => ⟨S1600000x1, .i32⟩
  | .hbm, ⟨38, _⟩ => ⟨S1600000x128, .f32⟩
  | .hbm, ⟨39, _⟩ => ⟨S1600000x1, .f32⟩
  | .hbm, ⟨40, _⟩ => ⟨S1600000x128, .f32⟩
  | .hbm, ⟨41, _⟩ => ⟨S1600000x128, .f32⟩
  | .hbm, ⟨42, _⟩ => ⟨S_, .f32⟩
  | .hbm, ⟨43, _⟩ => ⟨S100000x128, .f32⟩
  | .hbm, ⟨44, _⟩ => ⟨S1600000x1, .i32⟩
  | .hbm, ⟨45, _⟩ => ⟨S100000x128, .f32⟩
  | .hbm, ⟨46, _⟩ => ⟨S1x128x128, .f32⟩
  | .hbm, ⟨47, _⟩ => ⟨S128x128, .f32⟩
  | .hbm, ⟨48, _⟩ => ⟨S100000x128, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .f32⟩
  | .hbm, ⟨58, _⟩ => ⟨S1600000x1, .f32⟩
  | .hbm, ⟨59, _⟩ => ⟨S1600000x128, .f32⟩
  | .hbm, ⟨60, _⟩ => ⟨S1600000x128, .f32⟩
  | .hbm, ⟨61, _⟩ => ⟨S_, .f32⟩
  | .hbm, ⟨62, _⟩ => ⟨S100000x128, .f32⟩
  | .hbm, ⟨63, _⟩ => ⟨S1600000x1, .i32⟩
  | .hbm, ⟨64, _⟩ => ⟨S100000x128, .f32⟩
  | .hbm, ⟨65, _⟩ => ⟨S1x128x128, .f32⟩
  | .hbm, ⟨66, _⟩ => ⟨S128x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x1, .f32⟩
  | .hbm, ⟨78, _⟩ => ⟨S1600000x128, .f32⟩
  | .hbm, ⟨79, _⟩ => ⟨S1600000x128, .f32⟩
  | .hbm, ⟨80, _⟩ => ⟨S_, .f32⟩
  | .hbm, ⟨81, _⟩ => ⟨S100000x128, .f32⟩
  | .hbm, ⟨82, _⟩ => ⟨S1600000x1, .i32⟩
  | .hbm, ⟨83, _⟩ => ⟨S100000x128, .f32⟩
  | .hbm, ⟨84, _⟩ => ⟨S1x128x128, .f32⟩
  | .hbm, ⟨85, _⟩ => ⟨S128x128, .f32⟩
  | .hbm, ⟨86, _⟩ => ⟨S100000x128, .f32⟩
  | .hbm, ⟨87, _⟩ => ⟨S1x128, .f32⟩
  | .hbm, ⟨88, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S128x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S5000x128, .f32⟩
  | .local _ .vmem, ⟨31, _⟩ => ⟨S128x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_v2 : Ref sig .tc := ⟨.hbm, 12, rfl⟩
abbrev main_v3 : Ref sig .tc := ⟨.hbm, 13, rfl⟩
abbrev main_c_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_c_4 : Ref sig .tc := ⟨.hbm, 49, rfl⟩
abbrev main_v34 : Ref sig .tc := ⟨.hbm, 50, rfl⟩
abbrev main_v35 : Ref sig .tc := ⟨.hbm, 51, rfl⟩
abbrev main_c_5 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_6 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_c_7 : Ref sig .tc := ⟨.hbm, 68, rfl⟩
abbrev main_v50 : Ref sig .tc := ⟨.hbm, 69, rfl⟩
abbrev main_v51 : Ref sig .tc := ⟨.hbm, 70, rfl⟩
abbrev main_c_8 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_9 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg1_1 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg3_1 : Ref sig .tc := ⟨.vmem, 26, rfl⟩
abbrev cc4_stg0_0 : Ref sig .tc := ⟨.vmem, 27, rfl⟩
abbrev cc4_stg0_1 : Ref sig .tc := ⟨.vmem, 28, rfl⟩
abbrev cc4_stg1_0 : Ref sig .tc := ⟨.vmem, 29, rfl⟩
abbrev cc4_stg1_1 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem1_1 : DmaSem sig := 23
abbrev cc3_sem2_0 : DmaSem sig := 24
abbrev cc3_sem3_0 : DmaSem sig := 25
abbrev cc3_sem3_1 : DmaSem sig := 26
abbrev cc4_sem0_0 : DmaSem sig := 27
abbrev cc4_sem0_1 : DmaSem sig := 28
abbrev cc4_sem1_0 : DmaSem sig := 29
abbrev cc4_sem1_1 : DmaSem sig := 30
abbrev cc4_sem2_0 : DmaSem sig := 31
abbrev cc4_sem3_0 : DmaSem sig := 32
abbrev cc4_sem3_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  reduces_S5000x128_S5000 : S5000x128.Reduces [1] S5000
  shapeCasts_S5000_S5000x1 : S5000.ShapeCasts S5000x1
  broadcasts_S5000x1_S5000x128 : S5000x1.Broadcasts S5000x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S100000x128.size a
  hwx2_1 : ∀ i : grid2.Coords, EltTy.bits .f32 = 32 ∨ (Rect.block (s := S100000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x128.size a ≤ S100000x128.size a
  hwx4_3 : ∀ i : grid4.Coords, EltTy.bits .f32 = 32 ∨ (Rect.block (s := S100000x128) S5000x128.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v30) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v32) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v33) S5000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v46) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v48) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v49) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v64) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v65) S5000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg6) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v66) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v67) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S4x128x128 : Shape := ⟨3, ![4, 128, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S100000 : Shape := ⟨1, ![100000]⟩
abbrev S100000x1 : Shape := ⟨2, ![100000, 1]⟩

abbrev nBuf : Space → Nat
  | .hbm => 179
  | .vmem => 0
  | .smem => 0
  | _ => 0

abbrev hbmTy0_0 (i : Nat) : BufTy := match i % 128 with
  | 0 => ⟨S100000x128, .f32⟩
  | 1 => ⟨S1600000, .i32⟩
  | 2 => ⟨S1600000, .i32⟩
  | 3 => ⟨S1600000, .f32⟩
  | 4 => ⟨S128x128, .f32⟩
  | 5 => ⟨S128, .f32⟩
  | 6 => ⟨S128x128, .f32⟩
  | 7 => ⟨S128, .f32⟩
  | 8 => ⟨S4x128x128, .f32⟩
  | 9 => ⟨S100000x128, .f32⟩
  | 10 => ⟨S1x128, .f32⟩
  | 11 => ⟨S100000x128, .f32⟩
  | 12 => ⟨S100000x128, .f32⟩
  | 13 => ⟨S_, .f32⟩
  | 14 => ⟨S100000x128, .f32⟩
  | 15 => ⟨S100000x128, .f32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x128, .f32⟩
  | 25 => ⟨S1600000x1, .f32⟩
  | 26 => ⟨S1600000x128, .f32⟩
  | 27 => ⟨S1600000x128, .f32⟩
  | 28 => ⟨S_, .f32⟩
  | 29 => ⟨S100000x128, .f32⟩
  | 30 => ⟨S1600000x1, .i32⟩
  | 31 => ⟨S100000x128, .f32⟩
  | 32 => ⟨S_, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S100000x128, .f32⟩
  | 39 => ⟨S_, .f32⟩
  | 40 => ⟨S100000x128, .f32⟩
  | 41 => ⟨S100000x128, .f32⟩
  | 42 => ⟨S1x128x128, .f32⟩
  | 43 => ⟨S128x128, .f32⟩
  | 44 => ⟨S100000x128, .f32⟩
  | 45 => ⟨S_, .f32⟩
  | 46 => ⟨S100000x128, .f32⟩
  | 47 => ⟨S100000x128, .f32⟩
  | 48 => ⟨S100000x128, .f32⟩
  | 49 => ⟨S_, .f32⟩
  | 50 => ⟨S100000x128, .f32⟩
  | 51 => ⟨S100000x128, .f32⟩
  | 52 => ⟨S_, .i32⟩
  | 53 => ⟨S1600000, .i32⟩
  | 54 => ⟨S1600000, .i1⟩
  | 55 => ⟨S_, .i32⟩
  | 56 => ⟨S1600000, .i32⟩
  | 57 => ⟨S1600000, .i32⟩
  | 58 => ⟨S1600000, .i32⟩
  | 59 => ⟨S1600000x1, .i32⟩
  | 60 => ⟨S1600000x128, .f32⟩
  | 61 => ⟨S1600000x1, .f32⟩
  | 62 => ⟨S1600000x128, .f32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S_, .f32⟩
  | 69 => ⟨S100000x128, .f32⟩
  | 70 => ⟨S100000x128, .f32⟩
  | 71 => ⟨S_, .f32⟩
  | 72 => ⟨S100000x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S_, .f32⟩
  | 82 => ⟨S100000x128, .f32⟩
  | 83 => ⟨S100000x128, .f32⟩
  | 84 => ⟨S100000x128, .f32⟩
  | 85 => ⟨S_, .f32⟩
  | 86 => ⟨S100000x128, .f32⟩
  | 87 => ⟨S100000x128, .f32⟩
  | 88 => ⟨S_, .i32⟩
  | 89 => ⟨S1600000, .i32⟩
  | 90 => ⟨S1600000, .i1⟩
  | 91 => ⟨S_, .i32⟩
  | 92 => ⟨S1600000, .i32⟩
  | 93 => ⟨S1600000, .i32⟩
  | 94 => ⟨S1600000, .i32⟩
  | 95 => ⟨S1600000x1, .i32⟩
  | 96 => ⟨S1600000x128, .f32⟩
  | 97 => ⟨S1600000x1, .f32⟩
  | 98 => ⟨S1600000x128, .f32⟩
  | 99 => ⟨S1600000x128, .f32⟩
  | 100 => ⟨S_, .f32⟩
  | 101 => ⟨S100000x128, .f32⟩
  | 102 => ⟨S1600000x1, .i32⟩
  | 103 => ⟨S100000x128, .f32⟩
  | 104 => ⟨S_, .f32⟩
  | 105 => ⟨S100000x128, .f32⟩
  | 106 => ⟨S100000x128, .f32⟩
  | 107 => ⟨S_, .f32⟩
  | 108 => ⟨S100000x128, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S1x128x128, .f32⟩
  | 115 => ⟨S128x128, .f32⟩
  | 116 => ⟨S100000x128, .f32⟩
  | 117 => ⟨S_, .f32⟩
  | 118 => ⟨S100000x128, .f32⟩
  | 119 => ⟨S100000x128, .f32⟩
  | 120 => ⟨S100000x128, .f32⟩
  | 121 => ⟨S_, .f32⟩
  | 122 => ⟨S100000x128, .f32⟩
  | 123 => ⟨S100000x128, .f32⟩
  | 124 => ⟨S_, .i32⟩
  | 125 => ⟨S1600000, .i32⟩
  | 126 => ⟨S1600000, .i1⟩
  | 127 => ⟨S_, .i32⟩
  | _ => ⟨S100000x128, .f32⟩

abbrev hbmTy0_1 (i : Nat) : BufTy := match i % 128 with
  | 0 => ⟨S1600000, .i32⟩
  | 1 => ⟨S1600000, .i32⟩
  | 2 => ⟨S1600000, .i32⟩
  | 3 => ⟨S1600000x1, .i32⟩
  | 4 => ⟨S1600000x128, .f32⟩
  | 5 => ⟨S1600000x1, .f32⟩
  | 6 => ⟨S1600000x128, .f32⟩
  | 7 => ⟨S1600000x128, .f32⟩
  | 8 => ⟨S_, .f32⟩
  | 9 => ⟨S100000x128, .f32⟩
  | 10 => ⟨S1600000x1, .i32⟩
  | 11 => ⟨S100000x128, .f32⟩
  | 12 => ⟨S_, .f32⟩
  | 13 => ⟨S100000x128, .f32⟩
  | 14 => ⟨S100000x128, .f32⟩
  | 15 => ⟨S_, .f32⟩
  | 16 => ⟨S100000x128, .f32⟩
  | 17 => ⟨S100000x128, .f32⟩
  | 18 => ⟨S100000x128, .f32⟩
  | 19 => ⟨S_, .f32⟩
  | 20 => ⟨S100000x128, .f32⟩
  | 21 => ⟨S100000x128, .f32⟩
  | 22 => ⟨S1x128x128, .f32⟩
  | 23 => ⟨S128x128, .f32⟩
  | 24 => ⟨S100000x128, .f32⟩
  | 25 => ⟨S_, .f32⟩
  | 26 => ⟨S100000x128, .f32⟩
  | 27 => ⟨S100000x128, .f32⟩
  | 28 => ⟨S100000x128, .f32⟩
  | 29 => ⟨S_, .f32⟩
  | 30 => ⟨S100000x128, .f32⟩
  | 31 => ⟨S100000x128, .f32⟩
  | 32 => ⟨S100000x128, .f32⟩
  | 33 => ⟨S1x128, .f32⟩
  | 34 => ⟨S100000x128, .f32⟩
  | 35 => ⟨S100000x128, .f32⟩
  | 36 => ⟨S_, .f32⟩
  | 37 => ⟨S100000, .f32⟩
  | 38 => ⟨S_, .f32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S100000x128, .f32⟩
  | 45 => ⟨S_, .f32⟩
  | 46 => ⟨S100000, .f32⟩
  | 47 => ⟨S100000x1, .f32⟩
  | 48 => ⟨S100000x1, .f32⟩
  | 49 => ⟨S100000x128, .f32⟩
  | 50 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_cst : Ref sig .tc := ⟨.hbm, 13, rfl⟩
abbrev main_call0_v0 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_c_6 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_cst_9 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_10 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_11 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_call2_cst : Ref sig .tc := ⟨.hbm, 85, rfl⟩
abbrev main_call2_v0 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_cst_14 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_15 : Ref sig .tc := ⟨.hbm, 104, rfl⟩
abbrev main_v72 : Ref sig .tc := ⟨.hbm, 105, rfl⟩
abbrev main_v73 : Ref sig .tc := ⟨.hbm, 106, rfl⟩
abbrev main_cst_16 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_cst_17 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_cst_18 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_call3_cst : Ref sig .tc := ⟨.hbm, 121, rfl⟩
abbrev main_call3_v0 : Ref sig .tc := ⟨.hbm, 122, rfl⟩
abbrev main_v85 : Ref sig .tc := ⟨.hbm, 123, rfl⟩
abbrev main_c_19 : Ref sig .tc := ⟨.hbm, 124, rfl⟩
abbrev main_v86 : Ref sig .tc := ⟨.hbm, 125, rfl⟩
abbrev main_v87 : Ref sig .tc := ⟨.hbm, 126, rfl⟩
abbrev main_c_20 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_21 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_cst_22 : Ref sig .tc := ⟨.hbm, 140, rfl⟩
abbrev main_v99 : Ref sig .tc := ⟨.hbm, 141, rfl⟩
abbrev main_v100 : Ref sig .tc := ⟨.hbm, 142, rfl⟩
abbrev main_cst_23 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_cst_24 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_cst_25 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_call4_cst : Ref sig .tc := ⟨.hbm, 157, rfl⟩
abbrev main_call4_v0 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_call5_cst : Ref sig .tc := ⟨.hbm, 164, rfl⟩
abbrev main_call5_v0 : Ref sig .tc := ⟨.hbm, 165, rfl⟩
abbrev main_call5_cst_0 : Ref sig .tc := ⟨.hbm, 166, rfl⟩
abbrev main_call5_v1 : Ref sig .tc := ⟨.hbm, 167, rfl⟩
abbrev main_call5_v2 : Ref sig .tc := ⟨.hbm, 168, rfl⟩
abbrev main_call5_v3 : Ref sig .tc := ⟨.hbm, 169, rfl⟩
abbrev main_call5_v4 : Ref sig .tc := ⟨.hbm, 170, rfl⟩
abbrev main_call5_v5 : Ref sig .tc := ⟨.hbm, 171, rfl⟩
abbrev main_call5_v6 : Ref sig .tc := ⟨.hbm, 172, rfl⟩
abbrev main_call5_cst_1 : Ref sig .tc := ⟨.hbm, 173, rfl⟩
abbrev main_call5_v7 : Ref sig .tc := ⟨.hbm, 174, rfl⟩
abbrev main_call5_v8 : Ref sig .tc := ⟨.hbm, 175, rfl⟩
abbrev main_call5_v9 : Ref sig .tc := ⟨.hbm, 176, rfl⟩
abbrev main_call5_v10 : Ref sig .tc := ⟨.hbm, 177, rfl⟩
abbrev main_v117 : Ref sig .tc := ⟨.hbm, 178, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  slices_S4x128x128_S1x128x128_0_0_0 : S4x128x128.Slices ![0, 0, 0] S1x128x128
  shapeCasts_S1x128x128_S128x128 : S1x128x128.ShapeCasts S128x128
  slices_S4x128x128_S1x128x128_1_0_0 : S4x128x128.Slices ![1, 0, 0] S1x128x128
  slices_S4x128x128_S1x128x128_2_0_0 : S4x128x128.Slices ![2, 0, 0] S1x128x128
  slices_S4x128x128_S1x128x128_3_0_0 : S4x128x128.Slices ![3, 0, 0] S1x128x128
  reducesTo_S100000x128_S100000_d1 : S100000x128.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.Spec.lean ====
/-
  The mathematics both programs compute, one ROW at a time.

  A node's features are a row of 128 extended reals; a layer's weights a 128 × 128 table. Every dense stage of the network
  acts on each row on its own:
  * the input projection sends a row `r` to `max (r · W + b) 0`;
  * a propagation layer mixes the aggregated row with the first layer's row, `o = c₁ · agg + c₂ · x₀`, and sends it to
    `max (c₃ · o + c₄ · (o · W)) 0` (the four numbers are float words, read at their exact values);
  * the classifier takes `ℓ = r · W + b`, subtracts the row's largest entry, and subtracts the logarithm of the sum of the
    exponentials of what is left (a log-softmax along the row).
  The array forms below apply the row functions at every row of a 100000 × 128 array. Nothing here mentions a program:
  the kernel's blocks of 5000 rows and the reference's whole-array operations are both shown equal to these.
-/
import Idealize.ShloMosaic.PureOps.Ideal
import Idealize.ShloMosaic.PureOps.Ideal.Laws
import Idealize.ShloMosaic.Lib.ValueIdx
import Mathlib.Data.Finset.Fold

noncomputable section

open scoped BigOperators

namespace Cert.Gcn

open Idealize.ShloMosaic Idealize.ShloMosaic.ValueIdx

/-- One node's features. -/
abbrev Row := Fin 128 → EReal
/-- A weight table, entry (k, j) multiplying input feature k into output feature j. -/
abbrev Mat := Fin 128 → Fin 128 → EReal

/-- The node arrays' shape, the weight tables' shape. -/
abbrev SN : Shape := ⟨2, ![100000, 128]⟩
abbrev SW : Shape := ⟨2, ![128, 128]⟩

/-- Entry j of the row-times-table product. -/
def dotRow (r : Row) (w : Mat) (j : Fin 128) : EReal := ∑ k : Fin 128, r k * w k j

/-- The input projection of one row: `max (r · W + b) 0`. -/
def projRow (r : Row) (w : Mat) (b : Row) (j : Fin 128) : EReal :=
  max (dotRow r w j + b j) (Ideal.ofBits .f32 0x00000000#32)

/-- The initial-residual mix of one row: `c₁ · agg + c₂ · x₀`. -/
def mixRow (c1 c2 : BitVec 32) (agg x0 : Row) : Row :=
  fun k => Ideal.ofBits .f32 c1 * agg k + Ideal.ofBits .f32 c2 * x0 k

/-- One propagation layer on one row: `max (c₃ · o + c₄ · (o · W)) 0` with `o` the mixed row. -/
def combRow (c1 c2 c3 c4 : BitVec 32) (agg x0 : Row) (w : Mat) (j : Fin 128) : EReal :=
  max (Ideal.ofBits .f32 c3 * mixRow c1 c2 agg x0 j + Ideal.ofBits .f32 c4 * dotRow (mixRow c1 c2 agg x0) w j)
    (Ideal.ofBits .f32 0x00000000#32)

/-- The classifier's logits of one row. -/
def logitsRow (r : Row) (w : Mat) (b : Row) : Row := fun j => dotRow r w j + b j

/-- The largest entry of a row, folded from the word of −∞. -/
def rowMax (l : Row) : EReal := (Finset.univ : Finset (Fin 128)).fold max (Ideal.ofBits .f32 0xFF800000#32) l

/-- A row shifted by its largest entry. -/
def shiftRow (l : Row) : Row := fun j => l j - rowMax l

/-- The log-softmax of the logits of one row. -/
def finRow (r : Row) (w : Mat) (b : Row) (q : Fin 128) : EReal :=
  shiftRow (logitsRow r w b) q - Ideal.log (∑ j : Fin 128, Ideal.exp (shiftRow (logitsRow r w b) j))

/-- Row `r` of a node array, and a weight array as a table. -/
def rowOf (A : SN.Idx → EReal) (r : Fin 100000) : Row := fun k => A (ix2 r k)
def matOf (W : SW.Idx → EReal) : Mat := fun k j => W (ix2 k j)

/-- The three dense stages on whole arrays: the row function at every row. -/
def projArr (A : SN.Idx → EReal) (W : SW.Idx → EReal) (b : Row) : SN.Idx → EReal :=
  fun i => projRow (rowOf A (i 0)) (matOf W) b (i 1)
def combArr (c1 c2 c3 c4 : BitVec 32) (agg x0 : SN.Idx → EReal) (W : SW.Idx → EReal) : SN.Idx → EReal :=
  fun i => combRow c1 c2 c3 c4 (rowOf agg (i 0)) (rowOf x0 (i 0)) (matOf W) (i 1)
def finArr (A : SN.Idx → EReal) (W : SW.Idx → EReal) (b : Row) : SN.Idx → EReal :=
  fun i => finRow (rowOf A (i 0)) (matOf W) b (i 1)

/-- The fold of `max` never falls below the value it starts from, so taking the larger of the two changes nothing. -/
theorem max_init_rowMax (l : Row) : max (Ideal.ofBits .f32 0xFF800000#32) (rowMax l) = rowMax l :=
  max_eq_right ((Finset.le_fold_max (s := Finset.univ) (f := l) _).mpr (Or.inl le_rfl))

end Cert.Gcn

end
-- ==== Proof.HostChain.lean ====
/-
  The host side the two programs share, as functions of arrays.

  Between the dense stages both programs run the same sparse product on the host: the source indices are made
  non-negative (an index below zero has the node count added), each edge gathers its source node's row, the row is
  scaled by the edge weight, and the scaled rows are added into the rows of their destination nodes, starting from an
  array of zeros. `spmm` is that chain as one function of the node array and the three edge arrays; it is never opened:
  both programs apply it to equal arguments. `wslice l` is layer `l`'s 128 × 128 table cut out of the stacked weights
  and `biasRow` reads a length-128 vector, laid out as one row of a [1, 128] array, as a row.
-/
import proofs.«109353_j58935541236367_1_alg».proof.Proof.Gen.KernelIdeal
import proofs.«109353_j58935541236367_1_alg».proof.Proof.Spec
import Idealize.ShloMosaic.Lib.Pipeline.Value

noncomputable section

namespace Cert.Gcn

open Idealize.ShloMosaic Idealize.ShloMosaic.ValueIdx Cert.KernelIdeal Cert.KernelIdeal.Facts₀

variable {F : FTy → Type} [FloatOps F]

/-- The sparse product: gather the source rows, scale by the edge weights, add into the destination rows. -/
def spmm (h : (⟨S100000x128, .f32⟩ : BufTy).Contents (Elt F)) (src dst : (⟨S1600000, .i32⟩ : BufTy).Contents (Elt F))
    (w : (⟨S1600000, .f32⟩ : BufTy).Contents (Elt F)) : (⟨S100000x128, .f32⟩ : BufTy).Contents (Elt F) :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (mulf
      (Host.gather gather_S100000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32))) src)))
      (broadcastInDim S1600000x128 ![0, 1] bcast_S1600000x1_S1600000x128_0_1
        (broadcastInDim S1600000x1 ![0] bcast_S1600000_S1600000x1_0 w)))

/-- Layer 0 … 3's weight table out of the stacked [4, 128, 128] array. -/
def wslice0 (x : (⟨S4x128x128, .f32⟩ : BufTy).Contents (Elt F)) : (⟨S128x128, .f32⟩ : BufTy).Contents (Elt F) :=
  shapeCast S128x128 (extractStridedSlice S1x128x128 ![0, 0, 0] x slices_S4x128x128_S1x128x128_0_0_0) shapeCasts_S1x128x128_S128x128
def wslice1 (x : (⟨S4x128x128, .f32⟩ : BufTy).Contents (Elt F)) : (⟨S128x128, .f32⟩ : BufTy).Contents (Elt F) :=
  shapeCast S128x128 (extractStridedSlice S1x128x128 ![1, 0, 0] x slices_S4x128x128_S1x128x128_1_0_0) shapeCasts_S1x128x128_S128x128
def wslice2 (x : (⟨S4x128x128, .f32⟩ : BufTy).Contents (Elt F)) : (⟨S128x128, .f32⟩ : BufTy).Contents (Elt F) :=
  shapeCast S128x128 (extractStridedSlice S1x128x128 ![2, 0, 0] x slices_S4x128x128_S1x128x128_2_0_0) shapeCasts_S1x128x128_S128x128
def wslice3 (x : (⟨S4x128x128, .f32⟩ : BufTy).Contents (Elt F)) : (⟨S128x128, .f32⟩ : BufTy).Contents (Elt F) :=
  shapeCast S128x128 (extractStridedSlice S1x128x128 ![3, 0, 0] x slices_S4x128x128_S1x128x128_3_0_0) shapeCasts_S1x128x128_S128x128

/-- A bias vector as a row. -/
def biasRow (b : (⟨S128, .f32⟩ : BufTy).Contents (Elt Ideal)) : Row := fun j => b (ix1 j)

/-- The vector reshaped to one row of a [1, 128] array holds entry j at (0, j). -/
theorem reshape_bias (b : (⟨S128, .f32⟩ : BufTy).Contents (Elt Ideal)) :
    (fun j : Fin 128 => (shapeCast S1x128 b shapeCasts_S128_S1x128 : (⟨S1x128, .f32⟩ : BufTy).Contents (Elt Ideal)) (ix2 0 j)) = biasRow b := by
  funext j
  unfold biasRow
  exact shapeCast_apply b shapeCasts_S128_S1x128 (ix2 0 j) (ix1 j) (by
    rewrite [Shape.rowMajor_val_two, Shape.rowMajor_val_one]
    show j.val = 0 * 128 + j.val
    omega)

end Cert.Gcn

end
-- ==== Proof.Pay.lean ====
/-
  The three kernel bodies read at one entry of their block.

  Each body loads a block of 5000 rows, the stage's 128 × 128 table and (first and last stage) a bias row, and stores one
  block of 5000 rows. Read at row p and column q of the block, what it stores is the stage's row function of row p of the
  loaded block: the matrix product into a zero accumulator is the sum over the contracted coordinate k of
  block(p, k) · table(k, q); a bias row broadcast down the block contributes its entry q; roundings to a narrower float
  format are the identity on the extended reals; the lane maximum and lane sum of the last stage are the fold of `max`
  from −∞ and the sum over the 128 entries of row p.
-/
import proofs.«109353_j58935541236367_1_alg».proof.Proof.Gen.KernelIdeal.Skeleton
import proofs.«109353_j58935541236367_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Gcn.Pay

open Idealize.ShloMosaic Idealize.ShloMosaic.ValueIdx Cert.KernelIdeal Cert.KernelIdeal.Gen Cert.Gcn

/-! ## The block product's operand indices -/

theorem lhs0 (i : S5000x128.Idx) (q : dot_S5000x128_S128x128_S5000x128_1_0_0_1_n_n.contr.Idx) : (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs1 (i : S5000x128.Idx) (q : dot_S5000x128_S128x128_S5000x128_1_0_0_1_n_n.contr.Idx) : (dot_S5000x128_S128x128_S5000x128_1_0_0_1_n_n.lhsIdx i q 1).val = (q ⟨0, by decide⟩).val :=
  dot_S5000x128_S128x128_S5000x128_1_0_0_1_n_n.lhsIdx_val_of_single rfl i q
theorem rhs0 (i : S5000x128.Idx) (q : dot_S5000x128_S128x128_S5000x128_1_0_0_1_n_n.contr.Idx) : (dot_S5000x128_S128x128_S5000x128_1_0_0_1_n_n.rhsIdx i q 0).val = (q ⟨0, by decide⟩).val :=
  dot_S5000x128_S128x128_S5000x128_1_0_0_1_n_n.rhsIdx_val_of_single rfl i q
theorem rhs1 (i : S5000x128.Idx) (q : dot_S5000x128_S128x128_S5000x128_1_0_0_1_n_n.contr.Idx) : (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- Entry (p, q) of a block's product with a table, accumulated from zero: the sum over k of block(p, k) · table(k, q). -/
theorem matmul_row {φ₁ φ₂ : FTy} (l : FVec Ideal S5000x128 φ₁) (r : FVec Ideal S128x128 φ₂) (p : Fin 5000) (q : Fin 128) :
    matmul dot_S5000x128_S128x128_S5000x128_1_0_0_1_n_n none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun a => Fin.ext (by
    match a with
    | ⟨0, _⟩ => exact lhs0 _ _
    | ⟨1, _⟩ => exact (lhs1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun a => Fin.ext (by
    match a with
    | ⟨0, _⟩ => exact (rhs0 _ _).trans hk
    | ⟨1, _⟩ => exact rhs1 _ _)
  rw [el, er]

/-- A bias row broadcast down a block holds the row's entry q in column q. -/
theorem bias_bcast (b : FVec Ideal S1x128 .f32) (p : Fin 5000) (q : Fin 128) :
    broadcastTo S5000x128 b broadcasts_S1x128_S5000x128 (ix2 p q) = b (ix2 0 q) := by
  exact broadcastTo_apply b broadcasts_S1x128_S5000x128 (ix2 p q) (ix2 0 q) (fun a => by
    match a with
    | ⟨0, _⟩ => show 0 = if (1 : Nat) = 1 then 0 else p.val; rw [if_pos rfl]
    | ⟨1, _⟩ => show q.val = if (128 : Nat) = 1 then 0 else q.val; rw [if_neg (by decide)])

/-! ## The input projection's body -/

/-- What the projection's body stores, at row p and column q of its block. -/
theorem proj_pay (x0 : Vec Ideal S5000x128 .f32) (x1 : Vec Ideal S128x128 .f32) (x2 : Vec Ideal S1x128 .f32) (p : Fin 5000) (q : Fin 128) :
    k0_pay1 x0 x1 x2 (ix2 p q) = projRow (fun k => x0 (ix2 p k)) (fun k j => x1 (ix2 k j)) (fun j => x2 (ix2 0 j)) q := by
  unfold k0_pay1
  rw [shapeCast_self, maximumf_apply, addf_apply, matmul_row, bias_bcast]
  rfl

/-! ## The propagation layers' bodies -/

/-- What propagation layer 0's body stores, at row p and column q of its block. -/
theorem comb1_pay (x0 x1 : Vec Ideal S5000x128 .f32) (x2 : Vec Ideal S128x128 .f32) (p : Fin 5000) (q : Fin 128) :
    k1_pay1 x0 x1 x2 (ix2 p q)
      = combRow 0x3F666666#32 0x3DCCCCCD#32 0x3F183370#32 0x3ECF991F#32 (fun k => x0 (ix2 p k)) (fun k => x1 (ix2 p k)) (fun k j => x2 (ix2 k j)) q := by
  unfold k1_pay1
  simp only [shapeCast_self]
  rw [maximumf_apply, addf_apply, mulf_apply, mulf_apply, matmul_row]
  rfl

/-- What propagation layer 1's body stores, at row p and column q of its block. -/
theorem comb2_pay (x0 x1 : Vec Ideal S5000x128 .f32) (x2 : Vec Ideal S128x128 .f32) (p : Fin 5000) (q : Fin 128) :
    k2_pay1 x0 x1 x2 (ix2 p q)
      = combRow 0x3F666666#32 0x3DCCCCCD#32 0x3F46E010#32 0x3E647FBE#32 (fun k => x0 (ix2 p k)) (fun k => x1 (ix2 p k)) (fun k j => x2 (ix2 k j)) q := by
  unfold k2_pay1
  simp only [shapeCast_self]
  rw [maximumf_apply, addf_apply, mulf_apply, mulf_apply, matmul_row]
  rfl

/-- What propagation layer 2's body stores, at row p and column q of its block. -/
theorem comb3_pay (x0 x1 : Vec Ideal S5000x128 .f32) (x2 : Vec Ideal S128x128 .f32) (p : Fin 5000) (q : Fin 128) :
    k3_pay1 x0 x1 x2 (ix2 p q)
      = combRow 0x3F666666#32 0x3DCCCCCD#32 0x3F588995#32 0x3E1DD9AD#32 (fun k => x0 (ix2 p k)) (fun k => x1 (ix2 p k)) (fun k j => x2 (ix2 k j)) q := by
  unfold k3_pay1
  simp only [shapeCast_self]
  rw [maximumf_apply, addf_apply, mulf_apply, mulf_apply, matmul_row]
  rfl

/-- What propagation layer 3's body stores, at row p and column q of its block. -/
theorem comb4_pay (x0 x1 : Vec Ideal S5000x128 .f32) (x2 : Vec Ideal S128x128 .f32) (p : Fin 5000) (q : Fin 128) :
    k4_pay1 x0 x1 x2 (ix2 p q)
      = combRow 0x3F666666#32 0x3DCCCCCD#32 0x3F61D8F9#32 0x3DF1383B#32 (fun k => x0 (ix2 p k)) (fun k => x1 (ix2 p k)) (fun k j => x2 (ix2 k j)) q := by
  unfold k4_pay1
  simp only [shapeCast_self]
  rw [maximumf_apply, addf_apply, mulf_apply, mulf_apply, matmul_row]
  rfl

/-! ## The classifier's body -/

theorem exp_apply {s : Shape} {φ : FTy} (a : FVec Ideal s φ) (i : s.Idx) : exp a i = Ideal.exp (a i) := rfl
theorem log_apply {s : Shape} {φ : FTy} (a : FVec Ideal s φ) (i : s.Idx) : log a i = Ideal.log (a i) := rfl

/-- A column broadcast along the rows of a block holds the column's entry p in row p. -/
theorem bcast_col (y : FVec Ideal S5000x1 .f32) (p : Fin 5000) (q : Fin 128) :
    broadcastTo S5000x128 y broadcasts_S5000x1_S5000x128 (ix2 p q) = y (ix2 p 0) := by
  exact broadcastTo_apply y broadcasts_S5000x1_S5000x128 (ix2 p q) (ix2 p 0) (fun a => by
    match a with
    | ⟨0, _⟩ => show p.val = if (5000 : Nat) = 1 then 0 else p.val; rw [if_neg (by decide)]
    | ⟨1, _⟩ => show 0 = if (1 : Nat) = 1 then 0 else q.val; rw [if_pos rfl])

/-- A vector laid out as a column holds its entry p at (p, 0). -/
theorem cast_col (v : FVec Ideal S5000 .f32) (p : Fin 5000) :
    shapeCast S5000x1 v shapeCasts_S5000_S5000x1 (ix2 p 0) = v (ix1 p) := by
  exact shapeCast_apply v shapeCasts_S5000_S5000x1 (ix2 p 0) (ix1 p) (by
    rewrite [Shape.rowMajor_val_one, Shape.rowMajor_val_two]
    show p.val = p.val * 1 + 0
    omega)

/-- The lane maximum of row p of a block: the fold of `max` over the row from the accumulator's word. -/
theorem lane_max (x : FVec Ideal S5000x128 .f32) (p : Fin 5000) :
    multiReduction .maximumf [1] S5000 x 0xFF800000#32 reduces_S5000x128_S5000 (.inl rfl) rfl (ix1 p)
      = (Finset.univ : Finset (Fin 128)).fold max (Ideal.ofBits .f32 0xFF800000#32) (fun k => x (ix2 p k)) := by
  refine (Ideal.multiReduction_maximumf_single x 0xFF800000#32 reduces_S5000x128_S5000 (.inl rfl) rfl (ix1 p)).trans ?_
  refine Finset.fold_congr fun k _ => ?_
  show x (reduces_S5000x128_S5000.lift (ix1 p) k) = x (ix2 p k)
  refine congrArg x (funext fun a => Fin.ext ?_)
  match a with
  | ⟨0, _⟩ => rfl
  | ⟨1, _⟩ => rfl

/-- The lane sum of row p of a block: the sum over the row. -/
theorem lane_sum (x : FVec Ideal S5000x128 .f32) (p : Fin 5000) :
    multiReduction .add [1] S5000 x 0x00000000#32 reduces_S5000x128_S5000 (.inl rfl) rfl (ix1 p) = ∑ k : Fin 128, x (ix2 p k) := by
  refine (Ideal.multiReduction_add_single x 0x00000000#32 reduces_S5000x128_S5000 (.inl rfl) rfl (ix1 p)).trans ?_
  refine Finset.sum_congr rfl fun k _ => ?_
  refine congrArg x (funext fun a => Fin.ext ?_)
  match a with
  | ⟨0, _⟩ => rfl
  | ⟨1, _⟩ => rfl

/-- The column of row maxima of a block, broadcast back over the block. -/
def maxB (L : FVec Ideal S5000x128 .f32) : FVec Ideal S5000x128 .f32 :=
  broadcastTo S5000x128 (shapeCast S5000x1 (multiReduction .maximumf [1] S5000 L 0xFF800000#32 reduces_S5000x128_S5000 (.inl rfl) rfl)
    shapeCasts_S5000_S5000x1) broadcasts_S5000x1_S5000x128

theorem maxB_apply (L : FVec Ideal S5000x128 .f32) (p : Fin 5000) (q : Fin 128) :
    maxB L (ix2 p q) = rowMax (fun k => L (ix2 p k)) := by
  unfold maxB rowMax
  rw [bcast_col, cast_col, lane_max]

/-- The column of logarithms of the row sums of exponentials of a block, broadcast back over the block. -/
def lseB (Z : FVec Ideal S5000x128 .f32) : FVec Ideal S5000x128 .f32 :=
  broadcastTo S5000x128 (log (shapeCast S5000x1 (multiReduction .add [1] S5000 (exp Z) 0x00000000#32 reduces_S5000x128_S5000 (.inl rfl) rfl)
    shapeCasts_S5000_S5000x1)) broadcasts_S5000x1_S5000x128

theorem lseB_apply (Z : FVec Ideal S5000x128 .f32) (p : Fin 5000) (q : Fin 128) :
    lseB Z (ix2 p q) = Ideal.log (∑ k : Fin 128, Ideal.exp (Z (ix2 p k))) := by
  unfold lseB
  rw [bcast_col, log_apply, cast_col, lane_sum]
  rfl

/-- A block shifted by its row maxima, at an entry. -/
theorem shift_apply (L : FVec Ideal S5000x128 .f32) (p : Fin 5000) (k : Fin 128) :
    subf L (maxB L) (ix2 p k) = shiftRow (fun j => L (ix2 p j)) k := by
  rw [subf_apply, maxB_apply]
  rfl

/-- What the classifier's body stores, at row p and column q of its block: the log-softmax of row p's logits. -/
theorem fin_pay (x0 : Vec Ideal S5000x128 .f32) (x1 : Vec Ideal S128x128 .f32) (x2 : Vec Ideal S1x128 .f32) (p : Fin 5000) (q : Fin 128) :
    k5_pay1 x0 x1 x2 (ix2 p q) = finRow (fun k => x0 (ix2 p k)) (fun k j => x1 (ix2 k j)) (fun j => x2 (ix2 0 j)) q := by
  unfold k5_pay1
  simp only [shapeCast_self]
  generalize hL : addf (matmul dot_S5000x128_S128x128_S5000x128_1_0_0_1_n_n none (truncf .bf16 x0 bitsLt_bf16_f32) (truncf .bf16 x1 bitsLt_bf16_f32)
      (constant (F := Ideal) S5000x128 .f32 0x00000000#32)) (broadcastTo S5000x128 x2 broadcasts_S1x128_S5000x128) = L
  have hrow : (fun k : Fin 128 => L (ix2 p k)) = logitsRow (fun k => x0 (ix2 p k)) (fun k j => x1 (ix2 k j)) (fun j => x2 (ix2 0 j)) := by
    funext k
    rw [← hL, addf_apply, matmul_row, bias_bcast]
    rfl
  show subf (subf L (maxB L)) (lseB (subf L (maxB L))) (ix2 p q) = _
  rw [subf_apply, shift_apply, lseB_apply]
  simp only [shift_apply]
  rw [hrow]
  rfl

end Cert.Gcn.Pay

end
-- ==== Proof.Region0.lean ====
/-
  The input projection's pallas_call as one array function.

  The call runs its body at 20 grid points. Point t loads rows 5000·t … 5000·t + 4999 of the node array, the whole weight
  table and the whole bias row, and writes back rows 5000·t … 5000·t + 4999 of the result. Entry (p, q) of what the body
  stores is the projection of row p of the loaded block, so the block written back at point t is block t of
  `projArr` of the arrays the call finds on entry. The 20 blocks tile the result array, so after the call the result
  array IS `projArr` of them.
-/
import proofs.«109353_j58935541236367_1_alg».proof.Proof.Gen.KernelIdeal.Frame
import proofs.«109353_j58935541236367_1_alg».proof.Proof.Spec
import proofs.«109353_j58935541236367_1_alg».proof.Proof.Pay
import Idealize.ShloMosaic.Lib.Pipeline.Value
import Idealize.ShloMosaic.Lib.Tactic

set_option maxRecDepth 16384

noncomputable section

namespace Cert.Gcn.Reg0

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node array's and the result's blocks move with the point along the rows;
    the table and the bias row are one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 20 :=
  (by decide +kernel : ∀ t : Fin grid0.N, _)

/-- Row p of the node block at point t is row 5000·t + p of the node array. -/
theorem blk_node (c : Dev nD) (t : Fin cfg0.N) (p : Fin 5000) (k : Fin 128) (r : Fin 100000) (hr : r.val = 5000 * t.val + p.val) :
    (iblk0 V c 0 t : Vec Ideal S5000x128 .f32) (ix2 p k) = (V c main_arg0 : S100000x128.Idx → EReal) (ix2 r k) := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t 0 * 5000 + 1 * p.val = r.val; rw [e0, hr]; omega
  | ⟨1, _⟩ => show win0_0.index t 1 * 128 + 1 * k.val = k.val; rw [e1]; omega

/-- The table's one block is the table. -/
theorem blk_tab (c : Dev nD) (t : Fin cfg0.N) (k j : Fin 128) :
    (iblk0 V c 1 t : Vec Ideal S128x128 .f32) (ix2 k j) = (V c main_arg4 : S128x128.Idx → EReal) (ix2 k j) := by
  obtain ⟨-, -, e2, e3, -⟩ := idx_facts t
  unfold iblk0
  rw [View.read_apply]
  show V c main_arg4 _ = V c main_arg4 _
  refine congrArg _ (funext fun a => Fin.ext ?_)
  match a with
  | ⟨0, _⟩ => show win0_1.index t 0 * 128 + 1 * k.val = k.val; rw [e2]; omega
  | ⟨1, _⟩ => show win0_1.index t 1 * 128 + 1 * j.val = j.val; rw [e3]; omega

/-- The bias row's one block is the bias row. -/
theorem blk_bias (c : Dev nD) (t : Fin cfg0.N) (j : Fin 128) :
    (iblk0 V c 2 t : Vec Ideal S1x128 .f32) (ix2 0 j) = (V c main_v0 : S1x128.Idx → EReal) (ix2 0 j) := by
  obtain ⟨-, -, -, -, e4, e5, -⟩ := idx_facts t
  unfold iblk0
  rw [View.read_apply]
  show V c main_v0 _ = V c main_v0 _
  refine congrArg _ (funext fun a => Fin.ext ?_)
  match a with
  | ⟨0, _⟩ => show win0_2.index t 0 * 1 + 1 * 0 = 0; rw [e4]
  | ⟨1, _⟩ => show win0_2.index t 1 * 128 + 1 * j.val = j.val; rw [e5]; omega

/-- What point t writes back is block t of the projection of the arrays found on entry. -/
theorem flushed_eq (c : Dev nD) (t : Fin cfg0.N) :
    (dat0 (F := Ideal) V c).flushed 3 t = ((cfg0.win 3).blk t).view.read (Elt Ideal)
      (projArr (V c main_arg0) (V c main_arg4) (fun j => V c main_v0 (ix2 0 j))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  funext j
  obtain ⟨e0, e1, e2, e3, e4, e5, e6, e7, ht⟩ := idx_facts t
  obtain ⟨p, q, rfl⟩ : ∃ (p : Fin 5000) (q : Fin 128), j = ix2 p q := ⟨j 0, j 1, eq_ix2 j⟩
  show k0_pay1 (iblk0 V c 0 t) (iblk0 V c 1 t) (iblk0 V c 2 t) (ix2 p q)
    = projArr (V c main_arg0) (V c main_arg4) (fun j => V c main_v0 (ix2 0 j)) (((cfg0.win 3).blk t).view.emb (ix2 p q))
  have hemb : ((cfg0.win 3).blk t).view.emb (ix2 p q) = (ix2 (⟨5000 * t.val + p.val, by omega⟩ : Fin 100000) q : S100000x128.Idx) := by
    funext a
    apply Fin.ext
    match a with
    | ⟨0, _⟩ => show win0_3.index t 0 * 5000 + 1 * p.val = 5000 * t.val + p.val; rw [e6]; omega
    | ⟨1, _⟩ => show win0_3.index t 1 * 128 + 1 * q.val = q.val; rw [e7]; omega
  rw [hemb]
  refine (Pay.proj_pay (iblk0 V c 0 t) (iblk0 V c 1 t) (iblk0 V c 2 t) p q).trans ?_
  have r0 : (fun k : Fin 128 => (iblk0 V c 0 t : Vec Ideal S5000x128 .f32) (ix2 p k))
      = rowOf (V c main_arg0) (⟨5000 * t.val + p.val, by omega⟩ : Fin 100000) :=
    funext fun k => blk_node V c t p k _ rfl
  have r1 : (fun k j : Fin 128 => (iblk0 V c 1 t : Vec Ideal S128x128 .f32) (ix2 k j)) = matOf (V c main_arg4) :=
    funext fun k => funext fun j => blk_tab V c t k j
  have r2 : (fun j : Fin 128 => (iblk0 V c 2 t : Vec Ideal S1x128 .f32) (ix2 0 j)) = fun j => V c main_v0 (ix2 0 j) :=
    funext fun j => blk_bias V c t j
  rw [r0, r1, r2]
  rfl

/-- An index of the result array is in point t's block iff each coordinate is in the block's range on its axis. -/
theorem mem_blk (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every block of rows is some point's. -/
theorem idx_onto : ∀ q0 : Fin 20, ∃ t : Fin cfg0.N, win0_3.index t = ![q0.val, 0] :=
  (by decide +kernel : ∀ q0 : Fin 20, ∃ t : Fin grid0.N, win0_3.index t = ![q0.val, 0])

/-- The 20 blocks of 5000 rows tile the result array: row r is in the block of point r / 5000. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- After the call the result array is the projection of the arrays the call found on entry. -/
theorem value (c : Dev nD) :
    (dat0 (F := Ideal) V c).arrAt 3 cfg0.N = projArr (V c main_arg0) (V c main_arg4) (fun j => V c main_v0 (ix2 0 j)) :=
  (dat0 (F := Ideal) V c).arrAt_eq_of_cover 3 _ (fun t _ => flushed_eq V c t) cover

end Cert.Gcn.Reg0

end
-- ==== Proof.Region1.lean ====
/-
  Propagation layer 0's pallas_call as one array function.

  The call runs its body at 20 grid points. Point t loads rows 5000·t … 5000·t + 4999 of the aggregated array and the same
  rows of the first layer's array, and the whole layer table, and writes back rows 5000·t … 5000·t + 4999 of the result.
  Entry (p, q) of what the body stores is the layer's row function of rows p of the two loaded blocks, so the block
  written back at point t is block t of `combArr` of the arrays the call finds on entry. The 20 blocks tile the result
  array, so after the call the result array IS `combArr` of them.
-/
import proofs.«109353_j58935541236367_1_alg».proof.Proof.Gen.KernelIdeal.Frame
import proofs.«109353_j58935541236367_1_alg».proof.Proof.Spec
import proofs.«109353_j58935541236367_1_alg».proof.Proof.Pay
import Idealize.ShloMosaic.Lib.Pipeline.Value
import Idealize.ShloMosaic.Lib.Tactic

set_option maxRecDepth 16384

noncomputable section

namespace Cert.Gcn.Reg1

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node arrays' and the result's blocks move with the point along the
    rows; the table is one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

/-- Row p of the aggregated block at point t is row 5000·t + p of the aggregated array. -/
theorem blk_agg (c : Dev nD) (t : Fin cfg1.N) (p : Fin 5000) (k : Fin 128) (r : Fin 100000) (hr : r.val = 5000 * t.val + p.val) :
    (iblk1 V c 0 t : Vec Ideal S5000x128 .f32) (ix2 p k) = (V c main_v14 : S100000x128.Idx → EReal) (ix2 r k) := by
  obtain ⟨e0, e1, -⟩ := idx_facts t
  unfold iblk1
  rw [View.read_apply]
  show V c main_v14 _ = V c main_v14 _
  refine congrArg _ (funext fun a => Fin.ext ?_)
  match a with
  | ⟨0, _⟩ => show win1_0.index t 0 * 5000 + 1 * p.val = r.val; rw [e0, hr]; omega
  | ⟨1, _⟩ => show win1_0.index t 1 * 128 + 1 * k.val = k.val; rw [e1]; omega

/-- Row p of the first layer's block at point t is row 5000·t + p of the first layer's array. -/
theorem blk_first (c : Dev nD) (t : Fin cfg1.N) (p : Fin 5000) (k : Fin 128) (r : Fin 100000) (hr : r.val = 5000 * t.val + p.val) :
    (iblk1 V c 1 t : Vec Ideal S5000x128 .f32) (ix2 p k) = (V c main_v1 : S100000x128.Idx → EReal) (ix2 r k) := by
  obtain ⟨-, -, e2, e3, -⟩ := idx_facts t
  unfold iblk1
  rw [View.read_apply]
  show V c main_v1 _ = V c main_v1 _
  refine congrArg _ (funext fun a => Fin.ext ?_)
  match a with
  | ⟨0, _⟩ => show win1_1.index t 0 * 5000 + 1 * p.val = r.val; rw [e2, hr]; omega
  | ⟨1, _⟩ => show win1_1.index t 1 * 128 + 1 * k.val = k.val; rw [e3]; omega

/-- The table's one block is the table. -/
theorem blk_tab (c : Dev nD) (t : Fin cfg1.N) (k j : Fin 128) :
    (iblk1 V c 2 t : Vec Ideal S128x128 .f32) (ix2 k j) = (V c main_v16 : S128x128.Idx → EReal) (ix2 k j) := by
  obtain ⟨-, -, -, -, e4, e5, -⟩ := idx_facts t
  unfold iblk1
  rw [View.read_apply]
  show V c main_v16 _ = V c main_v16 _
  refine congrArg _ (funext fun a => Fin.ext ?_)
  match a with
  | ⟨0, _⟩ => show win1_2.index t 0 * 128 + 1 * k.val = k.val; rw [e4]; omega
  | ⟨1, _⟩ => show win1_2.index t 1 * 128 + 1 * j.val = j.val; rw [e5]; omega

/-- What point t writes back is block t of the layer's function of the arrays found on entry. -/
theorem flushed_eq (c : Dev nD) (t : Fin cfg1.N) :
    (dat1 (F := Ideal) V c).flushed 3 t = ((cfg1.win 3).blk t).view.read (Elt Ideal)
      (combArr 0x3F666666#32 0x3DCCCCCD#32 0x3F183370#32 0x3ECF991F#32 (V c main_v14) (V c main_v1) (V c main_v16)) := by
  show (cfg1.win 3).cut (grid1.coords t) ((dat1 V c).after 3 t) = _
  rw [after1_3]
  unfold out1_3
  rw [View.canon_unit_zero hz]
  simp only [View.ld_unit_zero (S := S5000x128) hz, View.ld_unit_zero (S := S128x128) hz]
  funext j
  obtain ⟨e0, e1, e2, e3, e4, e5, e6, e7, ht⟩ := idx_facts t
  obtain ⟨p, q, rfl⟩ : ∃ (p : Fin 5000) (q : Fin 128), j = ix2 p q := ⟨j 0, j 1, eq_ix2 j⟩
  show k1_pay1 (iblk1 V c 0 t) (iblk1 V c 1 t) (iblk1 V c 2 t) (ix2 p q)
    = combArr 0x3F666666#32 0x3DCCCCCD#32 0x3F183370#32 0x3ECF991F#32 (V c main_v14) (V c main_v1) (V c main_v16) (((cfg1.win 3).blk t).view.emb (ix2 p q))
  have hemb : ((cfg1.win 3).blk t).view.emb (ix2 p q) = (ix2 (⟨5000 * t.val + p.val, by omega⟩ : Fin 100000) q : S100000x128.Idx) := by
    funext a
    apply Fin.ext
    match a with
    | ⟨0, _⟩ => show win1_3.index t 0 * 5000 + 1 * p.val = 5000 * t.val + p.val; rw [e6]; omega
    | ⟨1, _⟩ => show win1_3.index t 1 * 128 + 1 * q.val = q.val; rw [e7]; omega
  rw [hemb]
  refine (Pay.comb1_pay (iblk1 V c 0 t) (iblk1 V c 1 t) (iblk1 V c 2 t) p q).trans ?_
  have r0 : (fun k : Fin 128 => (iblk1 V c 0 t : Vec Ideal S5000x128 .f32) (ix2 p k))
      = rowOf (V c main_v14) (⟨5000 * t.val + p.val, by omega⟩ : Fin 100000) :=
    funext fun k => blk_agg V c t p k _ rfl
  have r1 : (fun k : Fin 128 => (iblk1 V c 1 t : Vec Ideal S5000x128 .f32) (ix2 p k))
      = rowOf (V c main_v1) (⟨5000 * t.val + p.val, by omega⟩ : Fin 100000) :=
    funext fun k => blk_first V c t p k _ rfl
  have r2 : (fun k j : Fin 128 => (iblk1 V c 2 t : Vec Ideal S128x128 .f32) (ix2 k j)) = matOf (V c main_v16) :=
    funext fun k => funext fun j => blk_tab V c t k j
  rw [r0, r1, r2]
  rfl

/-- An index of the result array is in point t's block iff each coordinate is in the block's range on its axis. -/
theorem mem_blk (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v17).slice (win1_3.rect t)).set ↔ _
  rw [View.set_slice_whole, Rect.mem_set_unit]
  exact Iff.rfl

/-- Every block of rows is some point's. -/
theorem idx_onto : ∀ q0 : Fin 20, ∃ t : Fin cfg1.N, win1_3.index t = ![q0.val, 0] :=
  (by decide +kernel : ∀ q0 : Fin 20, ∃ t : Fin grid1.N, win1_3.index t = ![q0.val, 0])

/-- The 20 blocks of 5000 rows tile the result array: row r is in the block of point r / 5000. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- After the call the result array is the layer's function of the arrays the call found on entry. -/
theorem value (c : Dev nD) :
    (dat1 (F := Ideal) V c).arrAt 3 cfg1.N
      = combArr 0x3F666666#32 0x3DCCCCCD#32 0x3F183370#32 0x3ECF991F#32 (V c main_v14) (V c main_v1) (V c main_v16) :=
  (dat1 (F := Ideal) V c).arrAt_eq_of_cover 3 _ (fun t _ => flushed_eq V c t) cover

end Cert.Gcn.Reg1

end
-- ==== Proof.Region2.lean ====
/-
  Propagation layer 1's pallas_call as one array function.

  The call runs its body at 20 grid points. Point t loads rows 5000·t … 5000·t + 4999 of the aggregated array and the same
  rows of the first layer's array, and the whole layer table, and writes back rows 5000·t … 5000·t + 4999 of the result.
  Entry (p, q) of what the body stores is the layer's row function of rows p of the two loaded blocks, so the block
  written back at point t is block t of `combArr` of the arrays the call finds on entry. The 20 blocks tile the result
  array, so after the call the result array IS `combArr` of them.
-/
import proofs.«109353_j58935541236367_1_alg».proof.Proof.Gen.KernelIdeal.Frame
import proofs.«109353_j58935541236367_1_alg».proof.Proof.Spec
import proofs.«109353_j58935541236367_1_alg».proof.Proof.Pay
import Idealize.ShloMosaic.Lib.Pipeline.Value
import Idealize.ShloMosaic.Lib.Tactic

set_option maxRecDepth 16384

noncomputable section

namespace Cert.Gcn.Reg2

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node arrays' and the result's blocks move with the point along the
    rows; the table is one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 20 :=
  (by decide +kernel : ∀ t : Fin grid2.N, _)

/-- Row p of the aggregated block at point t is row 5000·t + p of the aggregated array. -/
theorem blk_agg (c : Dev nD) (t : Fin cfg2.N) (p : Fin 5000) (k : Fin 128) (r : Fin 100000) (hr : r.val = 5000 * t.val + p.val) :
    (iblk2 V c 0 t : Vec Ideal S5000x128 .f32) (ix2 p k) = (V c main_v30 : S100000x128.Idx → EReal) (ix2 r k) := by
  obtain ⟨e0, e1, -⟩ := idx_facts t
  unfold iblk2
  rw [View.read_apply]
  show V c main_v30 _ = V c main_v30 _
  refine congrArg _ (funext fun a => Fin.ext ?_)
  match a with
  | ⟨0, _⟩ => show win2_0.index t 0 * 5000 + 1 * p.val = r.val; rw [e0, hr]; omega
  | ⟨1, _⟩ => show win2_0.index t 1 * 128 + 1 * k.val = k.val; rw [e1]; omega

/-- Row p of the first layer's block at point t is row 5000·t + p of the first layer's array. -/
theorem blk_first (c : Dev nD) (t : Fin cfg2.N) (p : Fin 5000) (k : Fin 128) (r : Fin 100000) (hr : r.val = 5000 * t.val + p.val) :
    (iblk2 V c 1 t : Vec Ideal S5000x128 .f32) (ix2 p k) = (V c main_v1 : S100000x128.Idx → EReal) (ix2 r k) := by
  obtain ⟨-, -, e2, e3, -⟩ := idx_facts t
  unfold iblk2
  rw [View.read_apply]
  show V c main_v1 _ = V c main_v1 _
  refine congrArg _ (funext fun a => Fin.ext ?_)
  match a with
  | ⟨0, _⟩ => show win2_1.index t 0 * 5000 + 1 * p.val = r.val; rw [e2, hr]; omega
  | ⟨1, _⟩ => show win2_1.index t 1 * 128 + 1 * k.val = k.val; rw [e3]; omega

/-- The table's one block is the table. -/
theorem blk_tab (c : Dev nD) (t : Fin cfg2.N) (k j : Fin 128) :
    (iblk2 V c 2 t : Vec Ideal S128x128 .f32) (ix2 k j) = (V c main_v32 : S128x128.Idx → EReal) (ix2 k j) := by
  obtain ⟨-, -, -, -, e4, e5, -⟩ := idx_facts t
  unfold iblk2
  rw [View.read_apply]
  show V c main_v32 _ = V c main_v32 _
  refine congrArg _ (funext fun a => Fin.ext ?_)
  match a with
  | ⟨0, _⟩ => show win2_2.index t 0 * 128 + 1 * k.val = k.val; rw [e4]; omega
  | ⟨1, _⟩ => show win2_2.index t 1 * 128 + 1 * j.val = j.val; rw [e5]; omega

/-- What point t writes back is block t of the layer's function of the arrays found on entry. -/
theorem flushed_eq (c : Dev nD) (t : Fin cfg2.N) :
    (dat2 (F := Ideal) V c).flushed 3 t = ((cfg2.win 3).blk t).view.read (Elt Ideal)
      (combArr 0x3F666666#32 0x3DCCCCCD#32 0x3F46E010#32 0x3E647FBE#32 (V c main_v30) (V c main_v1) (V c main_v32)) := by
  show (cfg2.win 3).cut (grid2.coords t) ((dat2 V c).after 3 t) = _
  rw [after2_3]
  unfold out2_3
  rw [View.canon_unit_zero hz]
  simp only [View.ld_unit_zero (S := S5000x128) hz, View.ld_unit_zero (S := S128x128) hz]
  funext j
  obtain ⟨e0, e1, e2, e3, e4, e5, e6, e7, ht⟩ := idx_facts t
  obtain ⟨p, q, rfl⟩ : ∃ (p : Fin 5000) (q : Fin 128), j = ix2 p q := ⟨j 0, j 1, eq_ix2 j⟩
  show k2_pay1 (iblk2 V c 0 t) (iblk2 V c 1 t) (iblk2 V c 2 t) (ix2 p q)
    = combArr 0x3F666666#32 0x3DCCCCCD#32 0x3F46E010#32 0x3E647FBE#32 (V c main_v30) (V c main_v1) (V c main_v32) (((cfg2.win 3).blk t).view.emb (ix2 p q))
  have hemb : ((cfg2.win 3).blk t).view.emb (ix2 p q) = (ix2 (⟨5000 * t.val + p.val, by omega⟩ : Fin 100000) q : S100000x128.Idx) := by
    funext a
    apply Fin.ext
    match a with
    | ⟨0, _⟩ => show win2_3.index t 0 * 5000 + 1 * p.val = 5000 * t.val + p.val; rw [e6]; omega
    | ⟨1, _⟩ => show win2_3.index t 1 * 128 + 1 * q.val = q.val; rw [e7]; omega
  rw [hemb]
  refine (Pay.comb2_pay (iblk2 V c 0 t) (iblk2 V c 1 t) (iblk2 V c 2 t) p q).trans ?_
  have r0 : (fun k : Fin 128 => (iblk2 V c 0 t : Vec Ideal S5000x128 .f32) (ix2 p k))
      = rowOf (V c main_v30) (⟨5000 * t.val + p.val, by omega⟩ : Fin 100000) :=
    funext fun k => blk_agg V c t p k _ rfl
  have r1 : (fun k : Fin 128 => (iblk2 V c 1 t : Vec Ideal S5000x128 .f32) (ix2 p k))
      = rowOf (V c main_v1) (⟨5000 * t.val + p.val, by omega⟩ : Fin 100000) :=
    funext fun k => blk_first V c t p k _ rfl
  have r2 : (fun k j : Fin 128 => (iblk2 V c 2 t : Vec Ideal S128x128 .f32) (ix2 k j)) = matOf (V c main_v32) :=
    funext fun k => funext fun j => blk_tab V c t k j
  rw [r0, r1, r2]
  rfl

/-- An index of the result array is in point t's block iff each coordinate is in the block's range on its axis. -/
theorem mem_blk (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole main_v33).slice (win2_3.rect t)).set ↔ _
  rw [View.set_slice_whole, Rect.mem_set_unit]
  exact Iff.rfl

/-- Every block of rows is some point's. -/
theorem idx_onto : ∀ q0 : Fin 20, ∃ t : Fin cfg2.N, win2_3.index t = ![q0.val, 0] :=
  (by decide +kernel : ∀ q0 : Fin 20, ∃ t : Fin grid2.N, win2_3.index t = ![q0.val, 0])

/-- The 20 blocks of 5000 rows tile the result array: row r is in the block of point r / 5000. -/
theorem cover (i : S100000x128.Idx) : ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 5000, by omega⟩
  have q0 : win2_3.index t (0 : Fin 2) = (i 0).val / 5000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 128 ≤ (i 1).val ∧ (i 1).val < win2_3.index t (1 : Fin 2) * 128 + 128; omega

/-- After the call the result array is the layer's function of the arrays the call found on entry. -/
theorem value (c : Dev nD) :
    (dat2 (F := Ideal) V c).arrAt 3 cfg2.N
      = combArr 0x3F666666#32 0x3DCCCCCD#32 0x3F46E010#32 0x3E647FBE#32 (V c main_v30) (V c main_v1) (V c main_v32) :=
  (dat2 (F := Ideal) V c).arrAt_eq_of_cover 3 _ (fun t _ => flushed_eq V c t) cover

end Cert.Gcn.Reg2

end
-- ==== Proof.Region3.lean ====
/-
  Propagation layer 2's pallas_call as one array function.

  The call runs its body at 20 grid points. Point t loads rows 5000·t … 5000·t + 4999 of the aggregated array and the same
  rows of the first layer's array, and the whole layer table, and writes back rows 5000·t … 5000·t + 4999 of the result.
  Entry (p, q) of what the body stores is the layer's row function of rows p of the two loaded blocks, so the block
  written back at point t is block t of `combArr` of the arrays the call finds on entry. The 20 blocks tile the result
  array, so after the call the result array IS `combArr` of them.
-/
import proofs.«109353_j58935541236367_1_alg».proof.Proof.Gen.KernelIdeal.Frame
import proofs.«109353_j58935541236367_1_alg».proof.Proof.Spec
import proofs.«109353_j58935541236367_1_alg».proof.Proof.Pay
import Idealize.ShloMosaic.Lib.Pipeline.Value
import Idealize.ShloMosaic.Lib.Tactic

set_option maxRecDepth 16384

noncomputable section

namespace Cert.Gcn.Reg3

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node arrays' and the result's blocks move with the point along the
    rows; the table is one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 20 :=
  (by decide +kernel : ∀ t : Fin grid3.N, _)

/-- Row p of the aggregated block at point t is row 5000·t + p of the aggregated array. -/
theorem blk_agg (c : Dev nD) (t : Fin cfg3.N) (p : Fin 5000) (k : Fin 128) (r : Fin 100000) (hr : r.val = 5000 * t.val + p.val) :
    (iblk3 V c 0 t : Vec Ideal S5000x128 .f32) (ix2 p k) = (V c main_v46 : S100000x128.Idx → EReal) (ix2 r k) := by
  obtain ⟨e0, e1, -⟩ := idx_facts t
  unfold iblk3
  rw [View.read_apply]
  show V c main_v46 _ = V c main_v46 _
  refine congrArg _ (funext fun a => Fin.ext ?_)
  match a with
  | ⟨0, _⟩ => show win3_0.index t 0 * 5000 + 1 * p.val = r.val; rw [e0, hr]; omega
  | ⟨1, _⟩ => show win3_0.index t 1 * 128 + 1 * k.val = k.val; rw [e1]; omega

/-- Row p of the first layer's block at point t is row 5000·t + p of the first layer's array. -/
theorem blk_first (c : Dev nD) (t : Fin cfg3.N) (p : Fin 5000) (k : Fin 128) (r : Fin 100000) (hr : r.val = 5000 * t.val + p.val) :
    (iblk3 V c 1 t : Vec Ideal S5000x128 .f32) (ix2 p k) = (V c main_v1 : S100000x128.Idx → EReal) (ix2 r k) := by
  obtain ⟨-, -, e2, e3, -⟩ := idx_facts t
  unfold iblk3
  rw [View.read_apply]
  show V c main_v1 _ = V c main_v1 _
  refine congrArg _ (funext fun a => Fin.ext ?_)
  match a with
  | ⟨0, _⟩ => show win3_1.index t 0 * 5000 + 1 * p.val = r.val; rw [e2, hr]; omega
  | ⟨1, _⟩ => show win3_1.index t 1 * 128 + 1 * k.val = k.val; rw [e3]; omega

/-- The table's one block is the table. -/
theorem blk_tab (c : Dev nD) (t : Fin cfg3.N) (k j : Fin 128) :
    (iblk3 V c 2 t : Vec Ideal S128x128 .f32) (ix2 k j) = (V c main_v48 : S128x128.Idx → EReal) (ix2 k j) := by
  obtain ⟨-, -, -, -, e4, e5, -⟩ := idx_facts t
  unfold iblk3
  rw [View.read_apply]
  show V c main_v48 _ = V c main_v48 _
  refine congrArg _ (funext fun a => Fin.ext ?_)
  match a with
  | ⟨0, _⟩ => show win3_2.index t 0 * 128 + 1 * k.val = k.val; rw [e4]; omega
  | ⟨1, _⟩ => show win3_2.index t 1 * 128 + 1 * j.val = j.val; rw [e5]; omega

/-- What point t writes back is block t of the layer's function of the arrays found on entry. -/
theorem flushed_eq (c : Dev nD) (t : Fin cfg3.N) :
    (dat3 (F := Ideal) V c).flushed 3 t = ((cfg3.win 3).blk t).view.read (Elt Ideal)
      (combArr 0x3F666666#32 0x3DCCCCCD#32 0x3F588995#32 0x3E1DD9AD#32 (V c main_v46) (V c main_v1) (V c main_v48)) := by
  show (cfg3.win 3).cut (grid3.coords t) ((dat3 V c).after 3 t) = _
  rw [after3_3]
  unfold out3_3
  rw [View.canon_unit_zero hz]
  simp only [View.ld_unit_zero (S := S5000x128) hz, View.ld_unit_zero (S := S128x128) hz]
  funext j
  obtain ⟨e0, e1, e2, e3, e4, e5, e6, e7, ht⟩ := idx_facts t
  obtain ⟨p, q, rfl⟩ : ∃ (p : Fin 5000) (q : Fin 128), j = ix2 p q := ⟨j 0, j 1, eq_ix2 j⟩
  show k3_pay1 (iblk3 V c 0 t) (iblk3 V c 1 t) (iblk3 V c 2 t) (ix2 p q)
    = combArr 0x3F666666#32 0x3DCCCCCD#32 0x3F588995#32 0x3E1DD9AD#32 (V c main_v46) (V c main_v1) (V c main_v48) (((cfg3.win 3).blk t).view.emb (ix2 p q))
  have hemb : ((cfg3.win 3).blk t).view.emb (ix2 p q) = (ix2 (⟨5000 * t.val + p.val, by omega⟩ : Fin 100000) q : S100000x128.Idx) := by
    funext a
    apply Fin.ext
    match a with
    | ⟨0, _⟩ => show win3_3.index t 0 * 5000 + 1 * p.val = 5000 * t.val + p.val; rw [e6]; omega
    | ⟨1, _⟩ => show win3_3.index t 1 * 128 + 1 * q.val = q.val; rw [e7]; omega
  rw [hemb]
  refine (Pay.comb3_pay (iblk3 V c 0 t) (iblk3 V c 1 t) (iblk3 V c 2 t) p q).trans ?_
  have r0 : (fun k : Fin 128 => (iblk3 V c 0 t : Vec Ideal S5000x128 .f32) (ix2 p k))
      = rowOf (V c main_v46) (⟨5000 * t.val + p.val, by omega⟩ : Fin 100000) :=
    funext fun k => blk_agg V c t p k _ rfl
  have r1 : (fun k : Fin 128 => (iblk3 V c 1 t : Vec Ideal S5000x128 .f32) (ix2 p k))
      = rowOf (V c main_v1) (⟨5000 * t.val + p.val, by omega⟩ : Fin 100000) :=
    funext fun k => blk_first V c t p k _ rfl
  have r2 : (fun k j : Fin 128 => (iblk3 V c 2 t : Vec Ideal S128x128 .f32) (ix2 k j)) = matOf (V c main_v48) :=
    funext fun k => funext fun j => blk_tab V c t k j
  rw [r0, r1, r2]
  rfl

/-- An index of the result array is in point t's block iff each coordinate is in the block's range on its axis. -/
theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v49).slice (win3_3.rect t)).set ↔ _
  rw [View.set_slice_whole, Rect.mem_set_unit]
  exact Iff.rfl

/-- Every block of rows is some point's. -/
theorem idx_onto : ∀ q0 : Fin 20, ∃ t : Fin cfg3.N, win3_3.index t = ![q0.val, 0] :=
  (by decide +kernel : ∀ q0 : Fin 20, ∃ t : Fin grid3.N, win3_3.index t = ![q0.val, 0])

/-- The 20 blocks of 5000 rows tile the result array: row r is in the block of point r / 5000. -/
theorem cover (i : S100000x128.Idx) : ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- After the call the result array is the layer's function of the arrays the call found on entry. -/
theorem value (c : Dev nD) :
    (dat3 (F := Ideal) V c).arrAt 3 cfg3.N
      = combArr 0x3F666666#32 0x3DCCCCCD#32 0x3F588995#32 0x3E1DD9AD#32 (V c main_v46) (V c main_v1) (V c main_v48) :=
  (dat3 (F := Ideal) V c).arrAt_eq_of_cover 3 _ (fun t _ => flushed_eq V c t) cover

end Cert.Gcn.Reg3

end
-- ==== Proof.Region4.lean ====
/-
  Propagation layer 3's pallas_call as one array function.

  The call runs its body at 20 grid points. Point t loads rows 5000·t … 5000·t + 4999 of the aggregated array and the same
  rows of the first layer's array, and the whole layer table, and writes back rows 5000·t … 5000·t + 4999 of the result.
  Entry (p, q) of what the body stores is the layer's row function of rows p of the two loaded blocks, so the block
  written back at point t is block t of `combArr` of the arrays the call finds on entry. The 20 blocks tile the result
  array, so after the call the result array IS `combArr` of them.
-/
import proofs.«109353_j58935541236367_1_alg».proof.Proof.Gen.KernelIdeal.Frame
import proofs.«109353_j58935541236367_1_alg».proof.Proof.Spec
import proofs.«109353_j58935541236367_1_alg».proof.Proof.Pay
import Idealize.ShloMosaic.Lib.Pipeline.Value
import Idealize.ShloMosaic.Lib.Tactic

set_option maxRecDepth 16384

noncomputable section

namespace Cert.Gcn.Reg4

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two node arrays' and the result's blocks move with the point along the
    rows; the table is one block. -/
theorem idx_facts : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 ∧ t.val < 20 :=
  (by decide +kernel : ∀ t : Fin grid4.N, _)

/-- Row p of the aggregated block at point t is row 5000·t + p of the aggregated array. -/
theorem blk_agg (c : Dev nD) (t : Fin cfg4.N) (p : Fin 5000) (k : Fin 128) (r : Fin 100000) (hr : r.val = 5000 * t.val + p.val) :
    (iblk4 V c 0 t : Vec Ideal S5000x128 .f32) (ix2 p k) = (V c main_v62 : S100000x128.Idx → EReal) (ix2 r k) := by
  obtain ⟨e0, e1, -⟩ := idx_facts t
  unfold iblk4
  rw [View.read_apply]
  show V c main_v62 _ = V c main_v62 _
  refine congrArg _ (funext fun a => Fin.ext ?_)
  match a with
  | ⟨0, _⟩ => show win4_0.index t 0 * 5000 + 1 * p.val = r.val; rw [e0, hr]; omega
  | ⟨1, _⟩ => show win4_0.index t 1 * 128 + 1 * k.val = k.val; rw [e1]; omega

/-- Row p of the first layer's block at point t is row 5000·t + p of the first layer's array. -/
theorem blk_first (c : Dev nD) (t : Fin cfg4.N) (p : Fin 5000) (k : Fin 128) (r : Fin 100000) (hr : r.val = 5000 * t.val + p.val) :
    (iblk4 V c 1 t : Vec Ideal S5000x128 .f32) (ix2 p k) = (V c main_v1 : S100000x128.Idx → EReal) (ix2 r k) := by
  obtain ⟨-, -, e2, e3, -⟩ := idx_facts t
  unfold iblk4
  rw [View.read_apply]
  show V c main_v1 _ = V c main_v1 _
  refine congrArg _ (funext fun a => Fin.ext ?_)
  match a with
  | ⟨0, _⟩ => show win4_1.index t 0 * 5000 + 1 * p.val = r.val; rw [e2, hr]; omega
  | ⟨1, _⟩ => show win4_1.index t 1 * 128 + 1 * k.val = k.val; rw [e3]; omega

/-- The table's one block is the table. -/
theorem blk_tab (c : Dev nD) (t : Fin cfg4.N) (k j : Fin 128) :
    (iblk4 V c 2 t : Vec Ideal S128x128 .f32) (ix2 k j) = (V c main_v64 : S128x128.Idx → EReal) (ix2 k j) := by
  obtain ⟨-, -, -, -, e4, e5, -⟩ := idx_facts t
  unfold iblk4
  rw [View.read_apply]
  show V c main_v64 _ = V c main_v64 _
  refine congrArg _ (funext fun a => Fin.ext ?_)
  match a with
  | ⟨0, _⟩ => show win4_2.index t 0 * 128 + 1 * k.val = k.val; rw [e4]; omega
  | ⟨1, _⟩ => show win4_2.index t 1 * 128 + 1 * j.val = j.val; rw [e5]; omega

/-- What point t writes back is block t of the layer's function of the arrays found on entry. -/
theorem flushed_eq (c : Dev nD) (t : Fin cfg4.N) :
    (dat4 (F := Ideal) V c).flushed 3 t = ((cfg4.win 3).blk t).view.read (Elt Ideal)
      (combArr 0x3F666666#32 0x3DCCCCCD#32 0x3F61D8F9#32 0x3DF1383B#32 (V c main_v62) (V c main_v1) (V c main_v64)) := by
  show (cfg4.win 3).cut (grid4.coords t) ((dat4 V c).after 3 t) = _
  rw [after4_3]
  unfold out4_3
  rw [View.canon_unit_zero hz]
  simp only [View.ld_unit_zero (S := S5000x128) hz, View.ld_unit_zero (S := S128x128) hz]
  funext j
  obtain ⟨e0, e1, e2, e3, e4, e5, e6, e7, ht⟩ := idx_facts t
  obtain ⟨p, q, rfl⟩ : ∃ (p : Fin 5000) (q : Fin 128), j = ix2 p q := ⟨j 0, j 1, eq_ix2 j⟩
  show k4_pay1 (iblk4 V c 0 t) (iblk4 V c 1 t) (iblk4 V c 2 t) (ix2 p q)
    = combArr 0x3F666666#32 0x3DCCCCCD#32 0x3F61D8F9#32 0x3DF1383B#32 (V c main_v62) (V c main_v1) (V c main_v64) (((cfg4.win 3).blk t).view.emb (ix2 p q))
  have hemb : ((cfg4.win 3).blk t).view.emb (ix2 p q) = (ix2 (⟨5000 * t.val + p.val, by omega⟩ : Fin 100000) q : S100000x128.Idx) := by
    funext a
    apply Fin.ext
    match a with
    | ⟨0, _⟩ => show win4_3.index t 0 * 5000 + 1 * p.val = 5000 * t.val + p.val; rw [e6]; omega
    | ⟨1, _⟩ => show win4_3.index t 1 * 128 + 1 * q.val = q.val; rw [e7]; omega
  rw [hemb]
  refine (Pay.comb4_pay (iblk4 V c 0 t) (iblk4 V c 1 t) (iblk4 V c 2 t) p q).trans ?_
  have r0 : (fun k : Fin 128 => (iblk4 V c 0 t : Vec Ideal S5000x128 .f32) (ix2 p k))
      = rowOf (V c main_v62) (⟨5000 * t.val + p.val, by omega⟩ : Fin 100000) :=
    funext fun k => blk_agg V c t p k _ rfl
  have r1 : (fun k : Fin 128 => (iblk4 V c 1 t : Vec Ideal S5000x128 .f32) (ix2 p k))
      = rowOf (V c main_v1) (⟨5000 * t.val + p.val, by omega⟩ : Fin 100000) :=
    funext fun k => blk_first V c t p k _ rfl
  have r2 : (fun k j : Fin 128 => (iblk4 V c 2 t : Vec Ideal S128x128 .f32) (ix2 k j)) = matOf (V c main_v64) :=
    funext fun k => funext fun j => blk_tab V c t k j
  rw [r0, r1, r2]
  rfl

/-- An index of the result array is in point t's block iff each coordinate is in the block's range on its axis. -/
theorem mem_blk (t : Fin cfg4.N) (i : S100000x128.Idx) :
    i ∈ ((cfg4.win 3).blk t).view.set ↔ ∀ a : Fin 2, win4_3.index t a * S5000x128.size a ≤ (i a).val
      ∧ (i a).val < win4_3.index t a * S5000x128.size a + S5000x128.size a := by
  show i ∈ ((View.whole main_v65).slice (win4_3.rect t)).set ↔ _
  rw [View.set_slice_whole, Rect.mem_set_unit]
  exact Iff.rfl

/-- Every block of rows is some point's. -/
theorem idx_onto : ∀ q0 : Fin 20, ∃ t : Fin cfg4.N, win4_3.index t = ![q0.val, 0] :=
  (by decide +kernel : ∀ q0 : Fin 20, ∃ t : Fin grid4.N, win4_3.index t = ![q0.val, 0])

/-- The 20 blocks of 5000 rows tile the result array: row r is in the block of point r / 5000. -/
theorem cover (i : S100000x128.Idx) : ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto ⟨(i 0).val / 5000, by omega⟩
  have q0 : win4_3.index t (0 : Fin 2) = (i 0).val / 5000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 5000 ≤ (i 0).val ∧ (i 0).val < win4_3.index t (0 : Fin 2) * 5000 + 5000; omega
  | ⟨1, _⟩ => show win4_3.index t (1 : Fin 2) * 128 ≤ (i 1).val ∧ (i 1).val < win4_3.index t (1 : Fin 2) * 128 + 128; omega

/-- After the call the result array is the layer's function of the arrays the call found on entry. -/
theorem value (c : Dev nD) :
    (dat4 (F := Ideal) V c).arrAt 3 cfg4.N
      = combArr 0x3F666666#32 0x3DCCCCCD#32 0x3F61D8F9#32 0x3DF1383B#32 (V c main_v62) (V c main_v1) (V c main_v64) :=
  (dat4 (F := Ideal) V c).arrAt_eq_of_cover 3 _ (fun t _ => flushed_eq V c t) cover

end Cert.Gcn.Reg4

end
-- ==== Proof.Region5.lean ====
/-
  The classifier's pallas_call as one array function.

  The call runs its body at 20 grid points. Point t loads rows 5000·t … 5000·t + 4999 of the last layer's node array, the
  whole classifier table and the whole bias row, and writes back rows 5000·t … 5000·t + 4999 of the result. Entry (p, q)
  of what the body stores is the log-softmax of the logits of row p of the loaded block, so the block written back at
  point t is block t of `finArr` of the arrays the call finds on entry. The 20 blocks tile the result array, so after the
  call the result array IS `finArr` of them.
-/
import proofs.«109353_j58935541236367_1_alg».proof.Proof.Gen.KernelIdeal.Frame
import proofs.«109353_j58935541236367_1_alg».proof.Proof.Spec
import proofs.«109353_j58935541236367_1_alg».proof.Proof.Pay
import Idealize.ShloMosaic.Lib.Pipeline.Value
import Idealize.ShloMosaic.Lib.Tactic

set_option maxRecDepth 16384

noncomputable section

namespace Cert.Gcn.Reg5

open Idealize.ShloMosaic Idealize.ShloMosaic.TcCoe Idealize.SL.Sem Idealize.ShloMosaic.ValueIdx
open Idealize.ShloMosaic.Pipeline (Dat)
open Cert.KernelIdeal Cert.KernelIdeal.Gen Cert.Gcn

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the node array's and the result's blocks move with the point along the rows;
    the table and the bias row are one block. -/
theorem idx_facts : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 20 :=
  (by decide +kernel : ∀ t : Fin grid5.N, _)

/-- Row p of the node block at point t is row 5000·t + p of the node array. -/
theorem blk_node (c : Dev nD) (t : Fin cfg5.N) (p : Fin 5000) (k : Fin 128) (r : Fin 100000) (hr : r.val = 5000 * t.val + p.val) :
    (iblk5 V c 0 t : Vec Ideal S5000x128 .f32) (ix2 p k) = (V c main_v65 : S100000x128.Idx → EReal) (ix2 r k) := by
  obtain ⟨e0, e1, -⟩ := idx_facts t
  unfold iblk5
  rw [View.read_apply]
  show V c main_v65 _ = V c main_v65 _
  refine congrArg _ (funext fun a => Fin.ext ?_)
  match a with
  | ⟨0, _⟩ => show win5_0.index t 0 * 5000 + 1 * p.val = r.val; rw [e0, hr]; omega
  | ⟨1, _⟩ => show win5_0.index t 1 * 128 + 1 * k.val = k.val; rw [e1]; omega

/-- The table's one block is the table. -/
theorem blk_tab (c : Dev nD) (t : Fin cfg5.N) (k j : Fin 128) :
    (iblk5 V c 1 t : Vec Ideal S128x128 .f32) (ix2 k j) = (V c main_arg6 : S128x128.Idx → EReal) (ix2 k j) := by
  obtain ⟨-, -, e2, e3, -⟩ := idx_facts t
  unfold iblk5
  rw [View.read_apply]
  show V c main_arg6 _ = V c main_arg6 _
  refine congrArg _ (funext fun a => Fin.ext ?_)
  match a with
  | ⟨0, _⟩ => show win5_1.index t 0 * 128 + 1 * k.val = k.val; rw [e2]; omega
  | ⟨1, _⟩ => show win5_1.index t 1 * 128 + 1 * j.val = j.val; rw [e3]; omega

/-- The bias row's one block is the bias row. -/
theorem blk_bias (c : Dev nD) (t : Fin cfg5.N) (j : Fin 128) :
    (iblk5 V c 2 t : Vec Ideal S1x128 .f32) (ix2 0 j) = (V c main_v66 : S1x128.Idx → EReal) (ix2 0 j) := by
  obtain ⟨-, -, -, -, e4, e5, -⟩ := idx_facts t
  unfold iblk5
  rw [View.read_apply]
  show V c main_v66 _ = V c main_v66 _
  refine congrArg _ (funext fun a => Fin.ext ?_)
  match a with
  | ⟨0, _⟩ => show win5_2.index t 0 * 1 + 1 * 0 = 0; rw [e4]
  | ⟨1, _⟩ => show win5_2.index t 1 * 128 + 1 * j.val = j.val; rw [e5]; omega

/-- What point t writes back is block t of the classifier's log-softmax of the arrays found on entry. -/
theorem flushed_eq (c : Dev nD) (t : Fin cfg5.N) :
    (dat5 (F := Ideal) V c).flushed 3 t = ((cfg5.win 3).blk t).view.read (Elt Ideal)
      (finArr (V c main_v65) (V c main_arg6) (fun j => V c main_v66 (ix2 0 j))) := by
  show (cfg5.win 3).cut (grid5.coords t) ((dat5 V c).after 3 t) = _
  rw [after5_3]
  unfold out5_3
  rw [View.canon_unit_zero hz]
  simp only [View.ld_unit_zero (S := S5000x128) hz, View.ld_unit_zero (S := S128x128) hz, View.ld_unit_zero (S := S1x128) hz]
  funext j
  obtain ⟨e0, e1, e2, e3, e4, e5, e6, e7, ht⟩ := idx_facts t
  obtain ⟨p, q, rfl⟩ : ∃ (p : Fin 5000) (q : Fin 128), j = ix2 p q := ⟨j 0, j 1, eq_ix2 j⟩
  show k5_pay1 (iblk5 V c 0 t) (iblk5 V c 1 t) (iblk5 V c 2 t) (ix2 p q)
    = finArr (V c main_v65) (V c main_arg6) (fun j => V c main_v66 (ix2 0 j)) (((cfg5.win 3).blk t).view.emb (ix2 p q))
  have hemb : ((cfg5.win 3).blk t).view.emb (ix2 p q) = (ix2 (⟨5000 * t.val + p.val, by omega⟩ : Fin 100000) q : S100000x128.Idx) := by
    funext a
    apply Fin.ext
    match a with
    | ⟨0, _⟩ => show win5_3.index t 0 * 5000 + 1 * p.val = 5000 * t.val + p.val; rw [e6]; omega
    | ⟨1, _⟩ => show win5_3.index t 1 * 128 + 1 * q.val = q.val; rw [e7]; omega
  rw [hemb]
  refine (Pay.fin_pay (iblk5 V c 0 t) (iblk5 V c 1 t) (iblk5 V c 2 t) p q).trans ?_
  have r0 : (fun k : Fin 128 => (iblk5 V c 0 t : Vec Ideal S5000x128 .f32) (ix2 p k))
      = rowOf (V c main_v65) (⟨5000 * t.val + p.val, by omega⟩ : Fin 100000) :=
    funext fun k => blk_node V c t p k _ rfl
  have r1 : (fun k j : Fin 128 => (iblk5 V c 1 t : Vec Ideal S128x128 .f32) (ix2 k j)) = matOf (V c main_arg6) :=
    funext fun k => funext fun j => blk_tab V c t k j
  have r2 : (fun j : Fin 128 => (iblk5 V c 2 t : Vec Ideal S1x128 .f32) (ix2 0 j)) = fun j => V c main_v66 (ix2 0 j) :=
    funext fun j => blk_bias V c t j
  rw [r0, r1, r2]
  rfl

/-- An index of the result array is in point t's block iff each coordinate is in the block's range on its axis. -/
theorem mem_blk (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v67).slice (win5_3.rect t)).set ↔ _
  rw [View.set_slice_whole, Rect.mem_set_unit]
  exact Iff.rfl

/-- Every block of rows is some point's. -/
theorem idx_onto : ∀ q0 : Fin 20, ∃ t : Fin cfg5.N, win5_3.index t = ![q0.val, 0] :=
  (by decide +kernel : ∀ q0 : Fin 20, ∃ t : Fin grid5.N, win5_3.index t = ![q0.val, 0])

/-- The 20 blocks of 5000 rows tile the result array: row r is in the block of point r / 5000. -/
theorem cover (i : S100000x128.Idx) : ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := idx_onto ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- After the call the result array is the classifier's log-softmax of the arrays the call found on entry. -/
theorem value (c : Dev nD) :
    (dat5 (F := Ideal) V c).arrAt 3 cfg5.N = finArr (V c main_v65) (V c main_arg6) (fun j => V c main_v66 (ix2 0 j)) :=
  (dat5 (F := Ideal) V c).arrAt_eq_of_cover 3 _ (fun t _ => flushed_eq V c t) cover

end Cert.Gcn.Reg5

end
-- ==== Proof.KernelChain.lean ====
/-
  The kernel program's result as a closed term of the launch memory.

  The kernel program is six dense stages on the TensorCore — an input projection, four propagation layers, a
  classifier — separated by stretches of host operations that form the sparse product and cut the layer's weight
  table out of the stacked weights. The generated frame names core c's buffer contents at the thirteen boundaries
  between these twelve segments, W0 (the launch memory) … W12 (the return). This module walks the boundaries forward,
  carrying at each one exactly what is read later: the current node array, the first layer's output (every propagation
  layer mixes it in again), and the argument arrays not yet consumed. A host stretch's result buffer is its operations'
  term of the stretch's inputs; a buffer a stretch does not write, and a buffer a region does not own, keeps its
  contents; a region's output array is the region's row function of its input arrays (the six region facts, taken as
  hypotheses). At the end the result buffer holds the classifier of the fourth layer's output.
-/
import proofs.«109353_j58935541236367_1_alg».proof.Proof.Gen.KernelIdeal.Frame
import proofs.«109353_j58935541236367_1_alg».proof.Proof.Spec
import proofs.«109353_j58935541236367_1_alg».proof.Proof.HostChain
import Idealize.ShloMosaic.Lib.StableHlo.Run

noncomputable section

namespace Cert.Gcn.Kern

open Cert.KernelIdeal Cert.KernelIdeal.Gen Cert.Gcn Idealize.ShloMosaic Idealize.ShloMosaic.TcCoe Idealize.SL.Sem
open Idealize.ShloMosaic.ValueIdx

/-- A buffer that no operation of a host stretch writes keeps its contents through the stretch: the stretch's
    operations each write one buffer, and the buffer in question is none of them. -/
local macro "kept_through " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide))))

section Values

variable (m : (ℓ : Loc nD τ sig) → Buf (Elt Ideal) ℓ) (ρ : Dev nD → PrngReg) (c : Dev nD)

/-! ## The network's stages as terms of the launch memory -/

/-- The input projection of the node features. -/
def P : SN.Idx → EReal :=
  projArr (m ((c : Thread nD τ).loc main_arg0)) (m ((c : Thread nD τ).loc main_arg4)) (biasRow (m ((c : Thread nD τ).loc main_arg5)))

/-- The sparse product of a node array with the launch memory's edge arrays. -/
def agg (h : SN.Idx → EReal) : SN.Idx → EReal :=
  spmm (F := Ideal) h (m ((c : Thread nD τ).loc main_arg1)) (m ((c : Thread nD τ).loc main_arg2)) (m ((c : Thread nD τ).loc main_arg3))

/-- The four propagation layers' outputs. -/
def H0 : SN.Idx → EReal :=
  combArr 0x3F666666#32 0x3DCCCCCD#32 0x3F183370#32 0x3ECF991F#32 (agg m c (P m c)) (P m c) (wslice0 (F := Ideal) (m ((c : Thread nD τ).loc main_arg8)))
def H1 : SN.Idx → EReal :=
  combArr 0x3F666666#32 0x3DCCCCCD#32 0x3F46E010#32 0x3E647FBE#32 (agg m c (H0 m c)) (P m c) (wslice1 (F := Ideal) (m ((c : Thread nD τ).loc main_arg8)))
def H2 : SN.Idx → EReal :=
  combArr 0x3F666666#32 0x3DCCCCCD#32 0x3F588995#32 0x3E1DD9AD#32 (agg m c (H1 m c)) (P m c) (wslice2 (F := Ideal) (m ((c : Thread nD τ).loc main_arg8)))
def H3 : SN.Idx → EReal :=
  combArr 0x3F666666#32 0x3DCCCCCD#32 0x3F61D8F9#32 0x3DF1383B#32 (agg m c (H2 m c)) (P m c) (wslice3 (F := Ideal) (m ((c : Thread nD τ).loc main_arg8)))

/-! ## What each host stretch computes, from any contents

Each of the four middle stretches forms the sparse product of the current node array (into one buffer) and cuts the
layer's weight table out of the stacked weights (into another); the first and last stretches lay a bias vector out as
a row. -/

theorem host1_agg (V : Valuation τ sig (Elt Ideal)) : StableHlo.after hostOps1 V (Proc.devRef .tc main_v14)
    = spmm (F := Ideal) (V (Proc.devRef .tc main_v1)) (V (Proc.devRef .tc main_arg1))
        (V (Proc.devRef .tc main_arg2)) (V (Proc.devRef .tc main_arg3)) := by
  after_results_simp
  rfl
theorem host2_agg (V : Valuation τ sig (Elt Ideal)) : StableHlo.after hostOps2 V (Proc.devRef .tc main_v30)
    = spmm (F := Ideal) (V (Proc.devRef .tc main_v17)) (V (Proc.devRef .tc main_arg1))
        (V (Proc.devRef .tc main_arg2)) (V (Proc.devRef .tc main_arg3)) := by
  after_results_simp
  rfl
theorem host3_agg (V : Valuation τ sig (Elt Ideal)) : StableHlo.after hostOps3 V (Proc.devRef .tc main_v46)
    = spmm (F := Ideal) (V (Proc.devRef .tc main_v33)) (V (Proc.devRef .tc main_arg1))
        (V (Proc.devRef .tc main_arg2)) (V (Proc.devRef .tc main_arg3)) := by
  after_results_simp
  rfl
theorem host4_agg (V : Valuation τ sig (Elt Ideal)) : StableHlo.after hostOps4 V (Proc.devRef .tc main_v62)
    = spmm (F := Ideal) (V (Proc.devRef .tc main_v49)) (V (Proc.devRef .tc main_arg1))
        (V (Proc.devRef .tc main_arg2)) (V (Proc.devRef .tc main_arg3)) := by
  after_results_simp
  rfl

theorem host1_w (V : Valuation τ sig (Elt Ideal)) : StableHlo.after hostOps1 V (Proc.devRef .tc main_v16)
    = wslice0 (F := Ideal) (V (Proc.devRef .tc main_arg8)) := by
  after_results_simp
  rfl
theorem host2_w (V : Valuation τ sig (Elt Ideal)) : StableHlo.after hostOps2 V (Proc.devRef .tc main_v32)
    = wslice1 (F := Ideal) (V (Proc.devRef .tc main_arg8)) := by
  after_results_simp
  rfl
theorem host3_w (V : Valuation τ sig (Elt Ideal)) : StableHlo.after hostOps3 V (Proc.devRef .tc main_v48)
    = wslice2 (F := Ideal) (V (Proc.devRef .tc main_arg8)) := by
  after_results_simp
  rfl
theorem host4_w (V : Valuation τ sig (Elt Ideal)) : StableHlo.after hostOps4 V (Proc.devRef .tc main_v64)
    = wslice3 (F := Ideal) (V (Proc.devRef .tc main_arg8)) := by
  after_results_simp
  rfl

theorem host0_b (V : Valuation τ sig (Elt Ideal)) : StableHlo.after hostOps0 V (Proc.devRef .tc main_v0)
    = shapeCast S1x128 (V (Proc.devRef .tc main_arg5)) shapeCasts_S128_S1x128 := by
  after_results
  rfl
theorem host5_b (V : Valuation τ sig (Elt Ideal)) : StableHlo.after hostOps5 V (Proc.devRef .tc main_v66)
    = shapeCast S1x128 (V (Proc.devRef .tc main_arg7)) shapeCasts_S128_S1x128 := by
  after_results
  rfl

/-! ## The argument arrays, boundary by boundary

No host operation and no region writes an argument array, so each holds its launch contents at every boundary. Only
the boundaries at which a later segment still reads the array are stated. -/

theorem W1_arg0 : W1 m ρ c (Proc.devRef .tc main_arg0) = m ((c : Thread nD τ).loc main_arg0) :=
  (by kept_through hostOps0 : W1 m ρ c (Proc.devRef .tc main_arg0) = W0 m ρ c (Proc.devRef .tc main_arg0))
theorem W1_arg4 : W1 m ρ c (Proc.devRef .tc main_arg4) = m ((c : Thread nD τ).loc main_arg4) :=
  (by kept_through hostOps0 : W1 m ρ c (Proc.devRef .tc main_arg4) = W0 m ρ c (Proc.devRef .tc main_arg4))
theorem W1_arg5 : W1 m ρ c (Proc.devRef .tc main_arg5) = m ((c : Thread nD τ).loc main_arg5) :=
  (by kept_through hostOps0 : W1 m ρ c (Proc.devRef .tc main_arg5) = W0 m ρ c (Proc.devRef .tc main_arg5))
theorem W1_arg1 : W1 m ρ c (Proc.devRef .tc main_arg1) = m ((c : Thread nD τ).loc main_arg1) :=
  (by kept_through hostOps0 : W1 m ρ c (Proc.devRef .tc main_arg1) = W0 m ρ c (Proc.devRef .tc main_arg1))
theorem W1_arg2 : W1 m ρ c (Proc.devRef .tc main_arg2) = m ((c : Thread nD τ).loc main_arg2) :=
  (by kept_through hostOps0 : W1 m ρ c (Proc.devRef .tc main_arg2) = W0 m ρ c (Proc.devRef .tc main_arg2))
theorem W1_arg3 : W1 m ρ c (Proc.devRef .tc main_arg3) = m ((c : Thread nD τ).loc main_arg3) :=
  (by kept_through hostOps0 : W1 m ρ c (Proc.devRef .tc main_arg3) = W0 m ρ c (Proc.devRef .tc main_arg3))
theorem W1_arg6 : W1 m ρ c (Proc.devRef .tc main_arg6) = m ((c : Thread nD τ).loc main_arg6) :=
  (by kept_through hostOps0 : W1 m ρ c (Proc.devRef .tc main_arg6) = W0 m ρ c (Proc.devRef .tc main_arg6))
theorem W1_arg7 : W1 m ρ c (Proc.devRef .tc main_arg7) = m ((c : Thread nD τ).loc main_arg7) :=
  (by kept_through hostOps0 : W1 m ρ c (Proc.devRef .tc main_arg7) = W0 m ρ c (Proc.devRef .tc main_arg7))
theorem W1_arg8 : W1 m ρ c (Proc.devRef .tc main_arg8) = m ((c : Thread nD τ).loc main_arg8) :=
  (by kept_through hostOps0 : W1 m ρ c (Proc.devRef .tc main_arg8) = W0 m ρ c (Proc.devRef .tc main_arg8))

theorem W2_arg1 : W2 m ρ c (Proc.devRef .tc main_arg1) = m ((c : Thread nD τ).loc main_arg1) :=
  (W2_of_ne m ρ c main_arg1 (by decide)).trans (W1_arg1 m ρ c)
theorem W2_arg2 : W2 m ρ c (Proc.devRef .tc main_arg2) = m ((c : Thread nD τ).loc main_arg2) :=
  (W2_of_ne m ρ c main_arg2 (by decide)).trans (W1_arg2 m ρ c)
theorem W2_arg3 : W2 m ρ c (Proc.devRef .tc main_arg3) = m ((c : Thread nD τ).loc main_arg3) :=
  (W2_of_ne m ρ c main_arg3 (by decide)).trans (W1_arg3 m ρ c)
theorem W2_arg6 : W2 m ρ c (Proc.devRef .tc main_arg6) = m ((c : Thread nD τ).loc main_arg6) :=
  (W2_of_ne m ρ c main_arg6 (by decide)).trans (W1_arg6 m ρ c)
theorem W2_arg7 : W2 m ρ c (Proc.devRef .tc main_arg7) = m ((c : Thread nD τ).loc main_arg7) :=
  (W2_of_ne m ρ c main_arg7 (by decide)).trans (W1_arg7 m ρ c)
theorem W2_arg8 : W2 m ρ c (Proc.devRef .tc main_arg8) = m ((c : Thread nD τ).loc main_arg8) :=
  (W2_of_ne m ρ c main_arg8 (by decide)).trans (W1_arg8 m ρ c)

theorem W3_arg1 : W3 m ρ c (Proc.devRef .tc main_arg1) = m ((c : Thread nD τ).loc main_arg1) :=
  (by kept_through hostOps1 : W3 m ρ c (Proc.devRef .tc main_arg1) = W2 m ρ c (Proc.devRef .tc main_arg1)).trans (W2_arg1 m ρ c)
theorem W3_arg2 : W3 m ρ c (Proc.devRef .tc main_arg2) = m ((c : Thread nD τ).loc main_arg2) :=
  (by kept_through hostOps1 : W3 m ρ c (Proc.devRef .tc main_arg2) = W2 m ρ c (Proc.devRef .tc main_arg2)).trans (W2_arg2 m ρ c)
theorem W3_arg3 : W3 m ρ c (Proc.devRef .tc main_arg3) = m ((c : Thread nD τ).loc main_arg3) :=
  (by kept_through hostOps1 : W3 m ρ c (Proc.devRef .tc main_arg3) = W2 m ρ c (Proc.devRef .tc main_arg3)).trans (W2_arg3 m ρ c)
theorem W3_arg6 : W3 m ρ c (Proc.devRef .tc main_arg6) = m ((c : Thread nD τ).loc main_arg6) :=
  (by kept_through hostOps1 : W3 m ρ c (Proc.devRef .tc main_arg6) = W2 m ρ c (Proc.devRef .tc main_arg6)).trans (W2_arg6 m ρ c)
theorem W3_arg7 : W3 m ρ c (Proc.devRef .tc main_arg7) = m ((c : Thread nD τ).loc main_arg7) :=
  (by kept_through hostOps1 : W3 m ρ c (Proc.devRef .tc main_arg7) = W2 m ρ c (Proc.devRef .tc main_arg7)).trans (W2_arg7 m ρ c)
theorem W3_arg8 : W3 m ρ c (Proc.devRef .tc main_arg8) = m ((c : Thread nD τ).loc main_arg8) :=
  (by kept_through hostOps1 : W3 m ρ c (Proc.devRef .tc main_arg8) = W2 m ρ c (Proc.devRef .tc main_arg8)).trans (W2_arg8 m ρ c)

theorem W4_arg1 : W4 m ρ c (Proc.devRef .tc main_arg1) = m ((c : Thread nD τ).loc main_arg1) :=
  (W4_of_ne m ρ c main_arg1 (by decide)).trans (W3_arg1 m ρ c)
theorem W4_arg2 : W4 m ρ c (Proc.devRef .tc main_arg2) = m ((c : Thread nD τ).loc main_arg2) :=
  (W4_of_ne m ρ c main_arg2 (by decide)).trans (W3_arg2 m ρ c)
theorem W4_arg3 : W4 m ρ c (Proc.devRef .tc main_arg3) = m ((c : Thread nD τ).loc main_arg3) :=
  (W4_of_ne m ρ c main_arg3 (by decide)).trans (W3_arg3 m ρ c)
theorem W4_arg6 : W4 m ρ c (Proc.devRef .tc main_arg6) = m ((c : Thread nD τ).loc main_arg6) :=
  (W4_of_ne m ρ c main_arg6 (by decide)).trans (W3_arg6 m ρ c)
theorem W4_arg7 : W4 m ρ c (Proc.devRef .tc main_arg7) = m ((c : Thread nD τ).loc main_arg7) :=
  (W4_of_ne m ρ c main_arg7 (by decide)).trans (W3_arg7 m ρ c)
theorem W4_arg8 : W4 m ρ c (Proc.devRef .tc main_arg8) = m ((c : Thread nD τ).loc main_arg8) :=
  (W4_of_ne m ρ c main_arg8 (by decide)).trans (W3_arg8 m ρ c)

theorem W5_arg1 : W5 m ρ c (Proc.devRef .tc main_arg1) = m ((c : Thread nD τ).loc main_arg1) :=
  (by kept_through hostOps2 : W5 m ρ c (Proc.devRef .tc main_arg1) = W4 m ρ c (Proc.devRef .tc main_arg1)).trans (W4_arg1 m ρ c)
theorem W5_arg2 : W5 m ρ c (Proc.devRef .tc main_arg2) = m ((c : Thread nD τ).loc main_arg2) :=
  (by kept_through hostOps2 : W5 m ρ c (Proc.devRef .tc main_arg2) = W4 m ρ c (Proc.devRef .tc main_arg2)).trans (W4_arg2 m ρ c)
theorem W5_arg3 : W5 m ρ c (Proc.devRef .tc main_arg3) = m ((c : Thread nD τ).loc main_arg3) :=
  (by kept_through hostOps2 : W5 m ρ c (Proc.devRef .tc main_arg3) = W4 m ρ c (Proc.devRef .tc main_arg3)).trans (W4_arg3 m ρ c)
theorem W5_arg6 : W5 m ρ c (Proc.devRef .tc main_arg6) = m ((c : Thread nD τ).loc main_arg6) :=
  (by kept_through hostOps2 : W5 m ρ c (Proc.devRef .tc main_arg6) = W4 m ρ c (Proc.devRef .tc main_arg6)).trans (W4_arg6 m ρ c)
theorem W5_arg7 : W5 m ρ c (Proc.devRef .tc main_arg7) = m ((c : Thread nD τ).loc main_arg7) :=
  (by kept_through hostOps2 : W5 m ρ c (Proc.devRef .tc main_arg7) = W4 m ρ c (Proc.devRef .tc main_arg7)).trans (W4_arg7 m ρ c)
theorem W5_arg8 : W5 m ρ c (Proc.devRef .tc main_arg8) = m ((c : Thread nD τ).loc main_arg8) :=
  (by kept_through hostOps2 : W5 m ρ c (Proc.devRef .tc main_arg8) = W4 m ρ c (Proc.devRef .tc main_arg8)).trans (W4_arg8 m ρ c)

theorem W6_arg1 : W6 m ρ c (Proc.devRef .tc main_arg1) = m ((c : Thread nD τ).loc main_arg1) :=
  (W6_of_ne m ρ c main_arg1 (by decide)).trans (W5_arg1 m ρ c)
theorem W6_arg2 : W6 m ρ c (Proc.devRef .tc main_arg2) = m ((c : Thread nD τ).loc main_arg2) :=
  (W6_of_ne m ρ c main_arg2 (by decide)).trans (W5_arg2 m ρ c)
theorem W6_arg3 : W6 m ρ c (Proc.devRef .tc main_arg3) = m ((c : Thread nD τ).loc main_arg3) :=
  (W6_of_ne m ρ c main_arg3 (by decide)).trans (W5_arg3 m ρ c)
theorem W6_arg6 : W6 m ρ c (Proc.devRef .tc main_arg6) = m ((c : Thread nD τ).loc main_arg6) :=
  (W6_of_ne m ρ c main_arg6 (by decide)).trans (W5_arg6 m ρ c)
theorem W6_arg7 : W6 m ρ c (Proc.devRef .tc main_arg7) = m ((c : Thread nD τ).loc main_arg7) :=
  (W6_of_ne m ρ c main_arg7 (by decide)).trans (W5_arg7 m ρ c)
theorem W6_arg8 : W6 m ρ c (Proc.devRef .tc main_arg8) = m ((c : Thread nD τ).loc main_arg8) :=
  (W6_of_ne m ρ c main_arg8 (by decide)).trans (W5_arg8 m ρ c)

theorem W7_arg1 : W7 m ρ c (Proc.devRef .tc main_arg1) = m ((c : Thread nD τ).loc main_arg1) :=
  (by kept_through hostOps3 : W7 m ρ c (Proc.devRef .tc main_arg1) = W6 m ρ c (Proc.devRef .tc main_arg1)).trans (W6_arg1 m ρ c)
theorem W7_arg2 : W7 m ρ c (Proc.devRef .tc main_arg2) = m ((c : Thread nD τ).loc main_arg2) :=
  (by kept_through hostOps3 : W7 m ρ c (Proc.devRef .tc main_arg2) = W6 m ρ c (Proc.devRef .tc main_arg2)).trans (W6_arg2 m ρ c)
theorem W7_arg3 : W7 m ρ c (Proc.devRef .tc main_arg3) = m ((c : Thread nD τ).loc main_arg3) :=
  (by kept_through hostOps3 : W7 m ρ c (Proc.devRef .tc main_arg3) = W6 m ρ c (Proc.devRef .tc main_arg3)).trans (W6_arg3 m ρ c)
theorem W7_arg6 : W7 m ρ c (Proc.devRef .tc main_arg6) = m ((c : Thread nD τ).loc main_arg6) :=
  (by kept_through hostOps3 : W7 m ρ c (Proc.devRef .tc main_arg6) = W6 m ρ c (Proc.devRef .tc main_arg6)).trans (W6_arg6 m ρ c)
theorem W7_arg7 : W7 m ρ c (Proc.devRef .tc main_arg7) = m ((c : Thread nD τ).loc main_arg7) :=
  (by kept_through hostOps3 : W7 m ρ c (Proc.devRef .tc main_arg7) = W6 m ρ c (Proc.devRef .tc main_arg7)).trans (W6_arg7 m ρ c)
theorem W7_arg8 : W7 m ρ c (Proc.devRef .tc main_arg8) = m ((c : Thread nD τ).loc main_arg8) :=
  (by kept_through hostOps3 : W7 m ρ c (Proc.devRef .tc main_arg8) = W6 m ρ c (Proc.devRef .tc main_arg8)).trans (W6_arg8 m ρ c)

theorem W8_arg1 : W8 m ρ c (Proc.devRef .tc main_arg1) = m ((c : Thread nD τ).loc main_arg1) :=
  (W8_of_ne m ρ c main_arg1 (by decide)).trans (W7_arg1 m ρ c)
theorem W8_arg2 : W8 m ρ c (Proc.devRef .tc main_arg2) = m ((c : Thread nD τ).loc main_arg2) :=
  (W8_of_ne m ρ c main_arg2 (by decide)).trans (W7_arg2 m ρ c)
theorem W8_arg3 : W8 m ρ c (Proc.devRef .tc main_arg3) = m ((c : Thread nD τ).loc main_arg3) :=
  (W8_of_ne m ρ c main_arg3 (by decide)).trans (W7_arg3 m ρ c)
theorem W8_arg6 : W8 m ρ c (Proc.devRef .tc main_arg6) = m ((c : Thread nD τ).loc main_arg6) :=
  (W8_of_ne m ρ c main_arg6 (by decide)).trans (W7_arg6 m ρ c)
theorem W8_arg7 : W8 m ρ c (Proc.devRef .tc main_arg7) = m ((c : Thread nD τ).loc main_arg7) :=
  (W8_of_ne m ρ c main_arg7 (by decide)).trans (W7_arg7 m ρ c)
theorem W8_arg8 : W8 m ρ c (Proc.devRef .tc main_arg8) = m ((c : Thread nD τ).loc main_arg8) :=
  (W8_of_ne m ρ c main_arg8 (by decide)).trans (W7_arg8 m ρ c)

theorem W9_arg6 : W9 m ρ c (Proc.devRef .tc main_arg6) = m ((c : Thread nD τ).loc main_arg6) :=
  (by kept_through hostOps4 : W9 m ρ c (Proc.devRef .tc main_arg6) = W8 m ρ c (Proc.devRef .tc main_arg6)).trans (W8_arg6 m ρ c)
theorem W9_arg7 : W9 m ρ c (Proc.devRef .tc main_arg7) = m ((c : Thread nD τ).loc main_arg7) :=
  (by kept_through hostOps4 : W9 m ρ c (Proc.devRef .tc main_arg7) = W8 m ρ c (Proc.devRef .tc main_arg7)).trans (W8_arg7 m ρ c)

theorem W10_arg6 : W10 m ρ c (Proc.devRef .tc main_arg6) = m ((c : Thread nD τ).loc main_arg6) :=
  (W10_of_ne m ρ c main_arg6 (by decide)).trans (W9_arg6 m ρ c)
theorem W10_arg7 : W10 m ρ c (Proc.devRef .tc main_arg7) = m ((c : Thread nD τ).loc main_arg7) :=
  (W10_of_ne m ρ c main_arg7 (by decide)).trans (W9_arg7 m ρ c)

theorem W11_arg6 : W11 m ρ c (Proc.devRef .tc main_arg6) = m ((c : Thread nD τ).loc main_arg6) :=
  (by kept_through hostOps5 : W11 m ρ c (Proc.devRef .tc main_arg6) = W10 m ρ c (Proc.devRef .tc main_arg6)).trans (W10_arg6 m ρ c)

/-! ## The bias rows and the weight tables, at the boundary where a region reads them -/

theorem W1_v0 : W1 m ρ c (Proc.devRef .tc main_v0)
    = shapeCast S1x128 (m ((c : Thread nD τ).loc main_arg5)) shapeCasts_S128_S1x128 :=
  host0_b (W0 m ρ c)

theorem W3_v16 : W3 m ρ c (Proc.devRef .tc main_v16) = wslice0 (F := Ideal) (m ((c : Thread nD τ).loc main_arg8)) := by
  refine (host1_w (W2 m ρ c)).trans ?_
  rw [W2_arg8]
theorem W5_v32 : W5 m ρ c (Proc.devRef .tc main_v32) = wslice1 (F := Ideal) (m ((c : Thread nD τ).loc main_arg8)) := by
  refine (host2_w (W4 m ρ c)).trans ?_
  rw [W4_arg8]
theorem W7_v48 : W7 m ρ c (Proc.devRef .tc main_v48) = wslice2 (F := Ideal) (m ((c : Thread nD τ).loc main_arg8)) := by
  refine (host3_w (W6 m ρ c)).trans ?_
  rw [W6_arg8]
theorem W9_v64 : W9 m ρ c (Proc.devRef .tc main_v64) = wslice3 (F := Ideal) (m ((c : Thread nD τ).loc main_arg8)) := by
  refine (host4_w (W8 m ρ c)).trans ?_
  rw [W8_arg8]

theorem W11_v66 : W11 m ρ c (Proc.devRef .tc main_v66)
    = shapeCast S1x128 (m ((c : Thread nD τ).loc main_arg7)) shapeCasts_S128_S1x128 := by
  refine (host5_b (W10 m ρ c)).trans ?_
  rw [W10_arg7]

/-! ## The first layer's output, boundary by boundary

The projection writes it; every propagation layer reads it again as its second window and no segment writes it
afterwards, so it is the projection of the node features up to the last propagation layer's entry. -/

section Projection

variable (hreg0 : ∀ (V : (c : Dev nD) → (b : Ref sig .tc) → Buf (Elt Ideal) ((c : Thread nD τ).loc b)) (c : Dev nD),
  (dat0 (F := Ideal) V c).arrAt 3 cfg0.N = projArr (V c main_arg0) (V c main_arg4) (fun j => V c main_v0 (ix2 0 j)))
include hreg0

theorem W2_v1 : W2 m ρ c (Proc.devRef .tc main_v1) = P m c := by
  refine (W2_arr m ρ c 3).trans ((hreg0 _ c).trans ?_)
  show projArr (W1 m ρ c (Proc.devRef .tc main_arg0)) (W1 m ρ c (Proc.devRef .tc main_arg4))
      (fun j => W1 m ρ c (Proc.devRef .tc main_v0) (ix2 0 j)) = _
  rw [W1_arg0, W1_arg4, W1_v0, reshape_bias]
  rfl

theorem W3_v1 : W3 m ρ c (Proc.devRef .tc main_v1) = P m c :=
  (by kept_through hostOps1 : W3 m ρ c (Proc.devRef .tc main_v1) = W2 m ρ c (Proc.devRef .tc main_v1)).trans (W2_v1 m ρ c hreg0)
theorem W4_v1 : W4 m ρ c (Proc.devRef .tc main_v1) = P m c :=
  ((W4_arr m ρ c 1).trans (((dat1 (V3 m ρ) c).arrAt_in 1 rfl _).trans (A_eq1 (V3 m ρ) c 1))).trans (W3_v1 m ρ c hreg0)
theorem W5_v1 : W5 m ρ c (Proc.devRef .tc main_v1) = P m c :=
  (by kept_through hostOps2 : W5 m ρ c (Proc.devRef .tc main_v1) = W4 m ρ c (Proc.devRef .tc main_v1)).trans (W4_v1 m ρ c hreg0)
theorem W6_v1 : W6 m ρ c (Proc.devRef .tc main_v1) = P m c :=
  ((W6_arr m ρ c 1).trans (((dat2 (V5 m ρ) c).arrAt_in 1 rfl _).trans (A_eq2 (V5 m ρ) c 1))).trans (W5_v1 m ρ c hreg0)
theorem W7_v1 : W7 m ρ c (Proc.devRef .tc main_v1) = P m c :=
  (by kept_through hostOps3 : W7 m ρ c (Proc.devRef .tc main_v1) = W6 m ρ c (Proc.devRef .tc main_v1)).trans (W6_v1 m ρ c hreg0)
theorem W8_v1 : W8 m ρ c (Proc.devRef .tc main_v1) = P m c :=
  ((W8_arr m ρ c 1).trans (((dat3 (V7 m ρ) c).arrAt_in 1 rfl _).trans (A_eq3 (V7 m ρ) c 1))).trans (W7_v1 m ρ c hreg0)
theorem W9_v1 : W9 m ρ c (Proc.devRef .tc main_v1) = P m c :=
  (by kept_through hostOps4 : W9 m ρ c (Proc.devRef .tc main_v1) = W8 m ρ c (Proc.devRef .tc main_v1)).trans (W8_v1 m ρ c hreg0)

/-- Entering the first propagation layer, the aggregate is the sparse product of the projection. -/
theorem W3_v14 : W3 m ρ c (Proc.devRef .tc main_v14) = agg m c (P m c) := by
  refine (host1_agg (W2 m ρ c)).trans ?_
  rw [W2_v1 m ρ c hreg0, W2_arg1, W2_arg2, W2_arg3]
  rfl

/-! ## The propagation layers and the classifier -/

section Layer0

variable (hreg1 : ∀ (V : (c : Dev nD) → (b : Ref sig .tc) → Buf (Elt Ideal) ((c : Thread nD τ).loc b)) (c : Dev nD),
  (dat1 (F := Ideal) V c).arrAt 3 cfg1.N
    = combArr 0x3F666666#32 0x3DCCCCCD#32 0x3F183370#32 0x3ECF991F#32 (V c main_v14) (V c main_v1) (V c main_v16))
include hreg1

theorem W4_v17 : W4 m ρ c (Proc.devRef .tc main_v17) = H0 m c := by
  refine (W4_arr m ρ c 3).trans ((hreg1 _ c).trans ?_)
  show combArr _ _ _ _ (W3 m ρ c (Proc.devRef .tc main_v14)) (W3 m ρ c (Proc.devRef .tc main_v1))
      (W3 m ρ c (Proc.devRef .tc main_v16)) = _
  rw [W3_v14 m ρ c hreg0, W3_v1 m ρ c hreg0, W3_v16]
  rfl

theorem W5_v30 : W5 m ρ c (Proc.devRef .tc main_v30) = agg m c (H0 m c) := by
  refine (host2_agg (W4 m ρ c)).trans ?_
  rw [W4_v17 m ρ c hreg0 hreg1, W4_arg1, W4_arg2, W4_arg3]
  rfl

section Layer1

variable (hreg2 : ∀ (V : (c : Dev nD) → (b : Ref sig .tc) → Buf (Elt Ideal) ((c : Thread nD τ).loc b)) (c : Dev nD),
  (dat2 (F := Ideal) V c).arrAt 3 cfg2.N
    = combArr 0x3F666666#32 0x3DCCCCCD#32 0x3F46E010#32 0x3E647FBE#32 (V c main_v30) (V c main_v1) (V c main_v32))
include hreg2

theorem W6_v33 : W6 m ρ c (Proc.devRef .tc main_v33) = H1 m c := by
  refine (W6_arr m ρ c 3).trans ((hreg2 _ c).trans ?_)
  show combArr _ _ _ _ (W5 m ρ c (Proc.devRef .tc main_v30)) (W5 m ρ c (Proc.devRef .tc main_v1))
      (W5 m ρ c (Proc.devRef .tc main_v32)) = _
  rw [W5_v30 m ρ c hreg0 hreg1, W5_v1 m ρ c hreg0, W5_v32]
  rfl

theorem W7_v46 : W7 m ρ c (Proc.devRef .tc main_v46) = agg m c (H1 m c) := by
  refine (host3_agg (W6 m ρ c)).trans ?_
  rw [W6_v33 m ρ c hreg0 hreg1 hreg2, W6_arg1, W6_arg2, W6_arg3]
  rfl

section Layer2

variable (hreg3 : ∀ (V : (c : Dev nD) → (b : Ref sig .tc) → Buf (Elt Ideal) ((c : Thread nD τ).loc b)) (c : Dev nD),
  (dat3 (F := Ideal) V c).arrAt 3 cfg3.N
    = combArr 0x3F666666#32 0x3DCCCCCD#32 0x3F588995#32 0x3E1DD9AD#32 (V c main_v46) (V c main_v1) (V c main_v48))
include hreg3

theorem W8_v49 : W8 m ρ c (Proc.devRef .tc main_v49) = H2 m c := by
  refine (W8_arr m ρ c 3).trans ((hreg3 _ c).trans ?_)
  show combArr _ _ _ _ (W7 m ρ c (Proc.devRef .tc main_v46)) (W7 m ρ c (Proc.devRef .tc main_v1))
      (W7 m ρ c (Proc.devRef .tc main_v48)) = _
  rw [W7_v46 m ρ c hreg0 hreg1 hreg2, W7_v1 m ρ c hreg0, W7_v48]
  rfl

theorem W9_v62 : W9 m ρ c (Proc.devRef .tc main_v62) = agg m c (H2 m c) := by
  refine (host4_agg (W8 m ρ c)).trans ?_
  rw [W8_v49 m ρ c hreg0 hreg1 hreg2 hreg3, W8_arg1, W8_arg2, W8_arg3]
  rfl

section Layer3

variable (hreg4 : ∀ (V : (c : Dev nD) → (b : Ref sig .tc) → Buf (Elt Ideal) ((c : Thread nD τ).loc b)) (c : Dev nD),
  (dat4 (F := Ideal) V c).arrAt 3 cfg4.N
    = combArr 0x3F666666#32 0x3DCCCCCD#32 0x3F61D8F9#32 0x3DF1383B#32 (V c main_v62) (V c main_v1) (V c main_v64))
include hreg4

theorem W10_v65 : W10 m ρ c (Proc.devRef .tc main_v65) = H3 m c := by
  refine (W10_arr m ρ c 3).trans ((hreg4 _ c).trans ?_)
  show combArr _ _ _ _ (W9 m ρ c (Proc.devRef .tc main_v62)) (W9 m ρ c (Proc.devRef .tc main_v1))
      (W9 m ρ c (Proc.devRef .tc main_v64)) = _
  rw [W9_v62 m ρ c hreg0 hreg1 hreg2 hreg3, W9_v1 m ρ c hreg0, W9_v64]
  rfl

theorem W11_v65 : W11 m ρ c (Proc.devRef .tc main_v65) = H3 m c :=
  (by kept_through hostOps5 : W11 m ρ c (Proc.devRef .tc main_v65) = W10 m ρ c (Proc.devRef .tc main_v65)).trans
    (W10_v65 m ρ c hreg0 hreg1 hreg2 hreg3 hreg4)

section Classifier

variable (hreg5 : ∀ (V : (c : Dev nD) → (b : Ref sig .tc) → Buf (Elt Ideal) ((c : Thread nD τ).loc b)) (c : Dev nD),
  (dat5 (F := Ideal) V c).arrAt 3 cfg5.N = finArr (V c main_v65) (V c main_arg6) (fun j => V c main_v66 (ix2 0 j)))
include hreg5

/-- THE KERNEL'S VALUE: at the return, the result buffer holds the classifier's log-softmax of the fourth propagation
    layer's output, every stage a term of the launch memory. -/
theorem kernel_value : W12 m ρ c (Proc.devRef .tc main_v67)
    = finArr (H3 m c) (m ((c : Thread nD τ).loc main_arg6)) (biasRow (m ((c : Thread nD τ).loc main_arg7))) := by
  refine (W12_arr m ρ c 3).trans ((hreg5 _ c).trans ?_)
  show finArr (W11 m ρ c (Proc.devRef .tc main_v65)) (W11 m ρ c (Proc.devRef .tc main_arg6))
      (fun j => W11 m ρ c (Proc.devRef .tc main_v66) (ix2 0 j)) = _
  rw [W11_v65 m ρ c hreg0 hreg1 hreg2 hreg3 hreg4, W11_arg6, W11_v66, reshape_bias]

end Classifier
end Layer3
end Layer2
end Layer1
end Layer0
end Projection

end Values

section Run

open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run with the result buffer NAMED: from any memory with zero counters every weakly fair execution of the program
    on the TensorCores terminates, nothing faulting, and in every final state the result buffer holds the last
    boundary's contents of it, and the argument arrays are as launched. The last thread state holds every unscoped
    buffer at the last boundary's contents; the result buffer is one of them. -/
theorem run_named : θ_run defs (onTc (τ := τ) (main (F := F))) ⟨m, fun _ => 0, ρ⟩ (fun r => ∀ c : Dev nD,
      r.2.mem ((c.tc : Thread nD τ).loc main_v67) = W12 m ρ c (Proc.devRef .tc main_v67)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v67 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Run

end Cert.Gcn.Kern

end
-- ==== Proof.RefStages.lean ====
/-
  The reference program's stages are the row functions of the specification.

  The reference applies every dense stage to the whole 100000 × 128 node array at once: a product with a 128 × 128
  table, a bias row repeated down the rows, scalings by float words repeated over the array, a larger-of with an array
  of zeros. Read at one entry (r, j), each of these touches only row r of its node-array operands, so each stage is
  the specification's row function applied at every row. Between the dense stages sits the sparse product, which is
  taken whole and never read at an entry.
-/
import proofs.«109353_j58935541236367_1_alg».proof.Proof.RefRead
import proofs.«109353_j58935541236367_1_alg».proof.Proof.Spec
import proofs.«109353_j58935541236367_1_alg».proof.Proof.HostChain
import Idealize.ShloMosaic.PureOps.Ideal
import Idealize.ShloMosaic.PureOps.Ideal.Laws
import Idealize.ShloMosaic.PureOps.Reduce
import Idealize.ShloMosaic.Lib.ValueIdx

noncomputable section

open scoped BigOperators

namespace Cert.Gcn.Ref

open Cert.ReferenceIdeal Cert.ReferenceIdeal.ReadP Cert.Gcn Idealize.ShloMosaic Idealize.ShloMosaic.ValueIdx

/-- Node arrays, weight tables, bias vectors, edge index and edge weight arrays, the stacked layer weights. -/
abbrev NodeArr := (⟨S100000x128, .f32⟩ : BufTy).Contents (Elt Ideal)
abbrev WArr := (⟨S128x128, .f32⟩ : BufTy).Contents (Elt Ideal)
abbrev BArr := (⟨S128, .f32⟩ : BufTy).Contents (Elt Ideal)
abbrev EIdx := (⟨S1600000, .i32⟩ : BufTy).Contents (Elt Ideal)
abbrev EWt := (⟨S1600000, .f32⟩ : BufTy).Contents (Elt Ideal)
abbrev WStack := (⟨S4x128x128, .f32⟩ : BufTy).Contents (Elt Ideal)

/-! ## The specification's arrays at the entry (r, j) -/

theorem projArr_at (A : NodeArr) (W : WArr) (b : Row) (r : Fin 100000) (j : Fin 128) :
    projArr A W b (ix2 r j)
      = max ((∑ k : Fin 128, A (ix2 r k) * W (ix2 k j)) + b j) (Ideal.ofBits .f32 0x00000000#32) := rfl

theorem combArr_at (c1 c2 c3 c4 : BitVec 32) (agg h0 : NodeArr) (W : WArr) (r : Fin 100000) (j : Fin 128) :
    combArr c1 c2 c3 c4 agg h0 W (ix2 r j)
      = max (Ideal.ofBits .f32 c3 * (Ideal.ofBits .f32 c1 * agg (ix2 r j) + Ideal.ofBits .f32 c2 * h0 (ix2 r j))
          + Ideal.ofBits .f32 c4
            * ∑ k : Fin 128, (Ideal.ofBits .f32 c1 * agg (ix2 r k) + Ideal.ofBits .f32 c2 * h0 (ix2 r k)) * W (ix2 k j))
        (Ideal.ofBits .f32 0x00000000#32) := rfl

theorem finArr_at (A : NodeArr) (W : WArr) (b : Row) (r : Fin 100000) (q : Fin 128) :
    finArr A W b (ix2 r q) = finRow (rowOf A r) (matOf W) b q := rfl

/-! ## The input projection -/

theorem ref_proj (x0 : NodeArr) (x4 : WArr) (x5 : BArr) :
    val_main_v4 (F := Ideal) x0 x4 x5 = projArr x0 x4 (biasRow x5) := by
  funext i
  obtain ⟨r, j, rfl⟩ : ∃ (r : Fin 100000) (j : Fin 128), i = ix2 r j := ⟨i 0, i 1, eq_ix2 i⟩
  rw [projArr_at, val_main_v4_apply, val_main_v3_apply, val_main_v0_apply, val_main_v2_apply, val_main_v1_apply,
    val_main_call0_v0_apply, val_main_call0_cst_apply]
  unfold biasRow
  have el : ∀ k : Fin 128, lidx_main_v0 (ix2 r j) k = ix2 r k := fun k =>
    funext fun a => Fin.ext (by match a with | ⟨0, _⟩ => rfl | ⟨1, _⟩ => rfl)
  have er : ∀ k : Fin 128, ridx_main_v0 (ix2 r j) k = ix2 k j := fun k =>
    funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  rw [eb]
  simp only [Ideal.maximumf_def, Ideal.addf_def, Ideal.ofBits_def]
  exact congrArg (fun s => max (s + x5 (ix1 j)) (Ideal.ofBits .f32 0x00000000#32))
    (Finset.sum_congr rfl fun k _ => by rw [el k, er k])

/-! ## The sparse product and the layer tables

  Each layer's aggregated array is the sparse product of the previous stage's node array with the edge arrays: the
  reference spells the chain out operation by operation (source indices made non-negative, the source rows gathered,
  scaled by the edge weights, added into the destination rows of an array of zeros), and that chain is the sparse
  product of the specification term for term. Layer l's table is slice l of the stacked weights, reshaped to a
  128 × 128 table. -/

theorem ref_spmm0 (x0 : NodeArr) (x1 x2 : EIdx) (x3 : EWt) (x4 : WArr) (x5 : BArr) :
    val_main_v17 (F := Ideal) x0 x1 x2 x3 x4 x5 = spmm (val_main_v4 (F := Ideal) x0 x4 x5) x1 x2 x3 := by
  unfold val_main_v17 val_main_v16 val_main_v15 val_main_cst val_main_v14 val_main_v13 val_main_v12 val_main_v11 val_main_v10 val_main_v9 val_main_v8 val_main_v7 val_main_c_0
    val_main_v6 val_main_v5 val_main_c spmm
  generalize val_main_v4 (F := Ideal) x0 x4 x5 = h
  rfl

theorem ref_spmm1 (x0 : NodeArr) (x1 x2 : EIdx) (x3 : EWt) (x4 : WArr) (x5 : BArr) (x8 : WStack) :
    val_main_v44 (F := Ideal) x0 x1 x2 x3 x4 x5 x8 = spmm (val_main_v31 (F := Ideal) x0 x1 x2 x3 x4 x5 x8) x1 x2 x3 := by
  unfold val_main_v44 val_main_v43 val_main_v42 val_main_cst_7 val_main_v41 val_main_v40 val_main_v39 val_main_v38 val_main_v37 val_main_v36 val_main_v35 val_main_v34 val_main_c_6
    val_main_v33 val_main_v32 val_main_c_5 spmm
  generalize val_main_v31 (F := Ideal) x0 x1 x2 x3 x4 x5 x8 = h
  rfl

theorem ref_spmm2 (x0 : NodeArr) (x1 x2 : EIdx) (x3 : EWt) (x4 : WArr) (x5 : BArr) (x8 : WStack) :
    val_main_v71 (F := Ideal) x0 x1 x2 x3 x4 x5 x8 = spmm (val_main_v58 (F := Ideal) x0 x1 x2 x3 x4 x5 x8) x1 x2 x3 := by
  unfold val_main_v71 val_main_v70 val_main_v69 val_main_cst_14 val_main_v68 val_main_v67 val_main_v66 val_main_v65 val_main_v64 val_main_v63 val_main_v62 val_main_v61 val_main_c_13
    val_main_v60 val_main_v59 val_main_c_12 spmm
  generalize val_main_v58 (F := Ideal) x0 x1 x2 x3 x4 x5 x8 = h
  rfl

theorem ref_spmm3 (x0 : NodeArr) (x1 x2 : EIdx) (x3 : EWt) (x4 : WArr) (x5 : BArr) (x8 : WStack) :
    val_main_v98 (F := Ideal) x0 x1 x2 x3 x4 x5 x8 = spmm (val_main_v85 (F := Ideal) x0 x1 x2 x3 x4 x5 x8) x1 x2 x3 := by
  unfold val_main_v98 val_main_v97 val_main_v96 val_main_cst_21 val_main_v95 val_main_v94 val_main_v93 val_main_v92 val_main_v91 val_main_v90 val_main_v89 val_main_v88 val_main_c_20
    val_main_v87 val_main_v86 val_main_c_19 spmm
  generalize val_main_v85 (F := Ideal) x0 x1 x2 x3 x4 x5 x8 = h
  rfl

theorem ref_w0 (x8 : WStack) : val_main_v26 (F := Ideal) x8 = wslice0 x8 := by
  unfold val_main_v26 val_main_v25 wslice0
  rfl

theorem ref_w1 (x8 : WStack) : val_main_v53 (F := Ideal) x8 = wslice1 x8 := by
  unfold val_main_v53 val_main_v52 wslice1
  rfl

theorem ref_w2 (x8 : WStack) : val_main_v80 (F := Ideal) x8 = wslice2 x8 := by
  unfold val_main_v80 val_main_v79 wslice2
  rfl

theorem ref_w3 (x8 : WStack) : val_main_v107 (F := Ideal) x8 = wslice3 x8 := by
  unfold val_main_v107 val_main_v106 wslice3
  rfl

/-! ## The propagation layers -/

/-- Layer 0's mixed array: nine tenths of the aggregated array plus one tenth of the first layer's, entry by entry
    (the two factors are the float words nearest 0.9 and 0.1). -/
theorem ref_mix0 (x0 : NodeArr) (x1 x2 : EIdx) (x3 : EWt) (x4 : WArr) (x5 : BArr) (i : S100000x128.Idx) :
    val_main_v22 (F := Ideal) x0 x1 x2 x3 x4 x5 i
      = Ideal.ofBits .f32 0x3F666666#32 * val_main_v17 (F := Ideal) x0 x1 x2 x3 x4 x5 i
        + Ideal.ofBits .f32 0x3DCCCCCD#32 * val_main_v4 (F := Ideal) x0 x4 x5 i := by
  rw [val_main_v22_apply, val_main_v19_apply, val_main_v18_apply, val_main_cst_1_apply, val_main_v21_apply, val_main_v20_apply, val_main_cst_2_apply]
  generalize val_main_v17 (F := Ideal) x0 x1 x2 x3 x4 x5 i = a
  generalize val_main_v4 (F := Ideal) x0 x4 x5 i = b
  rfl

/-- Layer 0: the result is the larger of zero and the weighted sum of the mixed row and its product with the
    layer's table. -/
theorem ref_comb0 (x0 : NodeArr) (x1 x2 : EIdx) (x3 : EWt) (x4 : WArr) (x5 : BArr) (x8 : WStack) :
    val_main_v31 (F := Ideal) x0 x1 x2 x3 x4 x5 x8
      = combArr 0x3F666666#32 0x3DCCCCCD#32 0x3F183370#32 0x3ECF991F#32 (val_main_v17 (F := Ideal) x0 x1 x2 x3 x4 x5)
          (val_main_v4 (F := Ideal) x0 x4 x5) (val_main_v26 (F := Ideal) x8) := by
  funext i
  obtain ⟨r, j, rfl⟩ : ∃ (r : Fin 100000) (j : Fin 128), i = ix2 r j := ⟨i 0, i 1, eq_ix2 i⟩
  have el : ∀ k : Fin 128, lidx_main_v27 (ix2 r j) k = ix2 r k := fun k =>
    funext fun a => Fin.ext (by match a with | ⟨0, _⟩ => rfl | ⟨1, _⟩ => rfl)
  have er : ∀ k : Fin 128, ridx_main_v27 (ix2 r j) k = ix2 k j := fun k =>
    funext fun a => Fin.ext (by match a with | ⟨0, _⟩ => rfl | ⟨1, _⟩ => rfl)
  have hs : ∀ k : Fin 128,
      val_main_v22 (F := Ideal) x0 x1 x2 x3 x4 x5 (lidx_main_v27 (ix2 r j) k) * val_main_v26 (F := Ideal) x8 (ridx_main_v27 (ix2 r j) k)
        = (Ideal.ofBits .f32 0x3F666666#32 * val_main_v17 (F := Ideal) x0 x1 x2 x3 x4 x5 (ix2 r k)
            + Ideal.ofBits .f32 0x3DCCCCCD#32 * val_main_v4 (F := Ideal) x0 x4 x5 (ix2 r k))
          * val_main_v26 (F := Ideal) x8 (ix2 k j) := fun k => by
    rw [el k, er k, ref_mix0]
  rw [combArr_at, val_main_v31_apply, val_main_v30_apply, val_main_v24_apply, val_main_v23_apply, val_main_cst_3_apply, ref_mix0,
    val_main_v29_apply, val_main_v28_apply, val_main_cst_4_apply, val_main_v27_apply, val_main_call1_v0_apply, val_main_call1_cst_apply,
    Finset.sum_congr rfl fun k _ => hs k]
  generalize val_main_v17 (F := Ideal) x0 x1 x2 x3 x4 x5 = agg
  generalize val_main_v4 (F := Ideal) x0 x4 x5 = h0
  generalize val_main_v26 (F := Ideal) x8 = w
  rfl

/-- Layer 1's mixed array: nine tenths of the aggregated array plus one tenth of the first layer's, entry by entry
    (the two factors are the float words nearest 0.9 and 0.1). -/
theorem ref_mix1 (x0 : NodeArr) (x1 x2 : EIdx) (x3 : EWt) (x4 : WArr) (x5 : BArr) (x8 : WStack) (i : S100000x128.Idx) :
    val_main_v49 (F := Ideal) x0 x1 x2 x3 x4 x5 x8 i
      = Ideal.ofBits .f32 0x3F666666#32 * val_main_v44 (F := Ideal) x0 x1 x2 x3 x4 x5 x8 i
        + Ideal.ofBits .f32 0x3DCCCCCD#32 * val_main_v4 (F := Ideal) x0 x4 x5 i := by
  rw [val_main_v49_apply, val_main_v46_apply, val_main_v45_apply, val_main_cst_8_apply, val_main_v48_apply, val_main_v47_apply, val_main_cst_9_apply]
  generalize val_main_v44 (F := Ideal) x0 x1 x2 x3 x4 x5 x8 i = a
  generalize val_main_v4 (F := Ideal) x0 x4 x5 i = b
  rfl

/-- Layer 1: the result is the larger of zero and the weighted sum of the mixed row and its product with the
    layer's table. -/
theorem ref_comb1 (x0 : NodeArr) (x1 x2 : EIdx) (x3 : EWt) (x4 : WArr) (x5 : BArr) (x8 : WStack) :
    val_main_v58 (F := Ideal) x0 x1 x2 x3 x4 x5 x8
      = combArr 0x3F666666#32 0x3DCCCCCD#32 0x3F46E010#32 0x3E647FBE#32 (val_main_v44 (F := Ideal) x0 x1 x2 x3 x4 x5 x8)
          (val_main_v4 (F := Ideal) x0 x4 x5) (val_main_v53 (F := Ideal) x8) := by
  funext i
  obtain ⟨r, j, rfl⟩ : ∃ (r : Fin 100000) (j : Fin 128), i = ix2 r j := ⟨i 0, i 1, eq_ix2 i⟩
  have el : ∀ k : Fin 128, lidx_main_v54 (ix2 r j) k = ix2 r k := fun k =>
    funext fun a => Fin.ext (by match a with | ⟨0, _⟩ => rfl | ⟨1, _⟩ => rfl)
  have er : ∀ k : Fin 128, ridx_main_v54 (ix2 r j) k = ix2 k j := fun k =>
    funext fun a => Fin.ext (by match a with | ⟨0, _⟩ => rfl | ⟨1, _⟩ => rfl)
  have hs : ∀ k : Fin 128,
      val_main_v49 (F := Ideal) x0 x1 x2 x3 x4 x5 x8 (lidx_main_v54 (ix2 r j) k) * val_main_v53 (F := Ideal) x8 (ridx_main_v54 (ix2 r j) k)
        = (Ideal.ofBits .f32 0x3F666666#32 * val_main_v44 (F := Ideal) x0 x1 x2 x3 x4 x5 x8 (ix2 r k)
            + Ideal.ofBits .f32 0x3DCCCCCD#32 * val_main_v4 (F := Ideal) x0 x4 x5 (ix2 r k))
          * val_main_v53 (F := Ideal) x8 (ix2 k j) := fun k => by
    rw [el k, er k, ref_mix1]
  rw [combArr_at, val_main_v58_apply, val_main_v57_apply, val_main_v51_apply, val_main_v50_apply, val_main_cst_10_apply, ref_mix1,
    val_main_v56_apply, val_main_v55_apply, val_main_cst_11_apply, val_main_v54_apply, val_main_call2_v0_apply, val_main_call2_cst_apply,
    Finset.sum_congr rfl fun k _ => hs k]
  generalize val_main_v44 (F := Ideal) x0 x1 x2 x3 x4 x5 x8 = agg
  generalize val_main_v4 (F := Ideal) x0 x4 x5 = h0
  generalize val_main_v53 (F := Ideal) x8 = w
  rfl

/-- Layer 2's mixed array: nine tenths of the aggregated array plus one tenth of the first layer's, entry by entry
    (the two factors are the float words nearest 0.9 and 0.1). -/
theorem ref_mix2 (x0 : NodeArr) (x1 x2 : EIdx) (x3 : EWt) (x4 : WArr) (x5 : BArr) (x8 : WStack) (i : S100000x128.Idx) :
    val_main_v76 (F := Ideal) x0 x1 x2 x3 x4 x5 x8 i
      = Ideal.ofBits .f32 0x3F666666#32 * val_main_v71 (F := Ideal) x0 x1 x2 x3 x4 x5 x8 i
        + Ideal.ofBits .f32 0x3DCCCCCD#32 * val_main_v4 (F := Ideal) x0 x4 x5 i := by
  rw [val_main_v76_apply, val_main_v73_apply, val_main_v72_apply, val_main_cst_15_apply, val_main_v75_apply, val_main_v74_apply, val_main_cst_16_apply]
  generalize val_main_v71 (F := Ideal) x0 x1 x2 x3 x4 x5 x8 i = a
  generalize val_main_v4 (F := Ideal) x0 x4 x5 i = b
  rfl

/-- Layer 2: the result is the larger of zero and the weighted sum of the mixed row and its product with the
    layer's table. -/
theorem ref_comb2 (x0 : NodeArr) (x1 x2 : EIdx) (x3 : EWt) (x4 : WArr) (x5 : BArr) (x8 : WStack) :
    val_main_v85 (F := Ideal) x0 x1 x2 x3 x4 x5 x8
      = combArr 0x3F666666#32 0x3DCCCCCD#32 0x3F588995#32 0x3E1DD9AD#32 (val_main_v71 (F := Ideal) x0 x1 x2 x3 x4 x5 x8)
          (val_main_v4 (F := Ideal) x0 x4 x5) (val_main_v80 (F := Ideal) x8) := by
  funext i
  obtain ⟨r, j, rfl⟩ : ∃ (r : Fin 100000) (j : Fin 128), i = ix2 r j := ⟨i 0, i 1, eq_ix2 i⟩
  have el : ∀ k : Fin 128, lidx_main_v81 (ix2 r j) k = ix2 r k := fun k =>
    funext fun a => Fin.ext (by match a with | ⟨0, _⟩ => rfl | ⟨1, _⟩ => rfl)
  have er : ∀ k : Fin 128, ridx_main_v81 (ix2 r j) k = ix2 k j := fun k =>
    funext fun a => Fin.ext (by match a with | ⟨0, _⟩ => rfl | ⟨1, _⟩ => rfl)
  have hs : ∀ k : Fin 128,
      val_main_v76 (F := Ideal) x0 x1 x2 x3 x4 x5 x8 (lidx_main_v81 (ix2 r j) k) * val_main_v80 (F := Ideal) x8 (ridx_main_v81 (ix2 r j) k)
        = (Ideal.ofBits .f32 0x3F666666#32 * val_main_v71 (F := Ideal) x0 x1 x2 x3 x4 x5 x8 (ix2 r k)
            + Ideal.ofBits .f32 0x3DCCCCCD#32 * val_main_v4 (F := Ideal) x0 x4 x5 (ix2 r k))
          * val_main_v80 (F := Ideal) x8 (ix2 k j) := fun k => by
    rw [el k, er k, ref_mix2]
  rw [combArr_at, val_main_v85_apply, val_main_v84_apply, val_main_v78_apply, val_main_v77_apply, val_main_cst_17_apply, ref_mix2,
    val_main_v83_apply, val_main_v82_apply, val_main_cst_18_apply, val_main_v81_apply, val_main_call3_v0_apply, val_main_call3_cst_apply,
    Finset.sum_congr rfl fun k _ => hs k]
  generalize val_main_v71 (F := Ideal) x0 x1 x2 x3 x4 x5 x8 = agg
  generalize val_main_v4 (F := Ideal) x0 x4 x5 = h0
  generalize val_main_v80 (F := Ideal) x8 = w
  rfl

/-- Layer 3's mixed array: nine tenths of the aggregated array plus one tenth of the first layer's, entry by entry
    (the two factors are the float words nearest 0.9 and 0.1). -/
theorem ref_mix3 (x0 : NodeArr) (x1 x2 : EIdx) (x3 : EWt) (x4 : WArr) (x5 : BArr) (x8 : WStack) (i : S100000x128.Idx) :
    val_main_v103 (F := Ideal) x0 x1 x2 x3 x4 x5 x8 i
      = Ideal.ofBits .f32 0x3F666666#32 * val_main_v98 (F := Ideal) x0 x1 x2 x3 x4 x5 x8 i
        + Ideal.ofBits .f32 0x3DCCCCCD#32 * val_main_v4 (F := Ideal) x0 x4 x5 i := by
  rw [val_main_v103_apply, val_main_v100_apply, val_main_v99_apply, val_main_cst_22_apply, val_main_v102_apply, val_main_v101_apply, val_main_cst_23_apply]
  generalize val_main_v98 (F := Ideal) x0 x1 x2 x3 x4 x5 x8 i = a
  generalize val_main_v4 (F := Ideal) x0 x4 x5 i = b
  rfl

/-- Layer 3: the result is the larger of zero and the weighted sum of the mixed row and its product with the
    layer's table. -/
theorem ref_comb3 (x0 : NodeArr) (x1 x2 : EIdx) (x3 : EWt) (x4 : WArr) (x5 : BArr) (x8 : WStack) :
    val_main_v112 (F := Ideal) x0 x1 x2 x3 x4 x5 x8
      = combArr 0x3F666666#32 0x3DCCCCCD#32 0x3F61D8F9#32 0x3DF1383B#32 (val_main_v98 (F := Ideal) x0 x1 x2 x3 x4 x5 x8)
          (val_main_v4 (F := Ideal) x0 x4 x5) (val_main_v107 (F := Ideal) x8) := by
  funext i
  obtain ⟨r, j, rfl⟩ : ∃ (r : Fin 100000) (j : Fin 128), i = ix2 r j := ⟨i 0, i 1, eq_ix2 i⟩
  have el : ∀ k : Fin 128, lidx_main_v108 (ix2 r j) k = ix2 r k := fun k =>
    funext fun a => Fin.ext (by match a with | ⟨0, _⟩ => rfl | ⟨1, _⟩ => rfl)
  have er : ∀ k : Fin 128, ridx_main_v108 (ix2 r j) k = ix2 k j := fun k =>
    funext fun a => Fin.ext (by match a with | ⟨0, _⟩ => rfl | ⟨1, _⟩ => rfl)
  have hs : ∀ k : Fin 128,
      val_main_v103 (F := Ideal) x0 x1 x2 x3 x4 x5 x8 (lidx_main_v108 (ix2 r j) k) * val_main_v107 (F := Ideal) x8 (ridx_main_v108 (ix2 r j) k)
        = (Ideal.ofBits .f32 0x3F666666#32 * val_main_v98 (F := Ideal) x0 x1 x2 x3 x4 x5 x8 (ix2 r k)
            + Ideal.ofBits .f32 0x3DCCCCCD#32 * val_main_v4 (F := Ideal) x0 x4 x5 (ix2 r k))
          * val_main_v107 (F := Ideal) x8 (ix2 k j) := fun k => by
    rw [el k, er k, ref_mix3]
  rw [combArr_at, val_main_v112_apply, val_main_v111_apply, val_main_v105_apply, val_main_v104_apply, val_main_cst_24_apply, ref_mix3,
    val_main_v110_apply, val_main_v109_apply, val_main_cst_25_apply, val_main_v108_apply, val_main_call4_v0_apply, val_main_call4_cst_apply,
    Finset.sum_congr rfl fun k _ => hs k]
  generalize val_main_v98 (F := Ideal) x0 x1 x2 x3 x4 x5 x8 = agg
  generalize val_main_v4 (F := Ideal) x0 x4 x5 = h0
  generalize val_main_v107 (F := Ideal) x8 = w
  rfl

/-! ## The classifier and its log-softmax

  The logits of row r are the row's product with the classifier's table plus the bias row. The reference takes the
  largest logit of each row by a reduction from −∞ along the row, takes the larger of that and −∞ once more (which
  changes nothing), subtracts it, and subtracts the logarithm of the row's sum of exponentials, a sum started from
  zero. -/

theorem logitsRow_at (A : NodeArr) (W : WArr) (b : BArr) (r : Fin 100000) (j : Fin 128) :
    logitsRow (rowOf A r) (matOf W) (biasRow b) j = (∑ k : Fin 128, A (ix2 r k) * W (ix2 k j)) + b (ix1 j) := rfl

/-- The logits at (r, j). -/
theorem logits_at (x0 : NodeArr) (x1 x2 : EIdx) (x3 : EWt) (x4 : WArr) (x5 : BArr) (x6 : WArr) (x7 : BArr) (x8 : WStack) (r : Fin 100000) (j : Fin 128) :
    val_main_v116 (F := Ideal) x0 x1 x2 x3 x4 x5 x6 x7 x8 (ix2 r j) = logitsRow (rowOf (val_main_v112 (F := Ideal) x0 x1 x2 x3 x4 x5 x8) r) (matOf x6) (biasRow x7) j := by
  have el : ∀ k : Fin 128, lidx_main_v113 (ix2 r j) k = ix2 r k := fun k =>
    funext fun a => Fin.ext (by match a with | ⟨0, _⟩ => rfl | ⟨1, _⟩ => rfl)
  have er : ∀ k : Fin 128, ridx_main_v113 (ix2 r j) k = ix2 k j := fun k =>
    funext fun a => Fin.ext (by match a with | ⟨0, _⟩ => rfl | ⟨1, _⟩ => rfl)
  have eb : idx_main_v114 (idx_main_v115 (ix2 r j)) = ix1 j :=
    funext fun a => Fin.ext (by match a with | ⟨0, _⟩ => rfl)
  rw [logitsRow_at, val_main_v116_apply, val_main_v113_apply, val_main_v115_apply, val_main_v114_apply, eb]
  generalize val_main_v112 (F := Ideal) x0 x1 x2 x3 x4 x5 x8 = A
  simp only [Ideal.addf_def]
  exact congrArg (fun s => s + x7 (ix1 j)) (Finset.sum_congr rfl fun k _ => by rw [el k, er k])

/-- Row r's index with column k put back is (r, k). -/
theorem lift_row (h : S100000x128.Reduces [1] S100000) (r : Fin 100000) (k : Fin (S100000x128.size 1)) :
    h.lift (ix1 r) k = ix2 r (⟨k.val, k.isLt⟩ : Fin 128) := by
  funext c
  apply Fin.ext
  match c with
  | ⟨0, _⟩ => rfl
  | ⟨1, _⟩ => rfl

/-- A reduction along row r by the larger-of, started from −∞, is the fold over the row's entries. -/
theorem rowmax_gen (X : NodeArr) (L : Row) (h' : S100000x128.ReducesTo [1] S100000) (hu : 0 < S_.numel) (r : Fin 100000)
    (hX : ∀ k : Fin 128, X (ix2 r k) = L k) :
    Host.reduce (FloatOps.maximumf (F := Ideal) (φ := .f32)) X (constant (F := Ideal) S_ .f32 0xFF800000#32) h' hu (ix1 r)
      = rowMax L := by
  have h : S100000x128.Reduces [1] S100000 := by decide
  rw [Host.reduce_eq_fold_single FloatOps.maximumf _ _ _ h]
  have hf : (X ∘ h.lift (ix1 r)) = L :=
    funext fun k => (congrArg X (lift_row h r k)).trans (hX ⟨k.val, k.isLt⟩)
  rw [hf]
  rfl

/-- The reference's reduction along row r is the fold of the larger-of over the row's logits, started from −∞. -/
theorem rowmax_at (x0 : NodeArr) (x1 x2 : EIdx) (x3 : EWt) (x4 : WArr) (x5 : BArr) (x6 : WArr) (x7 : BArr) (x8 : WStack) (r : Fin 100000) :
    val_main_call5_v0 (F := Ideal) x0 x1 x2 x3 x4 x5 x6 x7 x8 (ix1 r) = rowMax (logitsRow (rowOf (val_main_v112 (F := Ideal) x0 x1 x2 x3 x4 x5 x8) r) (matOf x6) (biasRow x7)) := by
  unfold val_main_call5_v0
  exact rowmax_gen (val_main_v116 (F := Ideal) x0 x1 x2 x3 x4 x5 x6 x7 x8) (logitsRow (rowOf (val_main_v112 (F := Ideal) x0 x1 x2 x3 x4 x5 x8) r) (matOf x6) (biasRow x7)) _ _ r
    (fun k => logits_at x0 x1 x2 x3 x4 x5 x6 x7 x8 r k)

/-- The logits less the row's largest, at (r, q). -/
theorem shift_at (x0 : NodeArr) (x1 x2 : EIdx) (x3 : EWt) (x4 : WArr) (x5 : BArr) (x6 : WArr) (x7 : BArr) (x8 : WStack) (r : Fin 100000) (q : Fin 128) :
    val_main_call5_v5 (F := Ideal) x0 x1 x2 x3 x4 x5 x6 x7 x8 (ix2 r q) = shiftRow (logitsRow (rowOf (val_main_v112 (F := Ideal) x0 x1 x2 x3 x4 x5 x8) r) (matOf x6) (biasRow x7)) q := by
  have e : idx_main_call5_v3 (idx_main_call5_v4 (ix2 r q)) = ix1 r :=
    funext fun a => Fin.ext (by match a with | ⟨0, _⟩ => rfl)
  rw [val_main_call5_v5_apply, val_main_call5_v4_apply, val_main_call5_v3_apply, val_main_call5_v2_apply,
    val_main_call5_v1_apply, val_main_call5_cst_0_apply, e, rowmax_at, logits_at]
  generalize logitsRow (rowOf (val_main_v112 (F := Ideal) x0 x1 x2 x3 x4 x5 x8) r) (matOf x6) (biasRow x7) = L
  simp only [Ideal.subf_def, Ideal.maximumf_def, Ideal.ofBits_def, max_init_rowMax]
  rfl

theorem ref_fin (x0 : NodeArr) (x1 x2 : EIdx) (x3 : EWt) (x4 : WArr) (x5 : BArr) (x6 : WArr) (x7 : BArr) (x8 : WStack) :
    val_main_v117 (F := Ideal) x0 x1 x2 x3 x4 x5 x6 x7 x8
      = finArr (val_main_v112 (F := Ideal) x0 x1 x2 x3 x4 x5 x8) x6 (biasRow x7) := by
  funext i
  obtain ⟨r, q, rfl⟩ : ∃ (r : Fin 100000) (q : Fin 128), i = ix2 r q := ⟨i 0, i 1, eq_ix2 i⟩
  have e : idx_main_call5_v8 (idx_main_call5_v10 (ix2 r q)) = ix1 r :=
    funext fun a => Fin.ext (by match a with | ⟨0, _⟩ => rfl)
  have ek : ∀ k : Fin 128, idx_main_call5_v7 (ix1 r) k = ix2 r k := fun k =>
    funext fun a => Fin.ext (by match a with | ⟨0, _⟩ => rfl | ⟨1, _⟩ => rfl)
  have hk : ∀ k : Fin 128, val_main_call5_v6 (F := Ideal) x0 x1 x2 x3 x4 x5 x6 x7 x8 (idx_main_call5_v7 (ix1 r) k)
      = Ideal.exp (shiftRow (logitsRow (rowOf (val_main_v112 (F := Ideal) x0 x1 x2 x3 x4 x5 x8) r) (matOf x6) (biasRow x7)) k) := fun k => by
    rw [ek k, val_main_call5_v6_apply, shift_at]
    exact Ideal.hostUnary_exp_def _
  rw [finArr_at, val_main_v117_apply, shift_at, val_main_call5_v10_apply, val_main_call5_v9_apply,
    val_main_call5_v8_apply, e, val_main_call5_v7_apply, val_main_call5_cst_1_apply,
    Finset.sum_congr rfl fun k _ => hk k]
  unfold finRow
  generalize logitsRow (rowOf (val_main_v112 (F := Ideal) x0 x1 x2 x3 x4 x5 x8) r) (matOf x6) (biasRow x7) = L
  simp only [Ideal.subf_def, Ideal.hostUnary_exp_def, Ideal.hostUnary_log_def, Ideal.ofBits_def, Ideal.ofBits_zero_f32,
    zero_add]

end Cert.Gcn.Ref

end
-- ==== Proof.RefChain.lean ====
/-
  What the reference program's result buffer holds after its run: the last stage of the reference read stage by stage.

  The reference is one straight line of 170 host operations. Its run leaves in the result buffer the fold of the
  operations over the launch contents. That fold is evaluated here in ten consecutive pieces, cut where the network's
  stages end: the input projection; four times the sparse product of the current node array followed by the
  propagation layer that consumes it; the classifier with its log-softmax. The line is the concatenation of the ten
  pieces, and the fold over a concatenation is the fold over the second piece of the fold over the first.

  Each piece is read from ARBITRARY buffer contents: given what the buffers it reads hold, the buffer it ends in holds
  the matching stage of the reference, a function of the program's arguments. A piece reads the previous piece's result,
  the projection (every propagation layer mixes it in again), and argument arrays; nothing writes an argument array, and
  nothing after the first piece writes the projection, so these keep their contents through the pieces in between.
  Walking the ten pieces forward from the launch contents gives the last stage of the nine arguments.
-/
import proofs.«109353_j58935541236367_1_alg».proof.Proof.RefRead
import Idealize.ShloMosaic.Lib.StableHlo.Run

noncomputable section

namespace Cert.Gcn.RefChain

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The line of operations in ten pieces -/

/-- The input projection: the product with the first weight table, the bias laid out over the rows, the larger of the sum and zero. -/
abbrev sProj : List (HloOp τ sig (Elt F)) :=
  [ binary main_arg0 main_arg4 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg5 main_v1 (broadcastInDim S1x128 ![1] bcast_S128_S1x128_1 : (⟨S128, .f32⟩ : BufTy).Contents (Elt F) → (⟨S1x128, .f32⟩ : BufTy).Contents (Elt F)),
    unary main_v1 main_v2 (broadcastInDim S100000x128 ![0, 1] bcast_S1x128_S100000x128_0_1 : (⟨S1x128, .f32⟩ : BufTy).Contents (Elt F) → (⟨S100000x128, .f32⟩ : BufTy).Contents (Elt F)),
    binary main_v0 main_v2 main_v3 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x128, .f32⟩) main_call0_v0) (broadcastInDim S100000x128 ![] bcast_S_S100000x128),
    TRef.binary (TRef.of (T := ⟨S100000x128, .f32⟩) main_v3) (TRef.of (T := ⟨S100000x128, .f32⟩) main_call0_v0) (TRef.of (T := ⟨S100000x128, .f32⟩) main_v4) maximumf ]

/-- The sparse product of the projection: non-negative source indices, the gathered rows scaled by the edge weights, added into the destination rows from zero. -/
abbrev sAgg0 : List (HloOp τ sig (Elt F)) :=
  [ nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_arg1 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_arg1 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_arg1 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_v4 main_v10 main_v11 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v12 (broadcastInDim S1600000x1 ![0] bcast_S1600000_S1600000x1_0 : (⟨S1600000, .f32⟩ : BufTy).Contents (Elt F) → (⟨S1600000x1, .f32⟩ : BufTy).Contents (Elt F)),
    unary main_v12 main_v13 (broadcastInDim S1600000x128 ![0, 1] bcast_S1600000x1_S1600000x128_0_1 : (⟨S1600000x1, .f32⟩ : BufTy).Contents (Elt F) → (⟨S1600000x128, .f32⟩ : BufTy).Contents (Elt F)),
    binary main_v11 main_v13 main_v14 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v15 (broadcastInDim S100000x128 ![] bcast_S_S100000x128 : (⟨S_, .f32⟩ : BufTy).Contents (Elt F) → (⟨S100000x128, .f32⟩ : BufTy).Contents (Elt F)),
    unary main_arg2 main_v16 (broadcastInDim S1600000x1 ![0] bcast_S1600000_S1600000x1_0 : (⟨S1600000, .i32⟩ : BufTy).Contents (Elt F) → (⟨S1600000x1, .i32⟩ : BufTy).Contents (Elt F)),
    ternary main_v15 main_v16 main_v14 main_v17 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The first propagation layer: the mix with the projection, the layer's table cut out of the stacked weights, the two scaled terms, the larger of their sum and zero. -/
abbrev sLayer0 : List (HloOp τ sig (Elt F)) :=
  [ nullary main_cst_1 (constant S_ .f32 0x3F666666#32),
    unary main_cst_1 main_v18 (broadcastInDim S100000x128 ![] bcast_S_S100000x128 : (⟨S_, .f32⟩ : BufTy).Contents (Elt F) → (⟨S100000x128, .f32⟩ : BufTy).Contents (Elt F)),
    binary main_v18 main_v17 main_v19 (mulf : (⟨S100000x128, .f32⟩ : BufTy).Contents (Elt F) → (⟨S100000x128, .f32⟩ : BufTy).Contents (Elt F) → (⟨S100000x128, .f32⟩ : BufTy).Contents (Elt F)),
    nullary main_cst_2 (constant S_ .f32 0x3DCCCCCD#32),
    unary main_cst_2 main_v20 (broadcastInDim S100000x128 ![] bcast_S_S100000x128 : (⟨S_, .f32⟩ : BufTy).Contents (Elt F) → (⟨S100000x128, .f32⟩ : BufTy).Contents (Elt F)),
    binary main_v20 main_v4 main_v21 (mulf : (⟨S100000x128, .f32⟩ : BufTy).Contents (Elt F) → (⟨S100000x128, .f32⟩ : BufTy).Contents (Elt F) → (⟨S100000x128, .f32⟩ : BufTy).Contents (Elt F)),
    binary main_v19 main_v21 main_v22 (addf : (⟨S100000x128, .f32⟩ : BufTy).Contents (Elt F) → (⟨S100000x128, .f32⟩ : BufTy).Contents (Elt F) → (⟨S100000x128, .f32⟩ : BufTy).Contents (Elt F)),
    nullary main_cst_3 (constant S_ .f32 0x3F183370#32),
    unary main_cst_3 main_v23 (broadcastInDim S100000x128 ![] bcast_S_S100000x128 : (⟨S_, .f32⟩ : BufTy).Contents (Elt F) → (⟨S100000x128, .f32⟩ : BufTy).Contents (Elt F)),
    binary main_v23 main_v22 main_v24 (mulf : (⟨S100000x128, .f32⟩ : BufTy).Contents (Elt F) → (⟨S100000x128, .f32⟩ : BufTy).Contents (Elt F) → (⟨S100000x128, .f32⟩ : BufTy).Contents (Elt F)),
    unary main_arg8 main_v25 ((extractStridedSlice S1x128x128 ![0, 0, 0] · slices_S4x128x128_S1x128x128_0_0_0) : (⟨S4x128x128, .f32⟩ : BufTy).Contents (Elt F) → (⟨S1x128x128, .f32⟩ : BufTy).Contents (Elt F)),
    reshape main_v25 main_v26 rfl shapeCasts_S1x128x128_S128x128,
    binary main_v22 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_4 (constant S_ .f32 0x3ECF991F#32),
    unary main_cst_4 main_v28 (broadcastInDim S100000x128 ![] bcast_S_S100000x128 : (⟨S_, .f32⟩ : BufTy).Contents (Elt F) → (⟨S100000x128, .f32⟩ : BufTy).Contents (Elt F)),
    binary main_v28 main_v27 main_v29 (mulf : (⟨S100000x128, .f32⟩ : BufTy).Contents (Elt F) → (⟨S100000x128, .f32⟩ : BufTy).Contents (Elt F) → (⟨S100000x128, .f32⟩ : BufTy).Contents (Elt F)),
    binary main_v24 main_v29 main_v30 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v30) (TRef.of (T := ⟨S100000x128, .f32⟩) main_call1_v0) (TRef.of (T := ⟨S100000x128, .f32⟩) main_v31) maximumf ]

/-- The sparse product of the first layer's output. -/
abbrev sAgg1 : List (HloOp τ sig (Elt F)) :=
  [ nullary main_c_5 (constantI S_ 32 0#32),
    unary main_c_5 main_v32 (broadcastInDim S1600000 ![] bcast_S_S1600000 : (⟨S_, .i32⟩ : BufTy).Contents (Elt F) → (⟨S1600000, .i32⟩ : BufTy).Contents (Elt F)),
    binary main_arg1 main_v32 main_v33 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v34 (broadcastInDim S1600000 ![] bcast_S_S1600000 : (⟨S_, .i32⟩ : BufTy).Contents (Elt F) → (⟨S1600000, .i32⟩ : BufTy).Contents (Elt F)),
    binary main_arg1 main_v34 main_v35 (addi : (⟨S1600000, .i32⟩ : BufTy).Contents (Elt F) → (⟨S1600000, .i32⟩ : BufTy).Contents (Elt F) → (⟨S1600000, .i32⟩ : BufTy).Contents (Elt F)),
    ternary main_v33 main_v35 main_arg1 main_v36 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v36 main_v37 (broadcastInDim S1600000x1 ![0] bcast_S1600000_S1600000x1_0 : (⟨S1600000, .i32⟩ : BufTy).Contents (Elt F) → (⟨S1600000x1, .i32⟩ : BufTy).Contents (Elt F)),
    binary main_v31 main_v37 main_v38 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v39 (broadcastInDim S1600000x1 ![0] bcast_S1600000_S1600000x1_0 : (⟨S1600000, .f32⟩ : BufTy).Contents (Elt F) → (⟨S1600000x1, .f32⟩ : BufTy).Contents (Elt F)),
    unary main_v39 main_v40 (broadcastInDim S1600000x128 ![0, 1] bcast_S1600000x1_S1600000x128_0_1 : (⟨S1600000x1, .f32⟩ : BufTy).Contents (Elt F) → (⟨S1600000x128, .f32⟩ : BufTy).Contents (Elt F)),
    binary main_v38 main_v40 main_v41 (mulf : (⟨S1600000x128, .f32⟩ : BufTy).Contents (Elt F) → (⟨S1600000x128, .f32⟩ : BufTy).Contents (Elt F) → (⟨S1600000x128, .f32⟩ : BufTy).Contents (Elt F)),
    nullary main_cst_7 (constant S_ .f32 0x00000000#32),
    unary main_cst_7 main_v42 (broadcastInDim S100000x128 ![] bcast_S_S100000x128 : (⟨S_, .f32⟩ : BufTy).Contents (Elt F) → (⟨S100000x128, .f32⟩ : BufTy).Contents (Elt F)),
    unary main_arg2 main_v43 (broadcastInDim S1600000x1 ![0] bcast_S1600000_S1600000x1_0 : (⟨S1600000, .i32⟩ : BufTy).Contents (Elt F) → (⟨S1600000x1, .i32⟩ : BufTy).Contents (Elt F)),
    ternary main_v42 main_v43 main_v41 main_v44 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The second propagation layer. -/
abbrev sLayer1 : List (HloOp τ sig (Elt F)) :=
  [ nullary main_cst_8 (constant S_ .f32 0x3F666666#32),
    unary main_cst_8 main_v45 (broadcastInDim S100000x128 ![] bcast_S_S100000x128 : (⟨S_, .f32⟩ : BufTy).Contents (Elt F) → (⟨S100000x128, .f32⟩ : BufTy).Contents (Elt F)),
    binary main_v45 main_v44 main_v46 (mulf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3DCCCCCD#32),
    unary main_cst_9 main_v47 (broadcastInDim S100000x128 ![] bcast_S_S100000x128 : (⟨S_, .f32⟩ : BufTy).Contents (Elt F) → (⟨S100000x128, .f32⟩ : BufTy).Contents (Elt F)),
    binary main_v47 main_v4 main_v48 (mulf : (⟨S100000x128, .f32⟩ : BufTy).Contents (Elt F) → (⟨S100000x128, .f32⟩ : BufTy).Contents (Elt F) → (⟨S100000x128, .f32⟩ : BufTy).Contents (Elt F)),
    binary main_v46 main_v48 main_v49 (addf : (⟨S100000x128, .f32⟩ : BufTy).Contents (Elt F) → (⟨S100000x128, .f32⟩ : BufTy).Contents (Elt F) → (⟨S100000x128, .f32⟩ : BufTy).Contents (Elt F)),
    nullary main_cst_10 (constant S_ .f32 0x3F46E010#32),
    unary main_cst_10 main_v50 (broadcastInDim S100000x128 ![] bcast_S_S100000x128 : (⟨S_, .f32⟩ : BufTy).Contents (Elt F) → (⟨S100000x128, .f32⟩ : BufTy).Contents (Elt F)),
    binary main_v50 main_v49 main_v51 (mulf : (⟨S100000x128, .f32⟩ : BufTy).Contents (Elt F) → (⟨S100000x128, .f32⟩ : BufTy).Contents (Elt F) → (⟨S100000x128, .f32⟩ : BufTy).Contents (Elt F)),
    unary main_arg8 main_v52 ((extractStridedSlice S1x128x128 ![1, 0, 0] · slices_S4x128x128_S1x128x128_1_0_0) : (⟨S4x128x128, .f32⟩ : BufTy).Contents (Elt F) → (⟨S1x128x128, .f32⟩ : BufTy).Contents (Elt F)),
    reshape main_v52 main_v53 rfl shapeCasts_S1x128x128_S128x128,
    binary main_v49 main_v53 main_v54 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_11 (constant S_ .f32 0x3E647FBE#32),
    unary main_cst_11 main_v55 (broadcastInDim S100000x128 ![] bcast_S_S100000x128 : (⟨S_, .f32⟩ : BufTy).Contents (Elt F) → (⟨S100000x128, .f32⟩ : BufTy).Contents (Elt F)),
    binary main_v55 main_v54 main_v56 (mulf : (⟨S100000x128, .f32⟩ : BufTy).Contents (Elt F) → (⟨S100000x128, .f32⟩ : BufTy).Contents (Elt F) → (⟨S100000x128, .f32⟩ : BufTy).Contents (Elt F)),
    binary main_v51 main_v56 main_v57 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S100000x128, .f32⟩) main_call2_v0) (broadcastInDim S100000x128 ![] bcast_S_S100000x128),
    TRef.binary (TRef.of (T := ⟨S100000x128, .f32⟩) main_v57) (TRef.of (T := ⟨S100000x128, .f32⟩) main_call2_v0) (TRef.of (T := ⟨S100000x128, .f32⟩) main_v58) maximumf ]

/-- The sparse product of the second layer's output. -/
abbrev sAgg2 : List (HloOp τ sig (Elt F)) :=
  [ nullary main_c_12 (constantI S_ 32 0#32),
    unary main_c_12 main_v59 (broadcastInDim S1600000 ![] bcast_S_S1600000 : (⟨S_, .i32⟩ : BufTy).Contents (Elt F) → (⟨S1600000, .i32⟩ : BufTy).Contents (Elt F)),
    binary main_arg1 main_v59 main_v60 (cmpi .slt : (⟨S1600000, .i32⟩ : BufTy).Contents (Elt F) → (⟨S1600000, .i32⟩ : BufTy).Contents (Elt F) → (⟨S1600000, .i1⟩ : BufTy).Contents (Elt F)),
    nullary main_c_13 (constantI S_ 32 100000#32),
    unary main_c_13 main_v61 (broadcastInDim S1600000 ![] bcast_S_S1600000 : (⟨S_, .i32⟩ : BufTy).Contents (Elt F) → (⟨S1600000, .i32⟩ : BufTy).Contents (Elt F)),
    binary main_arg1 main_v61 main_v62 (addi : (⟨S1600000, .i32⟩ : BufTy).Contents (Elt F) → (⟨S1600000, .i32⟩ : BufTy).Contents (Elt F) → (⟨S1600000, .i32⟩ : BufTy).Contents (Elt F)),
    ternary main_v60 main_v62 main_arg1 main_v63 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v63 main_v64 (broadcastInDim S1600000x1 ![0] bcast_S1600000_S1600000x1_0 : (⟨S1600000, .i32⟩ : BufTy).Contents (Elt F) → (⟨S1600000x1, .i32⟩ : BufTy).Contents (Elt F)),
    binary main_v58 main_v64 main_v65 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v66 (broadcastInDim S1600000x1 ![0] bcast_S1600000_S1600000x1_0 : (⟨S1600000, .f32⟩ : BufTy).Contents (Elt F) → (⟨S1600000x1, .f32⟩ : BufTy).Contents (Elt F)),
    unary main_v66 main_v67 (broadcastInDim S1600000x128 ![0, 1] bcast_S1600000x1_S1600000x128_0_1 : (⟨S1600000x1, .f32⟩ : BufTy).Contents (Elt F) → (⟨S1600000x128, .f32⟩ : BufTy).Contents (Elt F)),
    binary main_v65 main_v67 main_v68 (mulf : (⟨S1600000x128, .f32⟩ : BufTy).Contents (Elt F) → (⟨S1600000x128, .f32⟩ : BufTy).Contents (Elt F) → (⟨S1600000x128, .f32⟩ : BufTy).Contents (Elt F)),
    nullary main_cst_14 (constant S_ .f32 0x00000000#32),
    unary main_cst_14 main_v69 (broadcastInDim S100000x128 ![] bcast_S_S100000x128 : (⟨S_, .f32⟩ : BufTy).Contents (Elt F) → (⟨S100000x128, .f32⟩ : BufTy).Contents (Elt F)),
    unary main_arg2 main_v70 (broadcastInDim S1600000x1 ![0] bcast_S1600000_S1600000x1_0 : (⟨S1600000, .i32⟩ : BufTy).Contents (Elt F) → (⟨S1600000x1, .i32⟩ : BufTy).Contents (Elt F)),
    ternary main_v69 main_v70 main_v68 main_v71 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The third propagation layer. -/
abbrev sLayer2 : List (HloOp τ sig (Elt F)) :=
  [ nullary main_cst_15 (constant S_ .f32 0x3F666666#32),
    unary main_cst_15 main_v72 (broadcastInDim S100000x128 ![] bcast_S_S100000x128 : (⟨S_, .f32⟩ : BufTy).Contents (Elt F) → (⟨S100000x128, .f32⟩ : BufTy).Contents (Elt F)),
    binary main_v72 main_v71 main_v73 (mulf : (⟨S100000x128, .f32⟩ : BufTy).Contents (Elt F) → (⟨S100000x128, .f32⟩ : BufTy).Contents (Elt F) → (⟨S100000x128, .f32⟩ : BufTy).Contents (Elt F)),
    nullary main_cst_16 (constant S_ .f32 0x3DCCCCCD#32),
    unary main_cst_16 main_v74 (broadcastInDim S100000x128 ![] bcast_S_S100000x128 : (⟨S_, .f32⟩ : BufTy).Contents (Elt F) → (⟨S100000x128, .f32⟩ : BufTy).Contents (Elt F)),
    binary main_v74 main_v4 main_v75 (mulf : (⟨S100000x128, .f32⟩ : BufTy).Contents (Elt F) → (⟨S100000x128, .f32⟩ : BufTy).Contents (Elt F) → (⟨S100000x128, .f32⟩ : BufTy).Contents (Elt F)),
    binary main_v73 main_v75 main_v76 (addf : (⟨S100000x128, .f32⟩ : BufTy).Contents (Elt F) → (⟨S100000x128, .f32⟩ : BufTy).Contents (Elt F) → (⟨S100000x128, .f32⟩ : BufTy).Contents (Elt F)),
    nullary main_cst_17 (constant S_ .f32 0x3F588995#32),
    unary main_cst_17 main_v77 (broadcastInDim S100000x128 ![] bcast_S_S100000x128 : (⟨S_, .f32⟩ : BufTy).Contents (Elt F) → (⟨S100000x128, .f32⟩ : BufTy).Contents (Elt F)),
    binary main_v77 main_v76 main_v78 (mulf : (⟨S100000x128, .f32⟩ : BufTy).Contents (Elt F) → (⟨S100000x128, .f32⟩ : BufTy).Contents (Elt F) → (⟨S100000x128, .f32⟩ : BufTy).Contents (Elt F)),
    unary main_arg8 main_v79 ((extractStridedSlice S1x128x128 ![2, 0, 0] · slices_S4x128x128_S1x128x128_2_0_0) : (⟨S4x128x128, .f32⟩ : BufTy).Contents (Elt F) → (⟨S1x128x128, .f32⟩ : BufTy).Contents (Elt F)),
    reshape main_v79 main_v80 rfl shapeCasts_S1x128x128_S128x128,
    binary main_v76 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_18 (constant S_ .f32 0x3E1DD9AD#32),
    unary main_cst_18 main_v82 (broadcastInDim S100000x128 ![] bcast_S_S100000x128 : (⟨S_, .f32⟩ : BufTy).Contents (Elt F) → (⟨S100000x128, .f32⟩ : BufTy).Contents (Elt F)),
    binary main_v82 main_v81 main_v83 (mulf : (⟨S100000x128, .f32⟩ : BufTy).Contents (Elt F) → (⟨S100000x128, .f32⟩ : BufTy).Contents (Elt F) → (⟨S100000x128, .f32⟩ : BufTy).Contents (Elt F)),
    binary main_v78 main_v83 main_v84 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v84) (TRef.of (T := ⟨S100000x128, .f32⟩) main_call3_v0) (TRef.of (T := ⟨S100000x128, .f32⟩) main_v85) maximumf ]

/-- The sparse product of the third layer's output. -/
abbrev sAgg3 : List (HloOp τ sig (Elt F)) :=
  [ nullary main_c_19 (constantI S_ 32 0#32),
    unary main_c_19 main_v86 (broadcastInDim S1600000 ![] bcast_S_S1600000 : (⟨S_, .i32⟩ : BufTy).Contents (Elt F) → (⟨S1600000, .i32⟩ : BufTy).Contents (Elt F)),
    binary main_arg1 main_v86 main_v87 (cmpi .slt : (⟨S1600000, .i32⟩ : BufTy).Contents (Elt F) → (⟨S1600000, .i32⟩ : BufTy).Contents (Elt F) → (⟨S1600000, .i1⟩ : BufTy).Contents (Elt F)),
    nullary main_c_20 (constantI S_ 32 100000#32),
    unary main_c_20 main_v88 (broadcastInDim S1600000 ![] bcast_S_S1600000 : (⟨S_, .i32⟩ : BufTy).Contents (Elt F) → (⟨S1600000, .i32⟩ : BufTy).Contents (Elt F)),
    binary main_arg1 main_v88 main_v89 (addi : (⟨S1600000, .i32⟩ : BufTy).Contents (Elt F) → (⟨S1600000, .i32⟩ : BufTy).Contents (Elt F) → (⟨S1600000, .i32⟩ : BufTy).Contents (Elt F)),
    ternary main_v87 main_v89 main_arg1 main_v90 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v90 main_v91 (broadcastInDim S1600000x1 ![0] bcast_S1600000_S1600000x1_0 : (⟨S1600000, .i32⟩ : BufTy).Contents (Elt F) → (⟨S1600000x1, .i32⟩ : BufTy).Contents (Elt F)),
    binary main_v85 main_v91 main_v92 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_arg3 main_v93 (broadcastInDim S1600000x1 ![0] bcast_S1600000_S1600000x1_0 : (⟨S1600000, .f32⟩ : BufTy).Contents (Elt F) → (⟨S1600000x1, .f32⟩ : BufTy).Contents (Elt F)),
    unary main_v93 main_v94 (broadcastInDim S1600000x128 ![0, 1] bcast_S1600000x1_S1600000x128_0_1 : (⟨S1600000x1, .f32⟩ : BufTy).Contents (Elt F) → (⟨S1600000x128, .f32⟩ : BufTy).Contents (Elt F)),
    binary main_v92 main_v94 main_v95 (mulf : (⟨S1600000x128, .f32⟩ : BufTy).Contents (Elt F) → (⟨S1600000x128, .f32⟩ : BufTy).Contents (Elt F) → (⟨S1600000x128, .f32⟩ : BufTy).Contents (Elt F)),
    nullary main_cst_21 (constant S_ .f32 0x00000000#32),
    unary main_cst_21 main_v96 (broadcastInDim S100000x128 ![] bcast_S_S100000x128 : (⟨S_, .f32⟩ : BufTy).Contents (Elt F) → (⟨S100000x128, .f32⟩ : BufTy).Contents (Elt F)),
    unary main_arg2 main_v97 (broadcastInDim S1600000x1 ![0] bcast_S1600000_S1600000x1_0 : (⟨S1600000, .i32⟩ : BufTy).Contents (Elt F) → (⟨S1600000x1, .i32⟩ : BufTy).Contents (Elt F)),
    ternary main_v96 main_v97 main_v95 main_v98 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)) ]

/-- The fourth propagation layer. -/
abbrev sLayer3 : List (HloOp τ sig (Elt F)) :=
  [ nullary main_cst_22 (constant S_ .f32 0x3F666666#32),
    unary main_cst_22 main_v99 (broadcastInDim S100000x128 ![] bcast_S_S100000x128 : (⟨S_, .f32⟩ : BufTy).Contents (Elt F) → (⟨S100000x128, .f32⟩ : BufTy).Contents (Elt F)),
    binary main_v99 main_v98 main_v100 (mulf : (⟨S100000x128, .f32⟩ : BufTy).Contents (Elt F) → (⟨S100000x128, .f32⟩ : BufTy).Contents (Elt F) → (⟨S100000x128, .f32⟩ : BufTy).Contents (Elt F)),
    nullary main_cst_23 (constant S_ .f32 0x3DCCCCCD#32),
    unary main_cst_23 main_v101 (broadcastInDim S100000x128 ![] bcast_S_S100000x128 : (⟨S_, .f32⟩ : BufTy).Contents (Elt F) → (⟨S100000x128, .f32⟩ : BufTy).Contents (Elt F)),
    binary main_v101 main_v4 main_v102 (mulf : (⟨S100000x128, .f32⟩ : BufTy).Contents (Elt F) → (⟨S100000x128, .f32⟩ : BufTy).Contents (Elt F) → (⟨S100000x128, .f32⟩ : BufTy).Contents (Elt F)),
    binary main_v100 main_v102 main_v103 (addf : (⟨S100000x128, .f32⟩ : BufTy).Contents (Elt F) → (⟨S100000x128, .f32⟩ : BufTy).Contents (Elt F) → (⟨S100000x128, .f32⟩ : BufTy).Contents (Elt F)),
    nullary main_cst_24 (constant S_ .f32 0x3F61D8F9#32),
    unary main_cst_24 main_v104 (broadcastInDim S100000x128 ![] bcast_S_S100000x128 : (⟨S_, .f32⟩ : BufTy).Contents (Elt F) → (⟨S100000x128, .f32⟩ : BufTy).Contents (Elt F)),
    binary main_v104 main_v103 main_v105 (mulf : (⟨S100000x128, .f32⟩ : BufTy).Contents (Elt F) → (⟨S100000x128, .f32⟩ : BufTy).Contents (Elt F) → (⟨S100000x128, .f32⟩ : BufTy).Contents (Elt F)),
    unary main_arg8 main_v106 ((extractStridedSlice S1x128x128 ![3, 0, 0] · slices_S4x128x128_S1x128x128_3_0_0) : (⟨S4x128x128, .f32⟩ : BufTy).Contents (Elt F) → (⟨S1x128x128, .f32⟩ : BufTy).Contents (Elt F)),
    reshape main_v106 main_v107 rfl shapeCasts_S1x128x128_S128x128,
    binary main_v103 main_v107 main_v108 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_cst_25 (constant S_ .f32 0x3DF1383B#32),
    unary main_cst_25 main_v109 (broadcastInDim S100000x128 ![] bcast_S_S100000x128 : (⟨S_, .f32⟩ : BufTy).Contents (Elt F) → (⟨S100000x128, .f32⟩ : BufTy).Contents (Elt F)),
    binary main_v109 main_v108 main_v110 (mulf : (⟨S100000x128, .f32⟩ : BufTy).Contents (Elt F) → (⟨S100000x128, .f32⟩ : BufTy).Contents (Elt F) → (⟨S100000x128, .f32⟩ : BufTy).Contents (Elt F)),
    binary main_v105 main_v110 main_v111 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x128, .f32⟩) main_call4_v0) (broadcastInDim S100000x128 ![] bcast_S_S100000x128),
    TRef.binary (TRef.of (T := ⟨S100000x128, .f32⟩) main_v111) (TRef.of (T := ⟨S100000x128, .f32⟩) main_call4_v0) (TRef.of (T := ⟨S100000x128, .f32⟩) main_v112) maximumf ]

/-- The classifier: the logits, the row's largest entry taken away, the logarithm of the sum of the exponentials taken away. -/
abbrev sClass : List (HloOp τ sig (Elt F)) :=
  [ binary main_v112 main_arg6 main_v113 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v114 (broadcastInDim S1x128 ![1] bcast_S128_S1x128_1 : (⟨S128, .f32⟩ : BufTy).Contents (Elt F) → (⟨S1x128, .f32⟩ : BufTy).Contents (Elt F)),
    unary main_v114 main_v115 (broadcastInDim S100000x128 ![0, 1] bcast_S1x128_S100000x128_0_1 : (⟨S1x128, .f32⟩ : BufTy).Contents (Elt F) → (⟨S100000x128, .f32⟩ : BufTy).Contents (Elt F)),
    binary main_v113 main_v115 main_v116 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call5_cst) (constant S_ .f32 0xFF800000#32),
    TRef.binary (TRef.of (T := ⟨S100000x128, .f32⟩) main_v116) (TRef.of (T := ⟨S_, .f32⟩) main_call5_cst) (TRef.of (T := ⟨S100000, .f32⟩) main_call5_v0) (fun x v => Host.reduce FloatOps.maximumf x v reducesTo_S100000x128_S100000_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S100000, .f32⟩) main_call5_v1) (broadcastInDim S100000 ![] bcast_S_S100000),
    TRef.binary (TRef.of (T := ⟨S100000, .f32⟩) main_call5_v1) (TRef.of (T := ⟨S100000, .f32⟩) main_call5_v0) (TRef.of (T := ⟨S100000, .f32⟩) main_call5_v2) maximumf,
    TRef.unary (TRef.of (T := ⟨S100000, .f32⟩) main_call5_v2) (TRef.of (T := ⟨S100000x1, .f32⟩) main_call5_v3) (broadcastInDim S100000x1 ![0] bcast_S100000_S100000x1_0),
    TRef.unary (TRef.of (T := ⟨S100000x1, .f32⟩) main_call5_v3) (TRef.of (T := ⟨S100000x128, .f32⟩) main_call5_v4) (broadcastInDim S100000x128 ![0, 1] bcast_S100000x1_S100000x128_0_1),
    TRef.binary (TRef.of (T := ⟨S100000x128, .f32⟩) main_v116) (TRef.of (T := ⟨S100000x128, .f32⟩) main_call5_v4) (TRef.of (T := ⟨S100000x128, .f32⟩) main_call5_v5) subf,
    TRef.unary (TRef.of (T := ⟨S100000x128, .f32⟩) main_call5_v5) (TRef.of (T := ⟨S100000x128, .f32⟩) main_call5_v6) Host.exp,
    TRef.nullary (TRef.of (T := ⟨S_, .f32⟩) main_call5_cst_1) (constant S_ .f32 0x00000000#32),
    TRef.binary (TRef.of (T := ⟨S100000x128, .f32⟩) main_call5_v6) (TRef.of (T := ⟨S_, .f32⟩) main_call5_cst_1) (TRef.of (T := ⟨S100000, .f32⟩) main_call5_v7) (fun x v => Host.reduceAdd x v reducesTo_S100000x128_S100000_d1 h_S_),
    TRef.unary (TRef.of (T := ⟨S100000, .f32⟩) main_call5_v7) (TRef.of (T := ⟨S100000x1, .f32⟩) main_call5_v8) (broadcastInDim S100000x1 ![0] bcast_S100000_S100000x1_0),
    TRef.unary (TRef.of (T := ⟨S100000x1, .f32⟩) main_call5_v8) (TRef.of (T := ⟨S100000x1, .f32⟩) main_call5_v9) Host.log,
    TRef.unary (TRef.of (T := ⟨S100000x1, .f32⟩) main_call5_v9) (TRef.of (T := ⟨S100000x128, .f32⟩) main_call5_v10) (broadcastInDim S100000x128 ![0, 1] bcast_S100000x1_S100000x128_0_1),
    TRef.binary (TRef.of (T := ⟨S100000x128, .f32⟩) main_call5_v5) (TRef.of (T := ⟨S100000x128, .f32⟩) main_call5_v10) (TRef.of (T := ⟨S100000x128, .f32⟩) main_v117) subf ]

/-- The reference's line of operations is the ten pieces in a row. -/
theorem ops_cut : (ops : List (HloOp τ sig (Elt F)))
    = sProj ++ (sAgg0 ++ (sLayer0 ++ (sAgg1 ++ (sLayer1 ++ (sAgg2 ++ (sLayer2 ++ (sAgg3 ++ (sLayer3 ++ sClass)))))))) := rfl

/-! ## Typed references

The operations of an outlined function name their buffers through references that carry the tensor type; a value is
moved to the buffer's own type on writing and back on reading. Both moves are the identity transport, so a value
written by one such operation and read by the next is unchanged. -/

/-- Contents moved to a typed reference's own buffer type and back are unchanged. -/
theorem ofBuf_toBuf {T : BufTy} (x : TRef sig T) (v : T.Contents (Elt F)) : x.ofBuf (x.toBuf v) = v := by
  obtain ⟨r, rfl, hd, hs⟩ := x
  rfl

/-! ## Each piece, from any contents

A piece's lemma takes what the buffers it reads hold as hypotheses and names the stage its last buffer then holds. The
operations' results are read off the list one by one and the transports between an outlined function's operations are
erased; what is left is the stage's own definition, opened down to the stages named in the hypotheses. -/

/-- The projection piece ends in the projection stage of the three arrays it reads. -/
theorem seg_proj (V : Valuation τ sig (Elt F)) (x0 : (⟨S100000x128, .f32⟩ : BufTy).Contents (Elt F)) (x4 : (⟨S128x128, .f32⟩ : BufTy).Contents (Elt F)) (x5 : (⟨S128, .f32⟩ : BufTy).Contents (Elt F))
    (h0 : V (Proc.devRef .tc main_arg0) = x0) (h4 : V (Proc.devRef .tc main_arg4) = x4) (h5 : V (Proc.devRef .tc main_arg5) = x5) :
    after sProj V (Proc.devRef .tc main_v4) = val_main_v4 (F := F) x0 x4 x5 := by
  after_results_simp
  simp only [ofBuf_toBuf]
  rw [h0, h4, h5]
  rfl

/-- The first sparse product, of a buffer holding the projection stage, with the three edge arrays. -/
theorem seg_agg0 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F))
    (hh : V (Proc.devRef .tc main_v4) = val_main_v4 (F := F) x0 x4 x5)
    (h1 : V (Proc.devRef .tc main_arg1) = x1) (h2 : V (Proc.devRef .tc main_arg2) = x2) (h3 : V (Proc.devRef .tc main_arg3) = x3) :
    after sAgg0 V (Proc.devRef .tc main_v17) = val_main_v17 (F := F) x0 x1 x2 x3 x4 x5 := by
  after_results_simp
  rw [hh, h1, h2, h3]
  rfl

/-- The first propagation layer, of the first sparse product, the projection and the stacked weights. -/
theorem seg_layer0 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x8 : (⟨S4x128x128, .f32⟩ : BufTy).Contents (Elt F))
    (ha : V (Proc.devRef .tc main_v17) = val_main_v17 (F := F) x0 x1 x2 x3 x4 x5)
    (hp : V (Proc.devRef .tc main_v4) = val_main_v4 (F := F) x0 x4 x5) (h8 : V (Proc.devRef .tc main_arg8) = x8) :
    after sLayer0 V (Proc.devRef .tc main_v31) = val_main_v31 (F := F) x0 x1 x2 x3 x4 x5 x8 := by
  after_results_simp
  simp only [ofBuf_toBuf]
  rw [ha, hp, h8]
  rfl

/-- The second sparse product, of a buffer holding the first layer's stage, with the three edge arrays. -/
theorem seg_agg1 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x8 : (⟨S4x128x128, .f32⟩ : BufTy).Contents (Elt F))
    (hh : V (Proc.devRef .tc main_v31) = val_main_v31 (F := F) x0 x1 x2 x3 x4 x5 x8)
    (h1 : V (Proc.devRef .tc main_arg1) = x1) (h2 : V (Proc.devRef .tc main_arg2) = x2) (h3 : V (Proc.devRef .tc main_arg3) = x3) :
    after sAgg1 V (Proc.devRef .tc main_v44) = val_main_v44 (F := F) x0 x1 x2 x3 x4 x5 x8 := by
  after_results_simp
  rw [hh, h1, h2, h3]
  rfl

/-- The second propagation layer, of the second sparse product, the projection and the stacked weights. -/
theorem seg_layer1 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x8 : (⟨S4x128x128, .f32⟩ : BufTy).Contents (Elt F))
    (ha : V (Proc.devRef .tc main_v44) = val_main_v44 (F := F) x0 x1 x2 x3 x4 x5 x8)
    (hp : V (Proc.devRef .tc main_v4) = val_main_v4 (F := F) x0 x4 x5) (h8 : V (Proc.devRef .tc main_arg8) = x8) :
    after sLayer1 V (Proc.devRef .tc main_v58) = val_main_v58 (F := F) x0 x1 x2 x3 x4 x5 x8 := by
  after_results_simp
  simp only [ofBuf_toBuf]
  rw [ha, hp, h8]
  rfl

/-- The third sparse product, of a buffer holding the second layer's stage, with the three edge arrays. -/
theorem seg_agg2 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x8 : (⟨S4x128x128, .f32⟩ : BufTy).Contents (Elt F))
    (hh : V (Proc.devRef .tc main_v58) = val_main_v58 (F := F) x0 x1 x2 x3 x4 x5 x8)
    (h1 : V (Proc.devRef .tc main_arg1) = x1) (h2 : V (Proc.devRef .tc main_arg2) = x2) (h3 : V (Proc.devRef .tc main_arg3) = x3) :
    after sAgg2 V (Proc.devRef .tc main_v71) = val_main_v71 (F := F) x0 x1 x2 x3 x4 x5 x8 := by
  after_results_simp
  rw [hh, h1, h2, h3]
  rfl

/-- The third propagation layer, of the third sparse product, the projection and the stacked weights. -/
theorem seg_layer2 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x8 : (⟨S4x128x128, .f32⟩ : BufTy).Contents (Elt F))
    (ha : V (Proc.devRef .tc main_v71) = val_main_v71 (F := F) x0 x1 x2 x3 x4 x5 x8)
    (hp : V (Proc.devRef .tc main_v4) = val_main_v4 (F := F) x0 x4 x5) (h8 : V (Proc.devRef .tc main_arg8) = x8) :
    after sLayer2 V (Proc.devRef .tc main_v85) = val_main_v85 (F := F) x0 x1 x2 x3 x4 x5 x8 := by
  after_results_simp
  simp only [ofBuf_toBuf]
  rw [ha, hp, h8]
  rfl

/-- The fourth sparse product, of a buffer holding the third layer's stage, with the three edge arrays. -/
theorem seg_agg3 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x8 : (⟨S4x128x128, .f32⟩ : BufTy).Contents (Elt F))
    (hh : V (Proc.devRef .tc main_v85) = val_main_v85 (F := F) x0 x1 x2 x3 x4 x5 x8)
    (h1 : V (Proc.devRef .tc main_arg1) = x1) (h2 : V (Proc.devRef .tc main_arg2) = x2) (h3 : V (Proc.devRef .tc main_arg3) = x3) :
    after sAgg3 V (Proc.devRef .tc main_v98) = val_main_v98 (F := F) x0 x1 x2 x3 x4 x5 x8 := by
  after_results_simp
  rw [hh, h1, h2, h3]
  rfl

/-- The fourth propagation layer, of the fourth sparse product, the projection and the stacked weights. -/
theorem seg_layer3 (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x8 : (⟨S4x128x128, .f32⟩ : BufTy).Contents (Elt F))
    (ha : V (Proc.devRef .tc main_v98) = val_main_v98 (F := F) x0 x1 x2 x3 x4 x5 x8)
    (hp : V (Proc.devRef .tc main_v4) = val_main_v4 (F := F) x0 x4 x5) (h8 : V (Proc.devRef .tc main_arg8) = x8) :
    after sLayer3 V (Proc.devRef .tc main_v112) = val_main_v112 (F := F) x0 x1 x2 x3 x4 x5 x8 := by
  after_results_simp
  simp only [ofBuf_toBuf]
  rw [ha, hp, h8]
  rfl

/-- The classifier, of the fourth layer's stage, its weight table and its bias. -/
theorem seg_class (V : Valuation τ sig (Elt F)) (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F))
    (hh : V (Proc.devRef .tc main_v112) = val_main_v112 (F := F) x0 x1 x2 x3 x4 x5 x8)
    (h6 : V (Proc.devRef .tc main_arg6) = x6) (h7 : V (Proc.devRef .tc main_arg7) = x7) :
    after sClass V (Proc.devRef .tc main_v117) = val_main_v117 (F := F) x0 x1 x2 x3 x4 x5 x6 x7 x8 := by
  after_results_simp
  simp only [ofBuf_toBuf]
  rw [hh, h6, h7]
  rfl

/-! ## What is carried from piece to piece -/

section Walk

variable (x0 : (⟨S100000x128, .f32⟩ : BufTy).Contents (Elt F)) (x1 x2 : (⟨S1600000, .i32⟩ : BufTy).Contents (Elt F)) (x3 : (⟨S1600000, .f32⟩ : BufTy).Contents (Elt F)) (x4 : (⟨S128x128, .f32⟩ : BufTy).Contents (Elt F)) (x5 : (⟨S128, .f32⟩ : BufTy).Contents (Elt F)) (x6 : (⟨S128x128, .f32⟩ : BufTy).Contents (Elt F)) (x7 : (⟨S128, .f32⟩ : BufTy).Contents (Elt F)) (x8 : (⟨S4x128x128, .f32⟩ : BufTy).Contents (Elt F))

/-- What the pieces after the projection rely on besides the previous piece's result: the six argument buffers they
    read hold the given arrays, and the projection's buffer holds the projection stage. -/
structure Carry (V : Valuation τ sig (Elt F)) : Prop where
  a1 : V (Proc.devRef .tc main_arg1) = x1
  a2 : V (Proc.devRef .tc main_arg2) = x2
  a3 : V (Proc.devRef .tc main_arg3) = x3
  a6 : V (Proc.devRef .tc main_arg6) = x6
  a7 : V (Proc.devRef .tc main_arg7) = x7
  a8 : V (Proc.devRef .tc main_arg8) = x8
  p : V (Proc.devRef .tc main_v4) = val_main_v4 (F := F) x0 x4 x5

variable {x0 x1 x2 x3 x4 x5 x6 x7 x8}

/-- The projection piece establishes it: it writes no argument buffer, and it ends in the projection's buffer. -/
theorem carry_proj (V : Valuation τ sig (Elt F)) (h0 : V (Proc.devRef .tc main_arg0) = x0) (h1 : V (Proc.devRef .tc main_arg1) = x1)
    (h2 : V (Proc.devRef .tc main_arg2) = x2) (h3 : V (Proc.devRef .tc main_arg3) = x3) (h4 : V (Proc.devRef .tc main_arg4) = x4)
    (h5 : V (Proc.devRef .tc main_arg5) = x5) (h6 : V (Proc.devRef .tc main_arg6) = x6) (h7 : V (Proc.devRef .tc main_arg7) = x7)
    (h8 : V (Proc.devRef .tc main_arg8) = x8) : Carry x0 x1 x2 x3 x4 x5 x6 x7 x8 (after sProj V) :=
  ⟨Eq.trans (by after_results_simp) h1, Eq.trans (by after_results_simp) h2, Eq.trans (by after_results_simp) h3,
   Eq.trans (by after_results_simp) h6, Eq.trans (by after_results_simp) h7, Eq.trans (by after_results_simp) h8,
   seg_proj V x0 x4 x5 h0 h4 h5⟩

/-! No later piece writes an argument buffer or the projection's buffer: each of the seven keeps its contents. -/

theorem Carry.sAgg0 {V : Valuation τ sig (Elt F)} (h : Carry x0 x1 x2 x3 x4 x5 x6 x7 x8 V) :
    Carry x0 x1 x2 x3 x4 x5 x6 x7 x8 (after sAgg0 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

theorem Carry.sLayer0 {V : Valuation τ sig (Elt F)} (h : Carry x0 x1 x2 x3 x4 x5 x6 x7 x8 V) :
    Carry x0 x1 x2 x3 x4 x5 x6 x7 x8 (after sLayer0 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

theorem Carry.sAgg1 {V : Valuation τ sig (Elt F)} (h : Carry x0 x1 x2 x3 x4 x5 x6 x7 x8 V) :
    Carry x0 x1 x2 x3 x4 x5 x6 x7 x8 (after sAgg1 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

theorem Carry.sLayer1 {V : Valuation τ sig (Elt F)} (h : Carry x0 x1 x2 x3 x4 x5 x6 x7 x8 V) :
    Carry x0 x1 x2 x3 x4 x5 x6 x7 x8 (after sLayer1 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

theorem Carry.sAgg2 {V : Valuation τ sig (Elt F)} (h : Carry x0 x1 x2 x3 x4 x5 x6 x7 x8 V) :
    Carry x0 x1 x2 x3 x4 x5 x6 x7 x8 (after sAgg2 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

theorem Carry.sLayer2 {V : Valuation τ sig (Elt F)} (h : Carry x0 x1 x2 x3 x4 x5 x6 x7 x8 V) :
    Carry x0 x1 x2 x3 x4 x5 x6 x7 x8 (after sLayer2 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

theorem Carry.sAgg3 {V : Valuation τ sig (Elt F)} (h : Carry x0 x1 x2 x3 x4 x5 x6 x7 x8 V) :
    Carry x0 x1 x2 x3 x4 x5 x6 x7 x8 (after sAgg3 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

theorem Carry.sLayer3 {V : Valuation τ sig (Elt F)} (h : Carry x0 x1 x2 x3 x4 x5 x6 x7 x8 V) :
    Carry x0 x1 x2 x3 x4 x5 x6 x7 x8 (after sLayer3 V) :=
  ⟨Eq.trans (by after_results_simp) h.a1, Eq.trans (by after_results_simp) h.a2, Eq.trans (by after_results_simp) h.a3,
   Eq.trans (by after_results_simp) h.a6, Eq.trans (by after_results_simp) h.a7, Eq.trans (by after_results_simp) h.a8,
   Eq.trans (by after_results_simp) h.p⟩

/-! ## The walk -/

/-- From contents holding the nine arguments, the ten pieces one after the other end in the last stage. -/
theorem walk (V : Valuation τ sig (Elt F)) (h0 : V (Proc.devRef .tc main_arg0) = x0) (h1 : V (Proc.devRef .tc main_arg1) = x1)
    (h2 : V (Proc.devRef .tc main_arg2) = x2) (h3 : V (Proc.devRef .tc main_arg3) = x3) (h4 : V (Proc.devRef .tc main_arg4) = x4)
    (h5 : V (Proc.devRef .tc main_arg5) = x5) (h6 : V (Proc.devRef .tc main_arg6) = x6) (h7 : V (Proc.devRef .tc main_arg7) = x7)
    (h8 : V (Proc.devRef .tc main_arg8) = x8) :
    after sClass (after sLayer3 (after sAgg3 (after sLayer2 (after sAgg2 (after sLayer1 (after sAgg1 (after sLayer0
      (after sAgg0 (after sProj V))))))))) (Proc.devRef .tc main_v117) = val_main_v117 (F := F) x0 x1 x2 x3 x4 x5 x6 x7 x8 :=
  have C1 : Carry x0 x1 x2 x3 x4 x5 x6 x7 x8 (after sProj V) := carry_proj V h0 h1 h2 h3 h4 h5 h6 h7 h8
  have A0 := seg_agg0 _ x0 x1 x2 x3 x4 x5 C1.p C1.a1 C1.a2 C1.a3
  have C2 := C1.sAgg0
  have H0 := seg_layer0 _ x0 x1 x2 x3 x4 x5 x8 A0 C2.p C2.a8
  have C3 := C2.sLayer0
  have A1 := seg_agg1 _ x0 x1 x2 x3 x4 x5 x8 H0 C3.a1 C3.a2 C3.a3
  have C4 := C3.sAgg1
  have H1 := seg_layer1 _ x0 x1 x2 x3 x4 x5 x8 A1 C4.p C4.a8
  have C5 := C4.sLayer1
  have A2 := seg_agg2 _ x0 x1 x2 x3 x4 x5 x8 H1 C5.a1 C5.a2 C5.a3
  have C6 := C5.sAgg2
  have H2 := seg_layer2 _ x0 x1 x2 x3 x4 x5 x8 A2 C6.p C6.a8
  have C7 := C6.sLayer2
  have A3 := seg_agg3 _ x0 x1 x2 x3 x4 x5 x8 H2 C7.a1 C7.a2 C7.a3
  have C8 := C7.sAgg3
  have H3 := seg_layer3 _ x0 x1 x2 x3 x4 x5 x8 A3 C8.p C8.a8
  have C9 := C8.sLayer3
  seg_class _ x0 x1 x2 x3 x4 x5 x6 x7 x8 H3 C9.a6 C9.a7

end Walk

/-! ## The reference's value -/

/-- THE REFERENCE'S VALUE: the fold of the reference's 170 operations over core c's launch contents holds, in the result
    buffer, the last stage of the nine argument arrays of the launch memory. -/
theorem ref_value (m : (ℓ : Loc nD τ sig) → Buf (Elt Ideal) ℓ) (c : Dev nD) :
    after (ops (F := Ideal)) (launchContents m c) (Proc.devRef .tc main_v117)
      = val_main_v117 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  rw [ops_cut]
  simp only [after_append]
  exact walk (launchContents m c) rfl rfl rfl rfl rfl rfl rfl rfl rfl

end Cert.Gcn.RefChain

end
-- ==== Proof.lean ====
/-
  The certificate of a four-layer graph convolution network (an input projection, four propagation layers, a log-softmax
  classifier, with a sparse gather / scatter-add product between the layers) against its array-level reference, at the
  ideal reading: floats are extended reals, every operation is exact, a change of float format is the identity.

  Both programs are the same composition of functions of the argument arrays. The dense stages act row by row
  (Proof/Spec.lean): the kernel program runs each of them as a grid of 20 blocks of 5000 rows, and each grid's result
  array is the stage's array function of the arrays it finds on entry (Proof/Region0 … Region5.lean, over the body's
  stored value at one entry, Proof/Pay.lean); the reference program's whole-array operations read at an entry are the
  same row functions (Proof/RefStages.lean). The sparse product and the slicing of the stacked weights are the same host
  operations in both programs, carried as one function each (Proof/HostChain.lean). The kernel program's result buffer
  is followed through its twelve segments (Proof/KernelChain.lean) and the reference program's through its 170 operations
  (Proof/RefChain.lean); what they end holding is one term of the arguments. No law of arithmetic is used beyond
  `max a b = b` when `a ≤ b` (the reference takes one more maximum with −∞ than the kernel), so the precondition
  (every float input finite) is never opened. The idealization rewrote nothing, so `preserves` asks nothing; the three
  frames are the programs' runs with the results dropped.
-/
import proofs.«109353_j58935541236367_1_alg».proof.Defs
import proofs.«109353_j58935541236367_1_alg».proof.Proof.Gen.Kernel
import proofs.«109353_j58935541236367_1_alg».proof.Proof.Gen.Kernel.Skeleton
import proofs.«109353_j58935541236367_1_alg».proof.Proof.Gen.Kernel.Launch
import proofs.«109353_j58935541236367_1_alg».proof.Proof.Gen.Kernel.Points
import proofs.«109353_j58935541236367_1_alg».proof.Proof.Gen.Kernel.Frame
import proofs.«109353_j58935541236367_1_alg».proof.Proof.Gen.KernelIdeal
import proofs.«109353_j58935541236367_1_alg».proof.Proof.Gen.KernelIdeal.Skeleton
import proofs.«109353_j58935541236367_1_alg».proof.Proof.Gen.KernelIdeal.Launch
import proofs.«109353_j58935541236367_1_alg».proof.Proof.Gen.KernelIdeal.Points
import proofs.«109353_j58935541236367_1_alg».proof.Proof.Gen.KernelIdeal.Frame
import proofs.«109353_j58935541236367_1_alg».proof.Proof.Gen.ReferenceIdeal
import proofs.«109353_j58935541236367_1_alg».proof.Proof.Gen.Pre_finite_inputs
import proofs.«109353_j58935541236367_1_alg».proof.Proof.RefRead
import proofs.«109353_j58935541236367_1_alg».proof.Proof.Spec
import proofs.«109353_j58935541236367_1_alg».proof.Proof.HostChain
import proofs.«109353_j58935541236367_1_alg».proof.Proof.Pay
import proofs.«109353_j58935541236367_1_alg».proof.Proof.Region0
import proofs.«109353_j58935541236367_1_alg».proof.Proof.Region1
import proofs.«109353_j58935541236367_1_alg».proof.Proof.Region2
import proofs.«109353_j58935541236367_1_alg».proof.Proof.Region3
import proofs.«109353_j58935541236367_1_alg».proof.Proof.Region4
import proofs.«109353_j58935541236367_1_alg».proof.Proof.Region5
import proofs.«109353_j58935541236367_1_alg».proof.Proof.KernelChain
import proofs.«109353_j58935541236367_1_alg».proof.Proof.RefStages
import proofs.«109353_j58935541236367_1_alg».proof.Proof.RefChain
import Idealize.ShloMosaic.Adequacy
import Idealize.ShloMosaic.Init

noncomputable section

namespace Cert.Proof

open Idealize.ShloMosaic Idealize.ShloMosaic.TcCoe Idealize.SL.Sem Cert.Gcn

/-! ## The two values are one term -/

/-- The reference's last stage, of the kernel program's launch contents of the arguments, is the kernel's value: stage by
    stage the reference's arrays are the kernel's (`P`, then each layer's output, then the classifier). -/
theorem values_agree (m : (ℓ : Loc Cert.KernelIdeal.nD Cert.KernelIdeal.τ Cert.KernelIdeal.sig) → Buf (Elt Ideal) ℓ) (c : Dev Cert.KernelIdeal.nD) :
    Cert.ReferenceIdeal.ReadP.val_main_v117 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = finArr (Kern.H3 m c) (m ((c.tc : Thread Cert.KernelIdeal.nD Cert.KernelIdeal.τ).loc Cert.KernelIdeal.main_arg6))
          (biasRow (m ((c.tc : Thread Cert.KernelIdeal.nD Cert.KernelIdeal.τ).loc Cert.KernelIdeal.main_arg7))) := by
  have hP := Ref.ref_proj (m ((c.tc : Thread Cert.KernelIdeal.nD Cert.KernelIdeal.τ).loc Cert.KernelIdeal.main_arg0))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5))
  rw [Ref.ref_fin, Ref.ref_comb3, Ref.ref_spmm3, Ref.ref_w3, Ref.ref_comb2, Ref.ref_spmm2, Ref.ref_w2,
    Ref.ref_comb1, Ref.ref_spmm1, Ref.ref_w1, Ref.ref_comb0, Ref.ref_spmm0, Ref.ref_w0, hP]
  rfl

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- At the ideal reading the kernel program's result buffer ends at the classifier's log-softmax of the fourth layer's
    output (its run with the result named, then the chain of its segments), and the reference program's at its last
    stage of arguments that agree with the kernel's: one term. -/
theorem algebraic : Cert.algebraic_KernelIdeal_ReferenceIdeal := by
  intro m ρ m' ρ' _ hagree
  refine ⟨fun c => Cert.KernelIdeal.Gen.W12 m ρ c (Proc.devRef .tc Cert.KernelIdeal.main_v67), Kern.run_named (F := Ideal) m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8⟩ := hagree c
  rw [RefChain.ref_value m' c, e0, e1, e2, e3, e4, e5, e6, e7, e8, values_agree m c]
  exact (Kern.kernel_value m ρ c (Reg0.value) (Reg1.value) (Reg2.value) (Reg3.value) (Reg4.value) (Reg5.value)).symm

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
